-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1x16x2048x2048 : Shape := ⟨4, ![1, 16, 2048, 2048]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1x16x2048x2048 : S_.BroadcastsInDim S1x16x2048x2048 (![] : Fin 0 → Fin S1x16x2048x2048.rank)
  reducesTo_S1x16x2048x2048_S_d0_1_2_3 : S1x16x2048x2048.ReducesTo [0, 1, 2, 3] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S1x16x2048x2048 .f32) (main_arg2 : FVec F S1024 .f32) (main_arg3 : FVec F S1024x1024 .f32) (main_arg4 : FVec F S2048x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1x16x2048x2048 .f32 := Host.absf main_arg1
  let main_cst_0 : FVec F S_ .f32 := constant S_ .f32 0x7F800000#32
  let main_v5 : FVec F S1x16x2048x2048 .f32 := broadcastInDim S1x16x2048x2048 ![] bcast_S_S1x16x2048x2048 main_cst_0
  let main_v6 : IVec S1x16x2048x2048 1 := cmpf .olt main_v4 main_v5
  let main_c_1 : IVec S_ 1 := constantI S_ 1 1#1
  let main_v7 : IVec S_ 1 := (fun x v => Host.reduce IntOp.andi x v reducesTo_S1x16x2048x2048_S_d0_1_2_3 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1x16x2048x2048 : Shape := ⟨4, ![1, 16, 2048, 2048]⟩
abbrev S1024 : Shape := ⟨1, ![1024]⟩
abbrev S1024x1024 : Shape := ⟨2, ![1024, 1024]⟩
abbrev S2048x1024 : Shape := ⟨2, ![2048, 1024]⟩
abbrev S1x2048x512 : Shape := ⟨3, ![1, 2048, 512]⟩
abbrev S512 : Shape := ⟨1, ![512]⟩
abbrev S2048x512 : Shape := ⟨2, ![2048, 512]⟩
abbrev S1x512 : Shape := ⟨2, ![1, 512]⟩
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S2x2048x3072 : Shape := ⟨3, ![2, 2048, 3072]⟩
abbrev S2x256x128 : Shape := ⟨3, ![2, 256, 128]⟩
abbrev S2x2048x128 : Shape := ⟨3, ![2, 2048, 128]⟩
abbrev S1x2x256x2048 : Shape := ⟨4, ![1, 2, 256, 2048]⟩
abbrev S2x256x2048 : Shape := ⟨3, ![2, 256, 2048]⟩
abbrev S2x256x64 : Shape := ⟨3, ![2, 256, 64]⟩
abbrev S2x2048x64 : Shape := ⟨3, ![2, 2048, 64]⟩
abbrev S1x256x2048 : Shape := ⟨3, ![1, 256, 2048]⟩
abbrev S256x2048 : Shape := ⟨2, ![256, 2048]⟩
abbrev S2x256 : Shape := ⟨2, ![2, 256]⟩
abbrev S2x256x1 : Shape := ⟨3, ![2, 256, 1]⟩

abbrev nBuf : Space → Nat
  | .hbm => 19
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S1x16x2048x2048, .f32⟩
  | .hbm, ⟨2, _⟩ => ⟨S1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S2x2048x1024, .f32⟩
  | .hbm, ⟨7, _⟩ => ⟨S4096x1024, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S1024x1024, .f32⟩
  | .hbm, ⟨12, _⟩ => ⟨S1024x1024, .bf16⟩
  | .hbm, ⟨13, _⟩ => ⟨S4096x3072, .f32⟩
  | .hbm, ⟨14, _⟩ => ⟨S2x2048x3072, .f32⟩
  | .hbm, ⟨15, _⟩ => ⟨S2x2048x1024, .f32⟩
  | .hbm, ⟨16, _⟩ => ⟨S4096x1024, .f32⟩
  | .hbm, ⟨17, _⟩ => ⟨S4096x1024, .f32⟩
  | .hbm, ⟨18, _⟩ => ⟨S2x2048x1024, .f32⟩
  | .local _ .vmem, ⟨0, _⟩ => ⟨S1x2048x512, .f32⟩
  | .local _ .vmem, ⟨1, _⟩ => ⟨S1x2048x512, .f32⟩
  | .local _ .vmem, ⟨2, _⟩ => ⟨S512, .f32⟩
  | .local _ .vmem, ⟨3, _⟩ => ⟨S512, .f32⟩
  | .local _ .vmem, ⟨4, _⟩ => ⟨S1x2048x512, .f32⟩
  | .local _ .vmem, ⟨5, _⟩ => ⟨S1x2048x512, .f32⟩
  | .local _ .vmem, ⟨6, _⟩ => ⟨S512x1024, .f32⟩
  | .local _ .vmem, ⟨7, _⟩ => ⟨S512x1024, .f32⟩
  | .local _ .vmem, ⟨8, _⟩ => ⟨S1024x3072, .bf16⟩
  | .local _ .vmem, ⟨9, _⟩ => ⟨S512x3072, .f32⟩
  | .local _ .vmem, ⟨10, _⟩ => ⟨S512x3072, .f32⟩
  | .local _ .vmem, ⟨11, _⟩ => ⟨S2x256x128, .f32⟩
  | .local _ .vmem, ⟨12, _⟩ => ⟨S2x256x128, .f32⟩
  | .local _ .vmem, ⟨13, _⟩ => ⟨S2x2048x128, .f32⟩
  | .local _ .vmem, ⟨14, _⟩ => ⟨S2x2048x128, .f32⟩
  | .local _ .vmem, ⟨15, _⟩ => ⟨S2x2048x128, .f32⟩
  | .local _ .vmem, ⟨16, _⟩ => ⟨S2x2048x128, .f32⟩
  | .local _ .vmem, ⟨17, _⟩ => ⟨S1x2x256x2048, .f32⟩
  | .local _ .vmem, ⟨18, _⟩ => ⟨S1x2x256x2048, .f32⟩
  | .local _ .vmem, ⟨19, _⟩ => ⟨S2x256x128, .f32⟩
  | .local _ .vmem, ⟨20, _⟩ => ⟨S2x256x128, .f32⟩
  | .local _ .vmem, ⟨21, _⟩ => ⟨S512x1024, .f32⟩
  | .local _ .vmem, ⟨22, _⟩ => ⟨S512x1024, .f32⟩
  | .local _ .vmem, ⟨23, _⟩ => ⟨S1024x1024, .bf16⟩
  | .local _ .vmem, ⟨24, _⟩ => ⟨S512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc2_transform_2 (i : grid2.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage2_0 : Fin 2 → Memref sig .tc .vmem S2x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2x2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x2x256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S2x256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  reduces_S2048x512_S512 : S2048x512.Reduces [0] S512
  shapeCasts_S512_S1x512 : S512.ShapeCasts S1x512
  broadcasts_S1x512_S2048x512 : S1x512.Broadcasts S2048x512
  inb_S512_S512_0 : ∀ a, (![0] : Fin 1 → Nat) a + S512.size a ≤ S512.size a
  h_S512 : 0 < S512.numel
  shapeCasts_S2048x512_S1x2048x512 : S2048x512.ShapeCasts S1x2048x512
  shapeCasts_S2x2048x1024_S4096x1024 : S2x2048x1024.ShapeCasts S4096x1024
  concatenates_S1024x1024_S2048x1024_S3072x1024_d0 : Shape.Concatenates [S1024x1024, S2048x1024] S3072x1024 0
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  shapeCasts_S4096x3072_S2x2048x3072 : S4096x3072.ShapeCasts S2x2048x3072
  inb_S2x256x128_S2x256x128_0_0_0 : ∀ a, (![0, 0, 0] : Fin 3 → Nat) a + S2x256x128.size a ≤ S2x256x128.size a
  h_S2x256x128 : 0 < S2x256x128.numel
  shapeCasts_S2x256x128_S2x256x128 : S2x256x128.ShapeCasts S2x256x128
  inb_S2x2048x128_S2x2048x128_0_0_0 : ∀ a, (![0, 0, 0] : Fin 3 → Nat) a + S2x2048x128.size a ≤ S2x2048x128.size a
  h_S2x2048x128 : 0 < S2x2048x128.numel
  shapeCasts_S2x2048x128_S2x2048x128 : S2x2048x128.ShapeCasts S2x2048x128
  inb_S1x2x256x2048_S1x2x256x2048_0_0_0_0 : ∀ a, (![0, 0, 0, 0] : Fin 4 → Nat) a + S1x2x256x2048.size a ≤ S1x2x256x2048.size a
  h_S1x2x256x2048 : 0 < S1x2x256x2048.numel
  shapeCasts_S1x2x256x2048_S2x256x2048 : S1x2x256x2048.ShapeCasts S2x256x2048
  slices_S2x256x128_o0_0_0_S2x256x64 : S2x256x128.Slices ![0, 0, 0] S2x256x64
  slices_S2x2048x128_o0_0_0_S2x2048x64 : S2x2048x128.Slices ![0, 0, 0] S2x2048x64
  slices_S2x256x2048_o0_0_0_S1x256x2048 : S2x256x2048.Slices ![0, 0, 0] S1x256x2048
  shapeCasts_S1x256x2048_S256x2048 : S1x256x2048.ShapeCasts S256x2048
  shapeCasts_S256x2048_S1x256x2048 : S256x2048.ShapeCasts S1x256x2048
  broadcasts_S1x256x2048_S2x256x2048 : S1x256x2048.Broadcasts S2x256x2048
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  slices_S2x256x128_o0_0_64_S2x256x64 : S2x256x128.Slices ![0, 0, 64] S2x256x64
  slices_S2x2048x128_o0_0_64_S2x2048x64 : S2x2048x128.Slices ![0, 0, 64] S2x2048x64
  slices_S2x256x2048_o1_0_0_S1x256x2048 : S2x256x2048.Slices ![1, 0, 0] S1x256x2048
  concatenates_S2x256x64_S2x256x64_S2x256x128_d2 : Shape.Concatenates [S2x256x64, S2x256x64] S2x256x128 2
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S2x256x64_S2x2048x64_S2x256x2048_2_2_1_1_0_0_wf : DotDims.WF S2x256x64 S2x2048x64 S2x256x2048 [2] [2] [1] [1] [0] [0]
  dot_S2x256x2048_S2x2048x64_S2x256x64_2_1_1_2_0_0_wf : DotDims.WF S2x256x2048 S2x2048x64 S2x256x64 [2] [1] [1] [2] [0] [0]
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S2x2048x1024.size a
  hwx0_0 : ∀ i : grid0.Coords, EltTy.bits .f32 = 32 ∨ (Rect.block (s := S2x2048x1024) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S1024.size a
  hwx0_1 : ∀ i : grid0.Coords, EltTy.bits .f32 = 32 ∨ (Rect.block (s := S1024) S512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S2x2048x1024.size a
  hwx0_2 : ∀ i : grid0.Coords, EltTy.bits .f32 = 32 ∨ (Rect.block (s := S2x2048x1024) S1x2048x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x3072.size a ≤ S1024x3072.size a
  hwx1_1 : ∀ i : grid1.Coords, EltTy.bits .bf16 = 32 ∨ (Rect.block (s := S1024x3072) S1024x3072.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x3072.size a ≤ S4096x3072.size a
  hwx1_2 : ∀ i : grid1.Coords, EltTy.bits .f32 = 32 ∨ (Rect.block (s := S4096x3072) S512x3072.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x256x128.size a ≤ S2x2048x3072.size a
  hwx2_0 : ∀ i : grid2.Coords, EltTy.bits .f32 = 32 ∨ (Rect.block (s := S2x2048x3072) S2x256x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x2048x128.size a ≤ S2x2048x3072.size a
  hwx2_1 : ∀ i : grid2.Coords, EltTy.bits .f32 = 32 ∨ (Rect.block (s := S2x2048x3072) S2x2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x2048x128.size a ≤ S2x2048x3072.size a
  hwx2_2 : ∀ i : grid2.Coords, EltTy.bits .f32 = 32 ∨ (Rect.block (s := S2x2048x3072) S2x2048x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2x256x2048.size a ≤ S1x16x2048x2048.size a
  hwx2_3 : ∀ i : grid2.Coords, EltTy.bits .f32 = 32 ∨ (Rect.block (s := S1x16x2048x2048) S1x2x256x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x256x128.size a ≤ S2x2048x1024.size a
  hwx2_4 : ∀ i : grid2.Coords, EltTy.bits .f32 = 32 ∨ (Rect.block (s := S2x2048x1024) S2x256x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .f32 = 32 ∨ (Rect.block (s := S4096x1024) S512x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x1024.size a
  hwx3_2 : ∀ i : grid3.Coords, EltTy.bits .f32 = 32 ∨ (Rect.block (s := S4096x1024) S512x1024.size (cc3_transform_2 i) (hinb3_2 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S2x256x64_S2x2048x64_S2x256x2048_2_2_1_1_0_0 : DotDims S2x256x64 S2x2048x64 S2x256x2048 where
  lhsContracting := [2]
  rhsContracting := [2]
  lhsNonContracting := [1]
  rhsNonContracting := [1]
  lhsBatch := [0]
  rhsBatch := [0]
  wf := dot_S2x256x64_S2x2048x64_S2x256x2048_2_2_1_1_0_0_wf
def dot_S2x256x2048_S2x2048x64_S2x256x64_2_1_1_2_0_0 : DotDims S2x256x2048 S2x2048x64 S2x256x64 where
  lhsContracting := [2]
  rhsContracting := [1]
  lhsNonContracting := [1]
  rhsNonContracting := [2]
  lhsBatch := [0]
  rhsBatch := [0]
  wf := dot_S2x256x2048_S2x2048x64_S2x256x64_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x3072.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v8) S2x256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2x2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S1x2x256x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S2x256x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v10) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S512x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S1x16x2048x2048 : Shape := ⟨4, ![1, 16, 2048, 2048]⟩
abbrev S1024 : Shape := ⟨1, ![1024]⟩
abbrev S1024x1024 : Shape := ⟨2, ![1024, 1024]⟩
abbrev S2048x1024 : Shape := ⟨2, ![2048, 1024]⟩
abbrev S_ : Shape := ⟨0, ![]⟩
abbrev S2x1024 : Shape := ⟨2, ![2, 1024]⟩
abbrev S2x1x1024 : Shape := ⟨3, ![2, 1, 1024]⟩
abbrev S1x1x1024 : Shape := ⟨3, ![1, 1, 1024]⟩
abbrev S2x2048x2048 : Shape := ⟨3, ![2, 2048, 2048]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x16x2048x2048, .f32⟩
  | .hbm, ⟨2, _⟩ => ⟨S1024, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S_, .f32⟩
  | .hbm, ⟨7, _⟩ => ⟨S2x1024, .f32⟩
  | .hbm, ⟨8, _⟩ => ⟨S2x1x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x1024, .f32⟩
  | .hbm, ⟨17, _⟩ => ⟨S2x1x1024, .f32⟩
  | .hbm, ⟨18, _⟩ => ⟨S_, .f32⟩
  | .hbm, ⟨19, _⟩ => ⟨S2x1x1024, .f32⟩
  | .hbm, ⟨20, _⟩ => ⟨S2x1x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x1x1024, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x2048, .f32⟩
  | .hbm, ⟨34, _⟩ => ⟨S2x2048x1024, .f32⟩
  | .hbm, ⟨35, _⟩ => ⟨S2x2048x1024, .f32⟩
  | .hbm, ⟨36, _⟩ => ⟨S2x2048x16x64, .f32⟩
  | .hbm, ⟨37, _⟩ => ⟨S2x16x2048x64, .f32⟩
  | .hbm, ⟨38, _⟩ => ⟨S_, .f32⟩
  | .hbm, ⟨39, _⟩ => ⟨S2x16x2048x64, .f32⟩
  | .hbm, ⟨40, _⟩ => ⟨S2x16x2048x64, .f32⟩
  | .hbm, ⟨41, _⟩ => ⟨S2x2048x16x64, .f32⟩
  | .hbm, ⟨42, _⟩ => ⟨S2x16x2048x64, .f32⟩
  | .hbm, ⟨43, _⟩ => ⟨S2x2048x16x64, .f32⟩
  | .hbm, ⟨44, _⟩ => ⟨S2x16x2048x64, .f32⟩
  | .hbm, ⟨45, _⟩ => ⟨S2x16x2048x2048, .f32⟩
  | .hbm, ⟨46, _⟩ => ⟨S2x16x2048x2048, .f32⟩
  | .hbm, ⟨47, _⟩ => ⟨S2x16x2048x2048, .f32⟩
  | .hbm, ⟨48, _⟩ => ⟨S_, .f32⟩
  | .hbm, ⟨49, _⟩ => ⟨S2x16x2048, .f32⟩
  | .hbm, ⟨50, _⟩ => ⟨S_, .f32⟩
  | .hbm, ⟨51, _⟩ => ⟨S2x16x2048, .f32⟩
  | .hbm, ⟨52, _⟩ => ⟨S2x16x2048, .f32⟩
  | .hbm, ⟨53, _⟩ => ⟨S2x16x2048x1, .f32⟩
  | .hbm, ⟨54, _⟩ => ⟨S2x16x2048x2048, .f32⟩
  | .hbm, ⟨55, _⟩ => ⟨S2x16x2048x2048, .f32⟩
  | .hbm, ⟨56, _⟩ => ⟨S2x16x2048x2048, .f32⟩
  | .hbm, ⟨57, _⟩ => ⟨S_, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x64, .f32⟩
  | .hbm, ⟨63, _⟩ => ⟨S2x2048x16x64, .f32⟩
  | .hbm, ⟨64, _⟩ => ⟨S2x2048x1024, .f32⟩
  | .hbm, ⟨65, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  reducesTo_S2x2048x1024_S2x1024_d1 : S2x2048x1024.ReducesTo [1] S2x1024
  h_S_ : 0 < S_.numel
  bcast_S2x1024_S2x1x1024_0_2 : S2x1024.BroadcastsInDim S2x1x1024 (![0, 2] : Fin 2 → Fin S2x1x1024.rank)
  bcast_S_S2x1x1024 : S_.BroadcastsInDim S2x1x1024 (![] : Fin 0 → Fin S2x1x1024.rank)
  bcast_S2x1x1024_S2x2048x1024_0_1_2 : S2x1x1024.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  slices_S2x2048x2048_S2x2048x1024_0_0_0 : S2x2048x2048.Slices ![0, 0, 0] S2x2048x1024
  slices_S2x2048x2048_S2x2048x1024_0_0_1024 : S2x2048x2048.Slices ![0, 0, 1024] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x64 : S_.BroadcastsInDim S2x16x2048x64 (![] : Fin 0 → Fin S2x16x2048x64.rank)
  bcast_S1x16x2048x2048_S2x16x2048x2048_0_1_2_3 : S1x16x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x2048x1024_S2048x1024_S2x2048x2048_2_1_01_0_n_n_wf : DotDims.WF S2x2048x1024 S2048x1024 S2x2048x2048 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x2048x1024_S2048x1024_S2x2048x2048_2_1_01_0_n_n : DotDims S2x2048x1024 S2048x1024 S2x2048x2048 where
  lhsContracting := [2]
  rhsContracting := [1]
  lhsNonContracting := [0, 1]
  rhsNonContracting := [0]
  lhsBatch := []
  rhsBatch := []
  wf := dot_S2x2048x1024_S2048x1024_S2x2048x2048_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KBody0.lean ====
import proofs.«105932_j25297357373492_2_alg».proof.Proof.Gen.Kernel.Launch
import proofs.«105932_j25297357373492_2_alg».proof.Proof.Gen.Kernel.Skeleton
import proofs.«105932_j25297357373492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The layer-norm call (pallas_call 0): its body's triple and the pipeline's proof data

The first call normalises the activations along the sequence axis. At each of its four grid points the
pipeline hands the body three whole staging buffers: a block of the activations (1 x 2048 x 512), a block
of the gain vector (512), and the output block (1 x 2048 x 512). The body reads the two input buffers
whole, forms one value from them (the payload `k0_pay1`), reads the output buffer once without using what
it read, and overwrites the whole output buffer with that value.

Everything is stated at a parameter `V`: the contents of the core's buffers at the moment the call is
entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`: the part of the window's array, as it stands in `V`, that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each staging buffer, whole -/

/-- The whole activation (and output) block. -/
abbrev rX0 : Rect S1x2048x512 := Rect.unit (s := S1x2048x512) ![0, 0, 0] S1x2048x512.size inb_S1x2048x512_S1x2048x512_0_0_0
/-- The whole gain block. -/
abbrev rG0 : Rect S512 := Rect.unit (s := S512) ![0] S512.size inb_S512_S512_0

/-! ## What the body leaves in the output buffer -/

/-- The output buffer after the body, as a function of the two input blocks: one store through the whole
    rectangle, of the normalised block computed from the activations `x0` and the gains `x1`. -/
def out0_2 (x0 : Vec F S1x2048x512 .f32) (x1 : Vec F S512 .f32) : Vec F S1x2048x512 .f32 :=
  View.canon [⟨rX0, k0_pay1 (View.ld x0 rX0) (View.ld x1 rG0)⟩]

/-- That single store covers the buffer: its rectangle is the one block of full size. -/
theorem cover0_2 (p : Vec F S1x2048x512 .f32) (y : S1x2048x512.Idx) :
    ∃ pc ∈ ([⟨rX0, p⟩] : List (View.Piece (Elt F) S1x2048x512 .f32)), y ∈ pc.1.set :=
  View.cover_of_tiled [⟨rX0, p⟩] S1x2048x512.size (by rfl) y

/-! ## The body's triple -/

set_option maxHeartbeats 1000000 in
/-- The body run on three whole buffers. Before: the activation buffer reads `x0`, the gain buffer reads
    `x1`, the output buffer holds anything. After: the two input buffers read what they read before and the
    output buffer reads `out0_2 x0 x1`. The grid coordinates `i` are not used by the body. -/
theorem sound_kernel0 (c : Dev nD) (E : Set ℕ) (i : grid0.Coords)
    (a0 : Memref sig .tc .vmem S1x2048x512 .f32) (ha0 : a0.IsWhole)
    (a1 : Memref sig .tc .vmem S512 .f32) (ha1 : a1.IsWhole)
    (a2 : Memref sig .tc .vmem S1x2048x512 .f32) (ha2 : a2.IsWhole)
    (x0 : Vec F S1x2048x512 .f32) (x1 : Vec F S512 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (out0_2 x0 x1)) -∗ K ⟨⟩))
      ⊢ wp frame (wpE (defs₀ (F := F)) Variants.none c none) E (cc0__ln_kernel i a0 ha0 a1 ha1 a2 ha2) K := by
  simp only [cc0__ln_kernel_eq_skeleton]; unfold cc0__ln_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Proof data of the call on core `c`. The arrays are those of `V`. After the body at point `t` each
    input buffer still holds its block, and the output buffer holds `out0_2` of the two input blocks. The
    invariant is the standard one (the other scoped buffers and the generator register untouched), every
    share is full, and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## The input buffers at a point hold their blocks -/

/-- The activation window is an input the body leaves in place, so at every point its current staging
    buffer holds the block of that point, whether the pipeline fetched it there or had it already. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for the gain window. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the pipeline gives the body at point `t`: the invariant, what the core owes, and the three current
    staging buffers, the inputs' at what they hold then and the output's likewise. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the two input buffers hold their blocks, so the triple above applies; the invariant
    and the owed part are carried through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KBody1.lean ====
import proofs.«105932_j25297357373492_2_alg».proof.Proof.Gen.Kernel.Launch
import proofs.«105932_j25297357373492_2_alg».proof.Proof.Gen.Kernel.Skeleton
import proofs.«105932_j25297357373492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matrix-product body of kernel call 1, at any float type

The body reads its two operand windows whole — a `512 × 1024` block of f32 activations and the `1024 × 3072`
bf16 weight matrix —, rounds the activations to bf16, multiplies the two into a zero accumulator and writes the
`512 × 3072` product over the whole output window. Below: each window's block at a grid point, the
output window's contents after the body as a function of the two operand blocks, the body's separation-logic
triple, and the pipeline's body obligation at every grid point. Everything is stated at a parameter `V`, the
buffer contents when the call is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle there, read off the window's array as the
    call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three whole-window rectangles the body touches -/

/-- all of the activation window, -/
abbrev whole1_x : Rect S512x1024 := Rect.unit (s := S512x1024) ![0, 0] S512x1024.size inb_S512x1024_S512x1024_0_0
/-- all of the weight window, -/
abbrev whole1_w : Rect S1024x3072 := Rect.unit (s := S1024x3072) ![0, 0] S1024x3072.size inb_S1024x3072_S1024x3072_0_0
/-- all of the product window. -/
abbrev whole1_y : Rect S512x3072 := Rect.unit (s := S512x3072) ![0, 0] S512x3072.size inb_S512x3072_S512x3072_0_0

/-! ## The output window after the body -/

/-- What the body leaves in the output window's buffer, given the activation block `x0` and the weight block `x1`:
    the buffer overwritten everywhere by the product of the rounded activations with the weights. -/
def out1_2 (x0 : Vec F S512x1024 .f32) (x1 : Vec F S1024x3072 .bf16) : Vec F S512x3072 .f32 :=
  View.canon [⟨whole1_y, k1_pay1 (View.ld x0 whole1_x) (View.ld x1 whole1_w)⟩]

/-- The single store reaches every cell of the output buffer. -/
theorem covers1_y (p : Vec F S512x3072 .f32) (y : S512x3072.Idx) :
    ∃ pc ∈ ([⟨whole1_y, p⟩] : List (View.Piece (Elt F) S512x3072 .f32)), y ∈ pc.1.set :=
  View.cover_of_tiled [⟨whole1_y, p⟩] S512x3072.size (by rfl) y

/-! ## The pipeline's proof data -/

/-- Proof data of the pipeline on core `c`: the windows' arrays are those the call finds; after the body at point `t`
    the two operand windows' buffers still hold their blocks and the output window's holds the product of the two
    blocks; the invariant is the untouched rest; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-! ## The operand windows when the body starts -/

/-- The activation window's current buffer holds its block at every grid point, whether the pipeline fetched it
    there or not: the body leaves the block in place and the window is neither cut nor idle. -/
theorem before1_0 (c : Dev nD) (t : Fin cfg1.N) (d) : (dat1 V c).before 0 t d = iblk1 V c 0 t := by
  have h := (dat1 V c).before_in_eq_fetched 0 rfl (fun _ => rfl) (fun _ _ _ => rfl)
    (fun t => by rw [after1_0]; unfold Dat.blockOf iblk1; rw [A_eq1]; try rfl) t d
  rw [h]; unfold Dat.fetched Dat.blockOf iblk1; rw [A_eq1]; try rfl

/-- The same for the weight window, which the pipeline fetches at the first point only: its block index never
    moves, so an unfetched buffer still holds the block. -/
theorem before1_1 (c : Dev nD) (t : Fin cfg1.N) (d) : (dat1 V c).before 1 t d = iblk1 V c 1 t := by
  have h := (dat1 V c).before_in_eq_fetched 1 rfl (fun _ => rfl) (fun _ _ _ => rfl)
    (fun t => by rw [after1_1]; unfold Dat.blockOf iblk1; rw [A_eq1]; try rfl) t d
  rw [h]; unfold Dat.fetched Dat.blockOf iblk1; rw [A_eq1]; try rfl

/-! ## The body's triple -/

set_option maxHeartbeats 1000000 in
/-- Run on three whole buffers — the activations' holding `x0`, the weights' holding `x1`, the product's holding
    anything — the body ends with the two operand buffers unchanged and the product buffer at `out1_2 x0 x1`. -/
theorem sound_kernel1 (c : Dev nD) (E : Set ℕ) (i : grid1.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .f32) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1_y _)

/-! ## The body obligation -/

/-- What the pipeline hands the body at point `t`: the invariant, the core's debt, and the three windows' current
    buffers — the operands' at what the pipeline left there, the product's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same invariant and debt, and the three buffers at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at a grid point: the operand buffers hold their blocks, so the triple applies; the invariant and the
    debt are carried across untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
import proofs.«105932_j25297357373492_2_alg».proof.Proof.Gen.Kernel.Launch
import proofs.«105932_j25297357373492_2_alg».proof.Proof.Gen.Kernel.Skeleton
import proofs.«105932_j25297357373492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The attention call (third of the four calls of the forward pass): the body's triple and the pipeline data

At every grid point the body reads four staged blocks whole — the query block (2 batch entries × 256 rows × 128
lanes, the lanes holding a pair of heads of width 64), the key block and the value block (2 × 2048 × 128 each, the
same lane layout) and the additive bias block (1 × 2 × 256 × 2048: one 256 × 2048 table per head of the pair) —,
computes for each head of the pair softmax(q·kᵀ/8 + bias)·v over the 2048 keys (the operands of both products
rounded to 16-bit floats first), and writes the two heads' results side by side over the whole (2 × 256 × 128)
output block.  Everything is stated at a parameter `V`, the buffer contents when the call is entered, and for any
float interpretation `F`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- The block of window `w` at grid point `t`, cut out of the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body touches: each staged block, whole -/

abbrev rq2 : Rect S2x256x128 := Rect.unit (s := S2x256x128) ![0, 0, 0] S2x256x128.size inb_S2x256x128_S2x256x128_0_0_0
abbrev rkv2 : Rect S2x2048x128 := Rect.unit (s := S2x2048x128) ![0, 0, 0] S2x2048x128.size inb_S2x2048x128_S2x2048x128_0_0_0
abbrev rb2 : Rect S1x2x256x2048 := Rect.unit (s := S1x2x256x2048) ![0, 0, 0, 0] S1x2x256x2048.size inb_S1x2x256x2048_S1x2x256x2048_0_0_0_0

/-! ## The output block after the body -/

/-- The output block after the body, as a function of the query, key, value and bias blocks: one store over the
    whole block, of the two head halves' attention results side by side. -/
def out2_4 (x0 : Vec F S2x256x128 .f32) (x1 : Vec F S2x2048x128 .f32) (x2 : Vec F S2x2048x128 .f32) (x3 : Vec F S1x2x256x2048 .f32) : Vec F S2x256x128 .f32 :=
  View.canon [⟨rq2, k2_pay1 (k2_pay4 (View.ld x2 rkv2)) (k2_pay5 (View.ld x3 rb2))
    (k2_pay6 (View.ld x0 rq2) (View.ld x1 rkv2) (View.ld x2 rkv2) (View.ld x3 rb2)) (k2_pay7 (View.ld x0 rq2)) (k2_pay8 (View.ld x1 rkv2))⟩]

/-- The single store is over the whole block, so it covers it. -/
theorem cover2_4 (p0 : Vec F S2x256x128 .f32) (y : S2x256x128.Idx) :
    ∃ pc ∈ ([⟨rq2, p0⟩] : List (View.Piece (Elt F) S2x256x128 .f32)), y ∈ pc.1.set :=
  View.cover_of_tiled [⟨rq2, p0⟩] S2x256x128.size (by rfl) y

/-! ## The pipeline's data -/

/-- The data of the attention pipeline on core `c`: the arrays as found; after the body each input block in
    place and the output block at `out2_4` of the four input blocks; the three windows onto the one
    query/key/value array share its ownership (a half, a quarter, a quarter), the other two hold theirs whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := fun w => match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem q2_0 (c : Dev nD) : (dat2 V c).q 0 = fullShare.left := by dsimp only [dat2]
theorem q2_1 (c : Dev nD) : (dat2 V c).q 1 = fullShare.right.left := by dsimp only [dat2]
theorem q2_2 (c : Dev nD) : (dat2 V c).q 2 = fullShare.right.right := by dsimp only [dat2]
theorem q2_3 (c : Dev nD) : (dat2 V c).q 3 = fullShare := by dsimp only [dat2]
theorem q2_4 (c : Dev nD) : (dat2 V c).q 4 = fullShare := by dsimp only [dat2]

/-! ## The body's triple -/

set_option maxHeartbeats 1000000 in
/-- The body on whole staging buffers — the four inputs' at contents `x0 … x3`, the output's at anything — runs to
    the continuation with the inputs' buffers as they were and the output's at `out2_4 x0 x1 x2 x3`: it loads the
    four input blocks whole, loads the output block (the value is dropped) and stores the attention result over it. -/
theorem sound_kernel2 (c : Dev nD) (E : Set ℕ) (i : grid2.Coords)
    (arg0 : Memref sig .tc .vmem S2x256x128 .f32) (harg0 : arg0.IsWhole)
    (arg1 : Memref sig .tc .vmem S2x2048x128 .f32) (harg1 : arg1.IsWhole)
    (arg2 : Memref sig .tc .vmem S2x2048x128 .f32) (harg2 : arg2.IsWhole)
    (arg3 : Memref sig .tc .vmem S1x2x256x2048 .f32) (harg3 : arg3.IsWhole)
    (arg4 : Memref sig .tc .vmem S2x256x128 .f32) (harg4 : arg4.IsWhole)
    (x0 : Vec F S2x256x128 .f32) (x1 : Vec F S2x2048x128 .f32) (x2 : Vec F S2x2048x128 .f32) (x3 : Vec F S1x2x256x2048 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E
          (cc2__attn_kernel_fused i arg0 harg0 arg1 harg1 arg2 harg2 arg3 harg3 arg4 harg4) K := by
  simp only [cc2__attn_kernel_fused_eq_skeleton]; unfold cc2__attn_kernel_fused_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## What the body finds in the input windows' buffers -/

/-- Each input window's current staging buffer holds the window's block of the point, whether the point fetched it
    or an earlier point did (the key and value blocks are fetched once per row of the grid and stay put: their block
    index does not move along the row); no window is cut at the array's end and none is ever idle. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body obligation -/

/-- What the body is handed at point `t`: the invariant, the (empty) debt, and the five current staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the four input buffers hold their blocks, so the body's triple applies; the invariant and
    the debt pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KBody3.lean ====
import proofs.«105932_j25297357373492_2_alg».proof.Proof.Gen.Kernel.Launch
import proofs.«105932_j25297357373492_2_alg».proof.Proof.Gen.Kernel.Skeleton
import proofs.«105932_j25297357373492_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matrix-product body of kernel call 3, at any float type

The body reads its two operand windows whole — a `512 × 1024` block of f32 activations and the `1024 × 1024`
bf16 weight matrix —, rounds the activations to bf16, multiplies the two into a zero accumulator and writes the
`512 × 1024` product over the whole output window. Below: each window's block at a grid point, the
output window's contents after the body as a function of the two operand blocks, the body's separation-logic
triple, and the pipeline's body obligation at every grid point. Everything is stated at a parameter `V`, the
buffer contents when the call is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle there, read off the window's array as the
    call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The three whole-window rectangles the body touches -/

/-- all of the activation window, -/
abbrev whole3_x : Rect S512x1024 := Rect.unit (s := S512x1024) ![0, 0] S512x1024.size inb_S512x1024_S512x1024_0_0
/-- all of the weight window, -/
abbrev whole3_w : Rect S1024x1024 := Rect.unit (s := S1024x1024) ![0, 0] S1024x1024.size inb_S1024x1024_S1024x1024_0_0
/-- all of the product window. -/
abbrev whole3_y : Rect S512x1024 := Rect.unit (s := S512x1024) ![0, 0] S512x1024.size inb_S512x1024_S512x1024_0_0

/-! ## The output window after the body -/

/-- What the body leaves in the output window's buffer, given the activation block `x0` and the weight block `x1`:
    the buffer overwritten everywhere by the product of the rounded activations with the weights. -/
def out3_2 (x0 : Vec F S512x1024 .f32) (x1 : Vec F S1024x1024 .bf16) : Vec F S512x1024 .f32 :=
  View.canon [⟨whole3_y, k3_pay1 (View.ld x0 whole3_x) (View.ld x1 whole3_w)⟩]

/-- The single store reaches every cell of the output buffer. -/
theorem covers3_y (p : Vec F S512x1024 .f32) (y : S512x1024.Idx) :
    ∃ pc ∈ ([⟨whole3_y, p⟩] : List (View.Piece (Elt F) S512x1024 .f32)), y ∈ pc.1.set :=
  View.cover_of_tiled [⟨whole3_y, p⟩] S512x1024.size (by rfl) y

/-! ## The pipeline's proof data -/

/-- Proof data of the pipeline on core `c`: the windows' arrays are those the call finds; after the body at point `t`
    the two operand windows' buffers still hold their blocks and the output window's holds the product of the two
    blocks; the invariant is the untouched rest; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-! ## The operand windows when the body starts -/

/-- The activation window's current buffer holds its block at every grid point, whether the pipeline fetched it
    there or not: the body leaves the block in place and the window is neither cut nor idle. -/
theorem before3_0 (c : Dev nD) (t : Fin cfg3.N) (d) : (dat3 V c).before 0 t d = iblk3 V c 0 t := by
  have h := (dat3 V c).before_in_eq_fetched 0 rfl (fun _ => rfl) (fun _ _ _ => rfl)
    (fun t => by rw [after3_0]; unfold Dat.blockOf iblk3; rw [A_eq3]; try rfl) t d
  rw [h]; unfold Dat.fetched Dat.blockOf iblk3; rw [A_eq3]; try rfl

/-- The same for the weight window, which the pipeline fetches at the first point only: its block index never
    moves, so an unfetched buffer still holds the block. -/
theorem before3_1 (c : Dev nD) (t : Fin cfg3.N) (d) : (dat3 V c).before 1 t d = iblk3 V c 1 t := by
  have h := (dat3 V c).before_in_eq_fetched 1 rfl (fun _ => rfl) (fun _ _ _ => rfl)
    (fun t => by rw [after3_1]; unfold Dat.blockOf iblk3; rw [A_eq3]; try rfl) t d
  rw [h]; unfold Dat.fetched Dat.blockOf iblk3; rw [A_eq3]; try rfl

/-! ## The body's triple -/

set_option maxHeartbeats 1000000 in
/-- Run on three whole buffers — the activations' holding `x0`, the weights' holding `x1`, the product's holding
    anything — the body ends with the two operand buffers unchanged and the product buffer at `out3_2 x0 x1`. -/
theorem sound_kernel3 (c : Dev nD) (E : Set ℕ) (i : grid3.Coords)
    (arg1 : Memref sig .tc .vmem S512x1024 .f32) (harg1 : arg1.IsWhole)
    (arg2 : Memref sig .tc .vmem S1024x1024 .bf16) (harg2 : arg2.IsWhole)
    (arg3 : Memref sig .tc .vmem S512x1024 .f32) (harg3 : arg3.IsWhole)
    (x0 : Vec F S512x1024 .f32) (x1 : Vec F S1024x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers3_y _)

/-! ## The body obligation -/

/-- What the pipeline hands the body at point `t`: the invariant, the core's debt, and the three windows' current
    buffers — the operands' at what the pipeline left there, the product's at anything. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What the body hands back: the same invariant and debt, and the three buffers at the proof data's `after`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at a grid point: the operand buffers hold their blocks, so the triple applies; the invariant and the
    debt are carried across untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.LibShareThree.lean ====
/-
  One buffer held at a share is the same buffer held three times, at the three parts the share splits into
  by halving it and halving its right half again.

  A kernel that is handed ONE array through three input windows cannot hold that array whole once per window.
  The array's share is dealt among the windows: the first takes the left half, the second the left half of the
  right half, the third what is left.  All three hold the SAME contents; dealing and collecting lose nothing,
  so a region that only reads the array gives it back whole.  Library imports only.
-/
import Idealize.ShloMosaic.Rules.PointsTo

noncomputable section

namespace Cert.Lib.ShareThree

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

variable {ℓ : Loc nD τ sig} {I : Finset (Idx ℓ)} (q : PosShare TreeShare) (f : Buf Val ℓ)

/-- DEALING: the buffer at share `q` gives the buffer at `q.left`, at `q.right.left` and at `q.right.right`,
    each at the same contents. -/
theorem deal :
    (ℓ ↦[I]{q} f : sProp 𝕄) ⊢ iprop((ℓ ↦[I]{q.left} f) ∗ (ℓ ↦[I]{q.right.left} f) ∗ ℓ ↦[I]{q.right.right} f) :=
  (pointsTo_share (PosShare.mem_left_op_right q)).1.trans
    (sep_mono .rfl (pointsTo_share (PosShare.mem_left_op_right q.right)).1)

/-- COLLECTING: the three parts, at one contents, are the buffer at share `q` again. -/
theorem collect :
    iprop((ℓ ↦[I]{q.left} f) ∗ (ℓ ↦[I]{q.right.left} f) ∗ ℓ ↦[I]{q.right.right} f) ⊢ (ℓ ↦[I]{q} f : sProp 𝕄) :=
  (sep_mono .rfl (pointsTo_share (PosShare.mem_left_op_right q.right)).2).trans
    (pointsTo_share (PosShare.mem_left_op_right q)).2

end Cert.Lib.ShareThree

end
-- ==== Proof.KShare2.lean ====
/-
  Attention's arrays among a core's unscoped buffers.

  The attention call has five windows on THREE buffers: the queries', keys' and values' windows all read the one
  array that holds the fused projection; the fourth reads the bias; the fifth writes the output.  So on entry the
  projection's buffer, held whole, is dealt to the three reading windows (each at its part of the share, all at the
  same contents), the bias's and the output's buffers go whole to their windows, and every other unscoped buffer
  stays outside.  On exit the three parts are collected into the whole buffer again — the call only read it —, the
  bias's buffer comes back as it was, and the output's buffer comes back at what the write-backs left.
-/
import proofs.«105932_j25297357373492_2_alg».proof.Proof.Gen.Kernel.Launch
import proofs.«105932_j25297357373492_2_alg».proof.Proof.LibShareThree
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The buffers behind attention's five windows are three: the projection, the bias, the output. -/
theorem arrRefs2 : (Finset.univ.image (Pipeline.arrRef spec2) : Finset (Ref sig .tc)) = insert main_v8 (insert main_arg1 {main_v9}) := by
  decide

variable {c : Dev nD} (dat : Dat τ (Elt F) Unit ℕ (UR sig nD τ) ℕ cfg2 c)

variable (hq0 : dat.q 0 = fullShare.left) (hq1 : dat.q 1 = fullShare.right.left) (hq2 : dat.q 2 = fullShare.right.right)
  (hq3 : dat.q 3 = fullShare)

include hq0 hq1 hq2 hq3 in
/-- Attention's arrays one by one: the projection's buffer at the three dealt parts of the full share, the bias's and
    the output's buffers whole. -/
theorem arrays2_eq (Fa : (w : Fin cfg2.W) → Buf (Elt F) ((cfg2.win w).arr.view.loc (c : Thread nD τ))) :
    (dat.arrays Fa : sProp 𝕄) = iprop((((c : Thread nD τ).loc main_v8) ↦{fullShare.left} Fa 0)
      ∗ (((c : Thread nD τ).loc main_v8) ↦{fullShare.right.left} Fa 1)
      ∗ (((c : Thread nD τ).loc main_v8) ↦{fullShare.right.right} Fa 2)
      ∗ (((c : Thread nD τ).loc main_arg1) ↦{fullShare} Fa 3)
      ∗ (((c : Thread nD τ).loc main_v9) ↦{fullShare} Fa 4)) := by
  have s0 : dat.share 0 = fullShare.left := by unfold Dat.share; rw [if_neg (by decide), hq0]
  have s1 : dat.share 1 = fullShare.right.left := by unfold Dat.share; rw [if_neg (by decide), hq1]
  have s2 : dat.share 2 = fullShare.right.right := by unfold Dat.share; rw [if_neg (by decide), hq2]
  have s3 : dat.share 3 = fullShare := by unfold Dat.share; rw [if_neg (by decide), hq3]
  have s4 : dat.share 4 = fullShare := by unfold Dat.share; rw [if_pos (by decide)]
  unfold Dat.arrays
  rw [bigSep_W2, s0, s1, s2, s3, s4, (arr_whole2 0).set_eq_univ, (arr_whole2 3).set_eq_univ, (arr_whole2 4).set_eq_univ]

include hq0 hq1 hq2 hq3 in
/-- ENTRY: a core's unscoped buffers at contents `V` are attention's arrays at the proof data's entry contents —
    those being read off `V` — and the unscoped rest: the projection's buffer dealt to the three reading windows. -/
theorem arrays2_of_unscopedBufs (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs 2 winFacts₀2.arr_unscoped c V, arrays2_eq dat hq0 hq1 hq2 hq3]
  refine sep_mono ?_ .rfl
  unfold Pipeline.arrBufs
  rw [show Finset.image (Pipeline.arrRef (cfgs 2).spec) Finset.univ = insert main_v8 (insert main_arg1 {main_v9}) from arrRefs2, bigSep_insert (by decide), bigSep_insert (by decide), bigSep_singleton,
    show dat.arrAt 0 0 = V main_v8 from hA 0, show dat.arrAt 1 0 = V main_v8 from hA 1, show dat.arrAt 2 0 = V main_v8 from hA 2,
    show dat.arrAt 3 0 = V main_arg1 from hA 3, show dat.arrAt 4 0 = V main_v9 from hA 4]
  refine (show iprop((((c : Thread nD τ).loc main_v8) ↦{fullShare} V main_v8) ∗ (((c : Thread nD τ).loc main_arg1) ↦{fullShare} V main_arg1)
      ∗ (((c : Thread nD τ).loc main_v9) ↦{fullShare} V main_v9)) ⊢ _ from ?_)
  iintro ⟨H8, H1, H9⟩
  ihave H := (Cert.Lib.ShareThree.deal fullShare (V main_v8)) $$ H8
  icases H with ⟨Ha, Hb, Hc⟩
  isplitl [Ha]; · iexact Ha
  isplitl [Hb]; · iexact Hb
  isplitl [Hc]; · iexact Hc
  isplitl [H1]; · iexact H1
  iexact H9

include hq0 hq1 hq2 hq3 in
/-- EXIT: attention's arrays — the three reading windows' at the projection's entry contents, the bias's at its entry
    contents, the output's at `O` — and the unscoped rest at `V` are the core's unscoped buffers at any valuation
    `V'` that has the output's buffer at `O` and agrees with `V` elsewhere: the projection's buffer collected. -/
theorem unscopedBufs_of_arrays2 (V V' : (b : Ref sig .tc) → Buf (Elt F) ((c : Thread nD τ).loc b))
    (Fa : (w : Fin cfg2.W) → Buf (Elt F) ((cfg2.win w).arr.view.loc (c : Thread nD τ)))
    (h0 : Fa 0 = V main_v8) (h1 : Fa 1 = V main_v8) (h2 : Fa 2 = V main_v8) (h3 : Fa 3 = V main_arg1) (h4 : Fa 4 = V' main_v9)
    (hrest : ∀ b, b ≠ main_v9 → V' b = V b) :
    iprop(dat.arrays Fa ∗ Pipeline.unscopedRest spec2 c V) ⊢ (unscopedBufs c V' : sProp 𝕄) := by
  rw [Pipeline.unscopedBufs_split₀ cfgs 2 winFacts₀2.arr_unscoped c V', arrays2_eq dat hq0 hq1 hq2 hq3]
  refine sep_mono ?_ (Entails.of_eq ?_)
  · unfold Pipeline.arrBufs
    rw [show Finset.image (Pipeline.arrRef (cfgs 2).spec) Finset.univ = insert main_v8 (insert main_arg1 {main_v9}) from arrRefs2, bigSep_insert (by decide), bigSep_insert (by decide), bigSep_singleton, h0, h1, h2, h3, h4,
      hrest main_v8 (by decide), hrest main_arg1 (by decide)]
    refine (show _ ⊢ iprop((((c : Thread nD τ).loc main_v8) ↦{fullShare} V main_v8) ∗ (((c : Thread nD τ).loc main_arg1) ↦{fullShare} V main_arg1)
      ∗ (((c : Thread nD τ).loc main_v9) ↦{fullShare} V' main_v9)) from ?_)
    iintro ⟨Ha, Hb, Hc, H1, H9⟩
    isplitl [Ha Hb Hc]
    · iapply (Cert.Lib.ShareThree.collect fullShare (V main_v8))
      isplitl [Ha]; · iexact Ha
      isplitl [Hb]; · iexact Hb
      iexact Hc
    isplitl [H1]; · iexact H1
    iexact H9
  · unfold Pipeline.unscopedRest
    exact bigSep_congr fun b hb => by
      rw [hrest b fun e => (Finset.mem_sdiff.mp hb).2 (by rw [e, arrRefs2]; decide)]

end Cert.Kernel.Hand

end
-- ==== Proof.KRun.lean ====
/-
  The run of the whole program: four pallas calls (layer norm over the sequence axis; the fused query/key/value
  projection; attention over head pairs; the output projection) among stretches of host operations (reshapes, the
  weights joined, transposed and rounded).

  Between two items a core's unscoped buffers are tracked at a valuation, a fold from the launch memory: a host
  stretch applies its operations; a pallas call replaces its output array by what the grid's write-backs leave and
  keeps everything else.  Each pallas call is a segment entered from "every unscoped buffer at the boundary's
  contents, the generator register at some state, nothing owed" and left at the same shape one boundary later.
  The attention call reads ONE array, the projected queries, keys and values, through three input windows; that
  array's share is dealt among the three on entry and collected on exit (it is only read, so it comes back whole).
  The conclusion reads every unscoped buffer of the final state off the last valuation: the arguments are as
  launched, and the result array is the last reshape of what the output projection wrote.
-/
import proofs.«105932_j25297357373492_2_alg».proof.Proof.KBody0
import proofs.«105932_j25297357373492_2_alg».proof.Proof.KBody1
import proofs.«105932_j25297357373492_2_alg».proof.Proof.KBody2
import proofs.«105932_j25297357373492_2_alg».proof.Proof.KBody3
import proofs.«105932_j25297357373492_2_alg».proof.Proof.KShare2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the layer norm is entered with. -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b

/-- After pallas call 0: its arrays at what the pipeline leaves (the inputs as entered, the output's write-backs
    folded), every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb

/-- After the first host stretch (the normalised rows flattened; the three weight matrices joined, transposed and
    rounded; the output weights transposed and rounded): what the fused projection is entered with. -/
abbrev B2 : Dev nD → Valuation τ sig (Elt F) := fun c => StableHlo.after hostOps1 (B1 m ρ c)
abbrev E1 : (c : Dev nD) → (b : Ref sig .tc) → Buf (Elt F) ((c : Thread nD τ).loc b) := fun c b => B2 m ρ c b

/-- After pallas call 1: its arrays at what the pipeline leaves (the inputs as entered, the output's write-backs
    folded), every other buffer as entered. -/
def B3 (c : Dev nD) : Valuation τ sig (Elt F) :=
  Pipeline.withArrays spec1 c (B2 m ρ c) fun w => (dat1 (E1 m ρ) c).arrAt w cfg1.N
theorem B3_arr (c : Dev nD) (w : Fin cfg1.W) :
    B3 m ρ c (Proc.devRef .tc (Pipeline.arrRef spec1 w)) = (dat1 (E1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb

/-- After the second host stretch (the projection given back its batch axis): what attention is entered with. -/
abbrev B4 : Dev nD → Valuation τ sig (Elt F) := fun c => StableHlo.after hostOps2 (B3 m ρ c)
abbrev E2 : (c : Dev nD) → (b : Ref sig .tc) → Buf (Elt F) ((c : Thread nD τ).loc b) := fun c b => B4 m ρ c b

/-- After attention: its output array at what the write-backs leave, every other buffer as entered (its four input
    windows only read). -/
def B5 (c : Dev nD) : Valuation τ sig (Elt F) :=
  Function.update (B4 m ρ c) (Proc.devRef .tc main_v9) ((dat2 (E2 m ρ) c).arrAt 4 cfg2.N)
theorem B5_out (c : Dev nD) : B5 m ρ c (Proc.devRef .tc main_v9) = (dat2 (E2 m ρ) c).arrAt 4 cfg2.N := by
  unfold B5; exact Function.update_self ..
theorem B5_of_ne (c : Dev nD) (b : Ref sig .tc) (hb : b ≠ main_v9) :
    B5 m ρ c (Proc.devRef .tc b) = B4 m ρ c (Proc.devRef .tc b) := by
  unfold B5; exact Function.update_of_ne (StableHlo.devRef_ne_of_ne hb) ..

/-- After the third host stretch (attention's output flattened): what the output projection is entered with. -/
abbrev B6 : Dev nD → Valuation τ sig (Elt F) := fun c => StableHlo.after hostOps3 (B5 m ρ c)
abbrev E3 : (c : Dev nD) → (b : Ref sig .tc) → Buf (Elt F) ((c : Thread nD τ).loc b) := fun c b => B6 m ρ c b

/-- After pallas call 3: its arrays at what the pipeline leaves (the inputs as entered, the output's write-backs
    folded), every other buffer as entered. -/
def B7 (c : Dev nD) : Valuation τ sig (Elt F) :=
  Pipeline.withArrays spec3 c (B6 m ρ c) fun w => (dat3 (E3 m ρ) c).arrAt w cfg3.N
theorem B7_arr (c : Dev nD) (w : Fin cfg3.W) :
    B7 m ρ c (Proc.devRef .tc (Pipeline.arrRef spec3 w)) = (dat3 (E3 m ρ) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb

/-- After the last host stretch (the result given back its batch axis): the contents at the return. -/
abbrev B8 : Dev nD → Valuation τ sig (Elt F) := fun c => StableHlo.after hostOps4 (B7 m ρ c)

/-! ## The proof data family and the thread state -/

/-- No pallas call has a prefetched table. -/
abbrev adm : (p : Fin 4) → (pcfgs (F := F) p).Adm := fun p => (cfgs p).toPCfg_adm
/-- Every pipeline's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (B8 m ρ c) ∗ ∃ r, prngReg c r)

/-! ## The pallas calls as segments -/

set_option backward.isDefEq.respectTransparency.types false in
/-- Pallas call 0 as a segment: entered with every unscoped buffer at `B0`, left with them at `B1`. Its three
    arrays are distinct buffers, so they are carved out of the unscoped buffers whole and put back whole, the output's at
    what the write-backs left; the generator register rides through the invariant; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (fun b => B1 m ρ c b) ((pdats m ρ 0 c).arrAt · cfg0.N) (fun w => (B1_arr m ρ c w).symm)
      (fun b hb => B1_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `B2`, left with them at `B3`. Its three
    arrays are distinct buffers, so they are carved out of the unscoped buffers whole and put back whole, the output's at
    what the write-backs left; the generator register rides through the invariant; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (fun b => B3 m ρ c b) ((pdats m ρ 1 c).arrAt · cfg1.N) (fun w => (B3_arr m ρ c w).symm)
      (fun b hb => B3_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Attention as a segment: entered with every unscoped buffer at `B4`, left with them at `B5`. Its five windows sit on
    three buffers: the fused projection, read through the queries', keys' and values' windows, is dealt to the three
    on entry and collected on exit; the bias goes in and comes back whole; the output comes back at what the
    write-backs left. The generator register rides through the invariant; nothing is owed; no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := arrays2_of_unscopedBufs (dat2 (E2 m ρ) c) (q2_0 (E2 m ρ) c) (q2_1 (E2 m ρ) c) (q2_2 (E2 m ρ) c) (q2_3 (E2 m ρ) c)
      (E2 m ρ c) (fun w => A_eq2 (E2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
          ∗ Pipeline.unscopedRest (Ix := Unit) (Name := ℕ) (U := UR sig nD τ) (Lvl := ℕ) spec2 c (E2 m ρ c))
        ⊢ (unscopedBufs c (fun b => B5 m ρ c b) : sProp 𝕄) := unscopedBufs_of_arrays2 (dat2 (E2 m ρ) c) (q2_0 (E2 m ρ) c) (q2_1 (E2 m ρ) c) (q2_2 (E2 m ρ) c) (q2_3 (E2 m ρ) c)
      (E2 m ρ c) (fun b => B5 m ρ c b) ((dat2 (E2 m ρ) c).arrAt · cfg2.N)
      (((dat2 (E2 m ρ) c).arrAt_in 0 rfl _).trans (A_eq2 (E2 m ρ) c 0))
      (((dat2 (E2 m ρ) c).arrAt_in 1 rfl _).trans (A_eq2 (E2 m ρ) c 1))
      (((dat2 (E2 m ρ) c).arrAt_in 2 rfl _).trans (A_eq2 (E2 m ρ) c 2))
      (((dat2 (E2 m ρ) c).arrAt_in 3 rfl _).trans (A_eq2 (E2 m ρ) c 3))
      (B5_out m ρ c).symm (fun b hb => B5_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered with every unscoped buffer at `B6`, left with them at `B7`. Its three
    arrays are distinct buffers, so they are carved out of the unscoped buffers whole and put back whole, the output's at
    what the write-backs left; the generator register rides through the invariant; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (fun b => B7 m ρ c b) ((pdats m ρ 3 c).arrAt · cfg3.N) (fun w => (B7_arr m ρ c w).symm)
      (fun b hb => B7_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eight items in order. -/
abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ),
    .host (hseg hostOps2 hostOps2_sub hostOps2_fresh (B3 m ρ)),
    .region (reg2 m ρ),
    .host (hseg hostOps3 hostOps3_sub hostOps3_fresh (B5 m ρ)),
    .region (reg3 m ρ),
    .host (hseg hostOps4 hostOps4_sub hostOps4_fresh (B7 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

end Cert.Kernel.Hand

end
-- ==== Proof.KFrame.lean ====
/-
  The arguments at the return, and the frame.

  Walking an argument's buffer back through the boundaries: no host stretch writes an argument, and a pallas call
  changes only its output array (an argument it reads through an input window comes back as it went in).  So the
  last valuation holds every argument at its launch contents, and the run's conclusion gives the frame claim.
-/
import proofs.«105932_j25297357373492_2_alg».proof.Proof.KRun
import proofs.«105932_j25297357373492_2_alg».proof.Proof.Gen.Kernel.Regions

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A host stretch keeps every buffer it does not write. -/
theorem after_keeps (ops : List (HloOp τ sig (Elt F))) (Wr : List (Ref sig .tc))
    (hw : ops.Forall fun op => op.writes ⊆ (Wr.map (Proc.devRef (τ := τ) .tc)).toFinset)
    (W : Valuation τ sig (Elt F)) (r : Ref sig .tc) (h : r ∉ Wr) :
    StableHlo.after ops W (Proc.devRef .tc r) = W (Proc.devRef .tc r) :=
  StableHlo.after_of_writes_sub ops _ hw h

/-- `main_arg0` reaches the return as launched: no host operation writes it and no pallas call changes it. -/
theorem B8_main_arg0 (c : Dev nD) : B8 m ρ c (Proc.devRef .tc main_arg0) = m ((c : Thread nD τ).loc main_arg0) :=
  (after_keeps hostOps4 hostOps4_W hostOps4_writes _ main_arg0 (by decide)).trans <|
  (B7_of_ne m ρ c main_arg0 (by decide)).trans <|
  (after_keeps hostOps3 hostOps3_W hostOps3_writes _ main_arg0 (by decide)).trans <|
  (B5_of_ne m ρ c main_arg0 (by decide)).trans <|
  (after_keeps hostOps2 hostOps2_W hostOps2_writes _ main_arg0 (by decide)).trans <|
  (B3_of_ne m ρ c main_arg0 (by decide)).trans <|
  (after_keeps hostOps1 hostOps1_W hostOps1_writes _ main_arg0 (by decide)).trans <|
  ((B1_arr m ρ c 0).trans (((dat0 (E0 m ρ) c).arrAt_in 0 rfl _).trans (A_eq0 (E0 m ρ) c 0))).trans rfl

/-- `main_arg1` reaches the return as launched: no host operation writes it and no pallas call changes it. -/
theorem B8_main_arg1 (c : Dev nD) : B8 m ρ c (Proc.devRef .tc main_arg1) = m ((c : Thread nD τ).loc main_arg1) :=
  (after_keeps hostOps4 hostOps4_W hostOps4_writes _ main_arg1 (by decide)).trans <|
  (B7_of_ne m ρ c main_arg1 (by decide)).trans <|
  (after_keeps hostOps3 hostOps3_W hostOps3_writes _ main_arg1 (by decide)).trans <|
  (B5_of_ne m ρ c main_arg1 (by decide)).trans <|
  (after_keeps hostOps2 hostOps2_W hostOps2_writes _ main_arg1 (by decide)).trans <|
  (B3_of_ne m ρ c main_arg1 (by decide)).trans <|
  (after_keeps hostOps1 hostOps1_W hostOps1_writes _ main_arg1 (by decide)).trans <|
  (B1_of_ne m ρ c main_arg1 (by decide)).trans rfl

/-- `main_arg2` reaches the return as launched: no host operation writes it and no pallas call changes it. -/
theorem B8_main_arg2 (c : Dev nD) : B8 m ρ c (Proc.devRef .tc main_arg2) = m ((c : Thread nD τ).loc main_arg2) :=
  (after_keeps hostOps4 hostOps4_W hostOps4_writes _ main_arg2 (by decide)).trans <|
  (B7_of_ne m ρ c main_arg2 (by decide)).trans <|
  (after_keeps hostOps3 hostOps3_W hostOps3_writes _ main_arg2 (by decide)).trans <|
  (B5_of_ne m ρ c main_arg2 (by decide)).trans <|
  (after_keeps hostOps2 hostOps2_W hostOps2_writes _ main_arg2 (by decide)).trans <|
  (B3_of_ne m ρ c main_arg2 (by decide)).trans <|
  (after_keeps hostOps1 hostOps1_W hostOps1_writes _ main_arg2 (by decide)).trans <|
  ((B1_arr m ρ c 1).trans (((dat0 (E0 m ρ) c).arrAt_in 1 rfl _).trans (A_eq0 (E0 m ρ) c 1))).trans rfl

/-- `main_arg3` reaches the return as launched: no host operation writes it and no pallas call changes it. -/
theorem B8_main_arg3 (c : Dev nD) : B8 m ρ c (Proc.devRef .tc main_arg3) = m ((c : Thread nD τ).loc main_arg3) :=
  (after_keeps hostOps4 hostOps4_W hostOps4_writes _ main_arg3 (by decide)).trans <|
  (B7_of_ne m ρ c main_arg3 (by decide)).trans <|
  (after_keeps hostOps3 hostOps3_W hostOps3_writes _ main_arg3 (by decide)).trans <|
  (B5_of_ne m ρ c main_arg3 (by decide)).trans <|
  (after_keeps hostOps2 hostOps2_W hostOps2_writes _ main_arg3 (by decide)).trans <|
  (B3_of_ne m ρ c main_arg3 (by decide)).trans <|
  (after_keeps hostOps1 hostOps1_W hostOps1_writes _ main_arg3 (by decide)).trans <|
  (B1_of_ne m ρ c main_arg3 (by decide)).trans rfl

/-- `main_arg4` reaches the return as launched: no host operation writes it and no pallas call changes it. -/
theorem B8_main_arg4 (c : Dev nD) : B8 m ρ c (Proc.devRef .tc main_arg4) = m ((c : Thread nD τ).loc main_arg4) :=
  (after_keeps hostOps4 hostOps4_W hostOps4_writes _ main_arg4 (by decide)).trans <|
  (B7_of_ne m ρ c main_arg4 (by decide)).trans <|
  (after_keeps hostOps3 hostOps3_W hostOps3_writes _ main_arg4 (by decide)).trans <|
  (B5_of_ne m ρ c main_arg4 (by decide)).trans <|
  (after_keeps hostOps2 hostOps2_W hostOps2_writes _ main_arg4 (by decide)).trans <|
  (B3_of_ne m ρ c main_arg4 (by decide)).trans <|
  (after_keeps hostOps1 hostOps1_W hostOps1_writes _ main_arg4 (by decide)).trans <|
  (B1_of_ne m ρ c main_arg4 (by decide)).trans rfl

/-- `main_arg5` reaches the return as launched: no host operation writes it and no pallas call changes it. -/
theorem B8_main_arg5 (c : Dev nD) : B8 m ρ c (Proc.devRef .tc main_arg5) = m ((c : Thread nD τ).loc main_arg5) :=
  (after_keeps hostOps4 hostOps4_W hostOps4_writes _ main_arg5 (by decide)).trans <|
  (B7_of_ne m ρ c main_arg5 (by decide)).trans <|
  (after_keeps hostOps3 hostOps3_W hostOps3_writes _ main_arg5 (by decide)).trans <|
  (B5_of_ne m ρ c main_arg5 (by decide)).trans <|
  (after_keeps hostOps2 hostOps2_W hostOps2_writes _ main_arg5 (by decide)).trans <|
  (B3_of_ne m ρ c main_arg5 (by decide)).trans <|
  (after_keeps hostOps1 hostOps1_W hostOps1_writes _ main_arg5 (by decide)).trans <|
  (B1_of_ne m ρ c main_arg5 (by decide)).trans rfl

/-- THE FRAME: every weakly fair execution of the program terminates, nothing faulting, and every final state has the
    six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B8_main_arg0 m ρ c),
     (h c _ (mem_uc main_arg1 (by decide))).trans (B8_main_arg1 m ρ c),
     (h c _ (mem_uc main_arg2 (by decide))).trans (B8_main_arg2 m ρ c),
     (h c _ (mem_uc main_arg3 (by decide))).trans (B8_main_arg3 m ρ c),
     (h c _ (mem_uc main_arg4 (by decide))).trans (B8_main_arg4 m ρ c),
     (h c _ (mem_uc main_arg5 (by decide))).trans (B8_main_arg5 m ρ c)⟩) (run_all m ρ)

end Cert.Kernel.Hand

end
-- ==== Proof.KIBody0.lean ====
import proofs.«105932_j25297357373492_2_alg».proof.Proof.Gen.KernelIdeal.Launch
import proofs.«105932_j25297357373492_2_alg».proof.Proof.Gen.KernelIdeal.Skeleton
import proofs.«105932_j25297357373492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The layer-norm call (pallas_call 0): its body's triple and the pipeline's proof data

The first call normalises the activations along the sequence axis. At each of its four grid points the
pipeline hands the body three whole staging buffers: a block of the activations (1 x 2048 x 512), a block
of the gain vector (512), and the output block (1 x 2048 x 512). The body reads the two input buffers
whole, forms one value from them (the payload `k0_pay1`), reads the output buffer once without using what
it read, and overwrites the whole output buffer with that value.

Everything is stated at a parameter `V`: the contents of the core's buffers at the moment the call is
entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the windows -/

/-- The block of window `w` at grid point `t`: the part of the window's array, as it stands in `V`, that
    the window's index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each staging buffer, whole -/

/-- The whole activation (and output) block. -/
abbrev rX0 : Rect S1x2048x512 := Rect.unit (s := S1x2048x512) ![0, 0, 0] S1x2048x512.size inb_S1x2048x512_S1x2048x512_0_0_0
/-- The whole gain block. -/
abbrev rG0 : Rect S512 := Rect.unit (s := S512) ![0] S512.size inb_S512_S512_0

/-! ## What the body leaves in the output buffer -/

/-- The output buffer after the body, as a function of the two input blocks: one store through the whole
    rectangle, of the normalised block computed from the activations `x0` and the gains `x1`. -/
def out0_2 (x0 : Vec F S1x2048x512 .f32) (x1 : Vec F S512 .f32) : Vec F S1x2048x512 .f32 :=
  View.canon [⟨rX0, k0_pay1 (View.ld x0 rX0) (View.ld x1 rG0)⟩]

/-- That single store covers the buffer: its rectangle is the one block of full size. -/
theorem cover0_2 (p : Vec F S1x2048x512 .f32) (y : S1x2048x512.Idx) :
    ∃ pc ∈ ([⟨rX0, p⟩] : List (View.Piece (Elt F) S1x2048x512 .f32)), y ∈ pc.1.set :=
  View.cover_of_tiled [⟨rX0, p⟩] S1x2048x512.size (by rfl) y

/-! ## The body's triple -/

set_option maxHeartbeats 1000000 in
/-- The body run on three whole buffers. Before: the activation buffer reads `x0`, the gain buffer reads
    `x1`, the output buffer holds anything. After: the two input buffers read what they read before and the
    output buffer reads `out0_2 x0 x1`. The grid coordinates `i` are not used by the body. -/
theorem sound_kernel0 (c : Dev nD) (E : Set ℕ) (i : grid0.Coords)
    (a0 : Memref sig .tc .vmem S1x2048x512 .f32) (ha0 : a0.IsWhole)
    (a1 : Memref sig .tc .vmem S512 .f32) (ha1 : a1.IsWhole)
    (a2 : Memref sig .tc .vmem S1x2048x512 .f32) (ha2 : a2.IsWhole)
    (x0 : Vec F S1x2048x512 .f32) (x1 : Vec F S512 .f32) (K : PUnit → sProp 𝕄) :
    iprop(owns (c : Thread nD τ) a0 fullShare x0 ∗ owns (c : Thread nD τ) a1 fullShare x1
        ∗ (∃ d, owns (c : Thread nD τ) a2 fullShare d)
        ∗ (iprop(owns (c : Thread nD τ) a0 fullShare x0 ∗ owns (c : Thread nD τ) a1 fullShare x1
            ∗ owns (c : Thread nD τ) a2 fullShare (out0_2 x0 x1)) -∗ K ⟨⟩))
      ⊢ wp frame (wpE (defs₀ (F := F)) Variants.none c none) E (cc0__ln_kernel i a0 ha0 a1 ha1 a2 ha2) K := by
  simp only [cc0__ln_kernel_eq_skeleton]; unfold cc0__ln_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Proof data of the call on core `c`. The arrays are those of `V`. After the body at point `t` each
    input buffer still holds its block, and the output buffer holds `out0_2` of the two input blocks. The
    invariant is the standard one (the other scoped buffers and the generator register untouched), every
    share is full, and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## The input buffers at a point hold their blocks -/

/-- The activation window is an input the body leaves in place, so at every point its current staging
    buffer holds the block of that point, whether the pipeline fetched it there or had it already. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The same for the gain window. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation -/

/-- What the pipeline gives the body at point `t`: the invariant, what the core owes, and the three current
    staging buffers, the inputs' at what they hold then and the output's likewise. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point: the two input buffers hold their blocks, so the triple above applies; the invariant
    and the owed part are carried through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KIBody1.lean ====
import proofs.«105932_j25297357373492_2_alg».proof.Proof.Gen.KernelIdeal.Launch
import proofs.«105932_j25297357373492_2_alg».proof.Proof.Gen.KernelIdeal.Skeleton
import proofs.«105932_j25297357373492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matrix-product body of kernel call 1, at any float type

The body reads its two operand windows whole — a `512 × 1024` block of f32 activations and the `1024 × 3072`
bf16 weight matrix —, rounds the activations to bf16, multiplies the two into a zero accumulator and writes the
`512 × 3072` product over the whole output window. Below: each window's block at a grid point, the
output window's contents after the body as a function of the two operand blocks, the body's separation-logic
triple, and the pipeline's body obligation at every grid point. Everything is stated at a parameter `V`, the
buffer contents when the call is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle there, read off the window's array as the
    call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The three whole-window rectangles the body touches -/

/-- all of the activation window, -/
abbrev whole1_x : Rect S512x1024 := Rect.unit (s := S512x1024) ![0, 0] S512x1024.size inb_S512x1024_S512x1024_0_0
/-- all of the weight window, -/
abbrev whole1_w : Rect S1024x3072 := Rect.unit (s := S1024x3072) ![0, 0] S1024x3072.size inb_S1024x3072_S1024x3072_0_0
/-- all of the product window. -/
abbrev whole1_y : Rect S512x3072 := Rect.unit (s := S512x3072) ![0, 0] S512x3072.size inb_S512x3072_S512x3072_0_0

/-! ## The output window after the body -/

/-- What the body leaves in the output window's buffer, given the activation block `x0` and the weight block `x1`:
    the buffer overwritten everywhere by the product of the rounded activations with the weights. -/
def out1_2 (x0 : Vec F S512x1024 .f32) (x1 : Vec F S1024x3072 .bf16) : Vec F S512x3072 .f32 :=
  View.canon [⟨whole1_y, k1_pay1 (View.ld x0 whole1_x) (View.ld x1 whole1_w)⟩]

/-- The single store reaches every cell of the output buffer. -/
theorem covers1_y (p : Vec F S512x3072 .f32) (y : S512x3072.Idx) :
    ∃ pc ∈ ([⟨whole1_y, p⟩] : List (View.Piece (Elt F) S512x3072 .f32)), y ∈ pc.1.set :=
  View.cover_of_tiled [⟨whole1_y, p⟩] S512x3072.size (by rfl) y

/-! ## The pipeline's proof data -/

/-- Proof data of the pipeline on core `c`: the windows' arrays are those the call finds; after the body at point `t`
    the two operand windows' buffers still hold their blocks and the output window's holds the product of the two
    blocks; the invariant is the untouched rest; full shares; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-! ## The operand windows when the body starts -/

/-- The activation window's current buffer holds its block at every grid point, whether the pipeline fetched it
    there or not: the body leaves the block in place and the window is neither cut nor idle. -/
theorem before1_0 (c : Dev nD) (t : Fin cfg1.N) (d) : (dat1 V c).before 0 t d = iblk1 V c 0 t := by
  have h := (dat1 V c).before_in_eq_fetched 0 rfl (fun _ => rfl) (fun _ _ _ => rfl)
    (fun t => by rw [after1_0]; unfold Dat.blockOf iblk1; rw [A_eq1]; try rfl) t d
  rw [h]; unfold Dat.fetched Dat.blockOf iblk1; rw [A_eq1]; try rfl

/-- The same for the weight window, which the pipeline fetches at the first point only: its block index never
    moves, so an unfetched buffer still holds the block. -/
theorem before1_1 (c : Dev nD) (t : Fin cfg1.N) (d) : (dat1 V c).before 1 t d = iblk1 V c 1 t := by
  have h := (dat1 V c).before_in_eq_fetched 1 rfl (fun _ => rfl) (fun _ _ _ => rfl)
    (fun t => by rw [after1_1]; unfold Dat.blockOf iblk1; rw [A_eq1]; try rfl) t d
  rw [h]; unfold Dat.fetched Dat.blockOf iblk1; rw [A_eq1]; try rfl

/-! ## The body's triple -/

set_option maxHeartbeats 1000000 in
/-- Run on three whole buffers — the activations' holding `x0`, the weights' holding `x1`, the product's holding
    anything — the body ends with the two operand buffers unchanged and the product buffer at `out1_2 x0 x1`. -/
theorem sound_kernel1 (c : Dev nD) (E : Set ℕ) (i : grid1.Coords)
    (arg1 : Memref sig .tc .vmem S512x1024 .f32) (harg1 : arg1.IsWhole)
    (arg2 : Memref sig .tc .vmem S1024x3072 .bf16) (harg2 : arg2.IsWhole)
    (arg3 : Memref sig .tc .vmem S512x3072 .f32) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers1_y _)

/-! ## The body obligation -/

/-- What the pipeline hands the body at point `t`: the invariant, the core's debt, and the three windows' current
    buffers — the operands' at what the pipeline left there, the product's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- What the body hands back: the same invariant and debt, and the three buffers at the proof data's `after`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at a grid point: the operand buffers hold their blocks, so the triple applies; the invariant and the
    debt are carried across untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIBody2.lean ====
import proofs.«105932_j25297357373492_2_alg».proof.Proof.Gen.KernelIdeal.Launch
import proofs.«105932_j25297357373492_2_alg».proof.Proof.Gen.KernelIdeal.Skeleton
import proofs.«105932_j25297357373492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The attention call (third of the four calls of the forward pass): the body's triple and the pipeline data

At every grid point the body reads four staged blocks whole — the query block (2 batch entries × 256 rows × 128
lanes, the lanes holding a pair of heads of width 64), the key block and the value block (2 × 2048 × 128 each, the
same lane layout) and the additive bias block (1 × 2 × 256 × 2048: one 256 × 2048 table per head of the pair) —,
computes for each head of the pair softmax(q·kᵀ/8 + bias)·v over the 2048 keys (the operands of both products
rounded to 16-bit floats first), and writes the two heads' results side by side over the whole (2 × 256 × 128)
output block.  Everything is stated at a parameter `V`, the buffer contents when the call is entered, and for any
float interpretation `F`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- The block of window `w` at grid point `t`, cut out of the window's array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the body touches: each staged block, whole -/

abbrev rq2 : Rect S2x256x128 := Rect.unit (s := S2x256x128) ![0, 0, 0] S2x256x128.size inb_S2x256x128_S2x256x128_0_0_0
abbrev rkv2 : Rect S2x2048x128 := Rect.unit (s := S2x2048x128) ![0, 0, 0] S2x2048x128.size inb_S2x2048x128_S2x2048x128_0_0_0
abbrev rb2 : Rect S1x2x256x2048 := Rect.unit (s := S1x2x256x2048) ![0, 0, 0, 0] S1x2x256x2048.size inb_S1x2x256x2048_S1x2x256x2048_0_0_0_0

/-! ## The output block after the body -/

/-- The output block after the body, as a function of the query, key, value and bias blocks: one store over the
    whole block, of the two head halves' attention results side by side. -/
def out2_4 (x0 : Vec F S2x256x128 .f32) (x1 : Vec F S2x2048x128 .f32) (x2 : Vec F S2x2048x128 .f32) (x3 : Vec F S1x2x256x2048 .f32) : Vec F S2x256x128 .f32 :=
  View.canon [⟨rq2, k2_pay1 (k2_pay4 (View.ld x2 rkv2)) (k2_pay5 (View.ld x3 rb2))
    (k2_pay6 (View.ld x0 rq2) (View.ld x1 rkv2) (View.ld x2 rkv2) (View.ld x3 rb2)) (k2_pay7 (View.ld x0 rq2)) (k2_pay8 (View.ld x1 rkv2))⟩]

/-- The single store is over the whole block, so it covers it. -/
theorem cover2_4 (p0 : Vec F S2x256x128 .f32) (y : S2x256x128.Idx) :
    ∃ pc ∈ ([⟨rq2, p0⟩] : List (View.Piece (Elt F) S2x256x128 .f32)), y ∈ pc.1.set :=
  View.cover_of_tiled [⟨rq2, p0⟩] S2x256x128.size (by rfl) y

/-! ## The pipeline's data -/

/-- The data of the attention pipeline on core `c`: the arrays as found; after the body each input block in
    place and the output block at `out2_4` of the four input blocks; the three windows onto the one
    query/key/value array share its ownership (a half, a quarter, a quarter), the other two hold theirs whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q := fun w => match w with
    | ⟨0, _⟩ => fullShare.left
    | ⟨1, _⟩ => fullShare.right.left
    | ⟨2, _⟩ => fullShare.right.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

theorem q2_0 (c : Dev nD) : (dat2 V c).q 0 = fullShare.left := by dsimp only [dat2]
theorem q2_1 (c : Dev nD) : (dat2 V c).q 1 = fullShare.right.left := by dsimp only [dat2]
theorem q2_2 (c : Dev nD) : (dat2 V c).q 2 = fullShare.right.right := by dsimp only [dat2]
theorem q2_3 (c : Dev nD) : (dat2 V c).q 3 = fullShare := by dsimp only [dat2]
theorem q2_4 (c : Dev nD) : (dat2 V c).q 4 = fullShare := by dsimp only [dat2]

/-! ## The body's triple -/

set_option maxHeartbeats 1000000 in
/-- The body on whole staging buffers — the four inputs' at contents `x0 … x3`, the output's at anything — runs to
    the continuation with the inputs' buffers as they were and the output's at `out2_4 x0 x1 x2 x3`: it loads the
    four input blocks whole, loads the output block (the value is dropped) and stores the attention result over it. -/
theorem sound_kernel2 (c : Dev nD) (E : Set ℕ) (i : grid2.Coords)
    (arg0 : Memref sig .tc .vmem S2x256x128 .f32) (harg0 : arg0.IsWhole)
    (arg1 : Memref sig .tc .vmem S2x2048x128 .f32) (harg1 : arg1.IsWhole)
    (arg2 : Memref sig .tc .vmem S2x2048x128 .f32) (harg2 : arg2.IsWhole)
    (arg3 : Memref sig .tc .vmem S1x2x256x2048 .f32) (harg3 : arg3.IsWhole)
    (arg4 : Memref sig .tc .vmem S2x256x128 .f32) (harg4 : arg4.IsWhole)
    (x0 : Vec F S2x256x128 .f32) (x1 : Vec F S2x2048x128 .f32) (x2 : Vec F S2x2048x128 .f32) (x3 : Vec F S1x2x256x2048 .f32)
    (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ (∃ d, owns (c : Thread nD τ) arg4 fullShare d)
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare (out2_4 x0 x1 x2 x3)) -∗ K ⟨⟩))
      ⊢ wp frame (wpE (defs₀ (F := F)) Variants.none c none) E
          (cc2__attn_kernel_fused i arg0 harg0 arg1 harg1 arg2 harg2 arg3 harg3 arg4 harg4) K := by
  simp only [cc2__attn_kernel_fused_eq_skeleton]; unfold cc2__attn_kernel_fused_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## What the body finds in the input windows' buffers -/

/-- Each input window's current staging buffer holds the window's block of the point, whether the point fetched it
    or an earlier point did (the key and value blocks are fetched once per row of the grid and stay put: their block
    index does not move along the row); no window is cut at the array's end and none is ever idle. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

/-! ## The body obligation -/

/-- What the body is handed at point `t`: the invariant, the (empty) debt, and the five current staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

set_option maxHeartbeats 1000000 in
/-- The body at any point: the four input buffers hold their blocks, so the body's triple applies; the invariant and
    the debt pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIBody3.lean ====
import proofs.«105932_j25297357373492_2_alg».proof.Proof.Gen.KernelIdeal.Launch
import proofs.«105932_j25297357373492_2_alg».proof.Proof.Gen.KernelIdeal.Skeleton
import proofs.«105932_j25297357373492_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matrix-product body of kernel call 3, at any float type

The body reads its two operand windows whole — a `512 × 1024` block of f32 activations and the `1024 × 1024`
bf16 weight matrix —, rounds the activations to bf16, multiplies the two into a zero accumulator and writes the
`512 × 1024` product over the whole output window. Below: each window's block at a grid point, the
output window's contents after the body as a function of the two operand blocks, the body's separation-logic
triple, and the pipeline's body obligation at every grid point. Everything is stated at a parameter `V`, the
buffer contents when the call is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's rectangle there, read off the window's array as the
    call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The three whole-window rectangles the body touches -/

/-- all of the activation window, -/
abbrev whole3_x : Rect S512x1024 := Rect.unit (s := S512x1024) ![0, 0] S512x1024.size inb_S512x1024_S512x1024_0_0
/-- all of the weight window, -/
abbrev whole3_w : Rect S1024x1024 := Rect.unit (s := S1024x1024) ![0, 0] S1024x1024.size inb_S1024x1024_S1024x1024_0_0
/-- all of the product window. -/
abbrev whole3_y : Rect S512x1024 := Rect.unit (s := S512x1024) ![0, 0] S512x1024.size inb_S512x1024_S512x1024_0_0

/-! ## The output window after the body -/

/-- What the body leaves in the output window's buffer, given the activation block `x0` and the weight block `x1`:
    the buffer overwritten everywhere by the product of the rounded activations with the weights. -/
def out3_2 (x0 : Vec F S512x1024 .f32) (x1 : Vec F S1024x1024 .bf16) : Vec F S512x1024 .f32 :=
  View.canon [⟨whole3_y, k3_pay1 (View.ld x0 whole3_x) (View.ld x1 whole3_w)⟩]

/-- The single store reaches every cell of the output buffer. -/
theorem covers3_y (p : Vec F S512x1024 .f32) (y : S512x1024.Idx) :
    ∃ pc ∈ ([⟨whole3_y, p⟩] : List (View.Piece (Elt F) S512x1024 .f32)), y ∈ pc.1.set :=
  View.cover_of_tiled [⟨whole3_y, p⟩] S512x1024.size (by rfl) y

/-! ## The pipeline's proof data -/

/-- Proof data of the pipeline on core `c`: the windows' arrays are those the call finds; after the body at point `t`
    the two operand windows' buffers still hold their blocks and the output window's holds the product of the two
    blocks; the invariant is the untouched rest; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-! ## The operand windows when the body starts -/

/-- The activation window's current buffer holds its block at every grid point, whether the pipeline fetched it
    there or not: the body leaves the block in place and the window is neither cut nor idle. -/
theorem before3_0 (c : Dev nD) (t : Fin cfg3.N) (d) : (dat3 V c).before 0 t d = iblk3 V c 0 t := by
  have h := (dat3 V c).before_in_eq_fetched 0 rfl (fun _ => rfl) (fun _ _ _ => rfl)
    (fun t => by rw [after3_0]; unfold Dat.blockOf iblk3; rw [A_eq3]; try rfl) t d
  rw [h]; unfold Dat.fetched Dat.blockOf iblk3; rw [A_eq3]; try rfl

/-- The same for the weight window, which the pipeline fetches at the first point only: its block index never
    moves, so an unfetched buffer still holds the block. -/
theorem before3_1 (c : Dev nD) (t : Fin cfg3.N) (d) : (dat3 V c).before 1 t d = iblk3 V c 1 t := by
  have h := (dat3 V c).before_in_eq_fetched 1 rfl (fun _ => rfl) (fun _ _ _ => rfl)
    (fun t => by rw [after3_1]; unfold Dat.blockOf iblk3; rw [A_eq3]; try rfl) t d
  rw [h]; unfold Dat.fetched Dat.blockOf iblk3; rw [A_eq3]; try rfl

/-! ## The body's triple -/

set_option maxHeartbeats 1000000 in
/-- Run on three whole buffers — the activations' holding `x0`, the weights' holding `x1`, the product's holding
    anything — the body ends with the two operand buffers unchanged and the product buffer at `out3_2 x0 x1`. -/
theorem sound_kernel3 (c : Dev nD) (E : Set ℕ) (i : grid3.Coords)
    (arg1 : Memref sig .tc .vmem S512x1024 .f32) (harg1 : arg1.IsWhole)
    (arg2 : Memref sig .tc .vmem S1024x1024 .bf16) (harg2 : arg2.IsWhole)
    (arg3 : Memref sig .tc .vmem S512x1024 .f32) (harg3 : arg3.IsWhole)
    (x0 : Vec F S512x1024 .f32) (x1 : Vec F S1024x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers3_y _)

/-! ## The body obligation -/

/-- What the pipeline hands the body at point `t`: the invariant, the core's debt, and the three windows' current
    buffers — the operands' at what the pipeline left there, the product's at anything. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What the body hands back: the same invariant and debt, and the three buffers at the proof data's `after`. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at a grid point: the operand buffers hold their blocks, so the triple applies; the invariant and the
    debt are carried across untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KIShare2.lean ====
/-
  Attention's arrays among a core's unscoped buffers.

  The attention call has five windows on THREE buffers: the queries', keys' and values' windows all read the one
  array that holds the fused projection; the fourth reads the bias; the fifth writes the output.  So on entry the
  projection's buffer, held whole, is dealt to the three reading windows (each at its part of the share, all at the
  same contents), the bias's and the output's buffers go whole to their windows, and every other unscoped buffer
  stays outside.  On exit the three parts are collected into the whole buffer again — the call only read it —, the
  bias's buffer comes back as it was, and the output's buffer comes back at what the write-backs left.
-/
import proofs.«105932_j25297357373492_2_alg».proof.Proof.Gen.KernelIdeal.Launch
import proofs.«105932_j25297357373492_2_alg».proof.Proof.LibShareThree
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-- The buffers behind attention's five windows are three: the projection, the bias, the output. -/
theorem arrRefs2 : (Finset.univ.image (Pipeline.arrRef spec2) : Finset (Ref sig .tc)) = insert main_v8 (insert main_arg1 {main_v9}) := by
  decide

variable {c : Dev nD} (dat : Dat τ (Elt F) Unit ℕ (UR sig nD τ) ℕ cfg2 c)

variable (hq0 : dat.q 0 = fullShare.left) (hq1 : dat.q 1 = fullShare.right.left) (hq2 : dat.q 2 = fullShare.right.right)
  (hq3 : dat.q 3 = fullShare)

include hq0 hq1 hq2 hq3 in
/-- Attention's arrays one by one: the projection's buffer at the three dealt parts of the full share, the bias's and
    the output's buffers whole. -/
theorem arrays2_eq (Fa : (w : Fin cfg2.W) → Buf (Elt F) ((cfg2.win w).arr.view.loc (c : Thread nD τ))) :
    (dat.arrays Fa : sProp 𝕄) = iprop((((c : Thread nD τ).loc main_v8) ↦{fullShare.left} Fa 0)
      ∗ (((c : Thread nD τ).loc main_v8) ↦{fullShare.right.left} Fa 1)
      ∗ (((c : Thread nD τ).loc main_v8) ↦{fullShare.right.right} Fa 2)
      ∗ (((c : Thread nD τ).loc main_arg1) ↦{fullShare} Fa 3)
      ∗ (((c : Thread nD τ).loc main_v9) ↦{fullShare} Fa 4)) := by
  have s0 : dat.share 0 = fullShare.left := by unfold Dat.share; rw [if_neg (by decide), hq0]
  have s1 : dat.share 1 = fullShare.right.left := by unfold Dat.share; rw [if_neg (by decide), hq1]
  have s2 : dat.share 2 = fullShare.right.right := by unfold Dat.share; rw [if_neg (by decide), hq2]
  have s3 : dat.share 3 = fullShare := by unfold Dat.share; rw [if_neg (by decide), hq3]
  have s4 : dat.share 4 = fullShare := by unfold Dat.share; rw [if_pos (by decide)]
  unfold Dat.arrays
  rw [bigSep_W2, s0, s1, s2, s3, s4, (arr_whole2 0).set_eq_univ, (arr_whole2 3).set_eq_univ, (arr_whole2 4).set_eq_univ]

include hq0 hq1 hq2 hq3 in
/-- ENTRY: a core's unscoped buffers at contents `V` are attention's arrays at the proof data's entry contents —
    those being read off `V` — and the unscoped rest: the projection's buffer dealt to the three reading windows. -/
theorem arrays2_of_unscopedBufs (V : (b : Ref sig .tc) → Buf (Elt F) ((c : Thread nD τ).loc b))
    (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs 2 winFacts₀2.arr_unscoped c V, arrays2_eq dat hq0 hq1 hq2 hq3]
  refine sep_mono ?_ .rfl
  unfold Pipeline.arrBufs
  rw [show Finset.image (Pipeline.arrRef (cfgs 2).spec) Finset.univ = insert main_v8 (insert main_arg1 {main_v9}) from arrRefs2, bigSep_insert (by decide), bigSep_insert (by decide), bigSep_singleton,
    show dat.arrAt 0 0 = V main_v8 from hA 0, show dat.arrAt 1 0 = V main_v8 from hA 1, show dat.arrAt 2 0 = V main_v8 from hA 2,
    show dat.arrAt 3 0 = V main_arg1 from hA 3, show dat.arrAt 4 0 = V main_v9 from hA 4]
  refine (show iprop((((c : Thread nD τ).loc main_v8) ↦{fullShare} V main_v8) ∗ (((c : Thread nD τ).loc main_arg1) ↦{fullShare} V main_arg1)
      ∗ (((c : Thread nD τ).loc main_v9) ↦{fullShare} V main_v9)) ⊢ _ from ?_)
  iintro ⟨H8, H1, H9⟩
  ihave H := (Cert.Lib.ShareThree.deal fullShare (V main_v8)) $$ H8
  icases H with ⟨Ha, Hb, Hc⟩
  isplitl [Ha]; · iexact Ha
  isplitl [Hb]; · iexact Hb
  isplitl [Hc]; · iexact Hc
  isplitl [H1]; · iexact H1
  iexact H9

include hq0 hq1 hq2 hq3 in
/-- EXIT: attention's arrays — the three reading windows' at the projection's entry contents, the bias's at its entry
    contents, the output's at `O` — and the unscoped rest at `V` are the core's unscoped buffers at any valuation
    `V'` that has the output's buffer at `O` and agrees with `V` elsewhere: the projection's buffer collected. -/
theorem unscopedBufs_of_arrays2 (V V' : (b : Ref sig .tc) → Buf (Elt F) ((c : Thread nD τ).loc b))
    (Fa : (w : Fin cfg2.W) → Buf (Elt F) ((cfg2.win w).arr.view.loc (c : Thread nD τ)))
    (h0 : Fa 0 = V main_v8) (h1 : Fa 1 = V main_v8) (h2 : Fa 2 = V main_v8) (h3 : Fa 3 = V main_arg1) (h4 : Fa 4 = V' main_v9)
    (hrest : ∀ b, b ≠ main_v9 → V' b = V b) :
    iprop(dat.arrays Fa ∗ Pipeline.unscopedRest spec2 c V) ⊢ (unscopedBufs c V' : sProp 𝕄) := by
  rw [Pipeline.unscopedBufs_split₀ cfgs 2 winFacts₀2.arr_unscoped c V', arrays2_eq dat hq0 hq1 hq2 hq3]
  refine sep_mono ?_ (Entails.of_eq ?_)
  · unfold Pipeline.arrBufs
    rw [show Finset.image (Pipeline.arrRef (cfgs 2).spec) Finset.univ = insert main_v8 (insert main_arg1 {main_v9}) from arrRefs2, bigSep_insert (by decide), bigSep_insert (by decide), bigSep_singleton, h0, h1, h2, h3, h4,
      hrest main_v8 (by decide), hrest main_arg1 (by decide)]
    refine (show _ ⊢ iprop((((c : Thread nD τ).loc main_v8) ↦{fullShare} V main_v8) ∗ (((c : Thread nD τ).loc main_arg1) ↦{fullShare} V main_arg1)
      ∗ (((c : Thread nD τ).loc main_v9) ↦{fullShare} V' main_v9)) from ?_)
    iintro ⟨Ha, Hb, Hc, H1, H9⟩
    isplitl [Ha Hb Hc]
    · iapply (Cert.Lib.ShareThree.collect fullShare (V main_v8))
      isplitl [Ha]; · iexact Ha
      isplitl [Hb]; · iexact Hb
      iexact Hc
    isplitl [H1]; · iexact H1
    iexact H9
  · unfold Pipeline.unscopedRest
    exact bigSep_congr fun b hb => by
      rw [hrest b fun e => (Finset.mem_sdiff.mp hb).2 (by rw [e, arrRefs2]; decide)]

end Cert.KernelIdeal.Hand

end
-- ==== Proof.KIRun.lean ====
/-
  The run of the whole program: four pallas calls (layer norm over the sequence axis; the fused query/key/value
  projection; attention over head pairs; the output projection) among stretches of host operations (reshapes, the
  weights joined, transposed and rounded).

  Between two items a core's unscoped buffers are tracked at a valuation, a fold from the launch memory: a host
  stretch applies its operations; a pallas call replaces its output array by what the grid's write-backs leave and
  keeps everything else.  Each pallas call is a segment entered from "every unscoped buffer at the boundary's
  contents, the generator register at some state, nothing owed" and left at the same shape one boundary later.
  The attention call reads ONE array, the projected queries, keys and values, through three input windows; that
  array's share is dealt among the three on entry and collected on exit (it is only read, so it comes back whole).
  The conclusion reads every unscoped buffer of the final state off the last valuation: the arguments are as
  launched, and the result array is the last reshape of what the output projection wrote.
-/
import proofs.«105932_j25297357373492_2_alg».proof.Proof.KIBody0
import proofs.«105932_j25297357373492_2_alg».proof.Proof.KIBody1
import proofs.«105932_j25297357373492_2_alg».proof.Proof.KIBody2
import proofs.«105932_j25297357373492_2_alg».proof.Proof.KIBody3
import proofs.«105932_j25297357373492_2_alg».proof.Proof.KIShare2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch: what the layer norm is entered with. -/
abbrev B0 : Dev nD → Valuation τ sig (Elt F) := fun c b => (s₀ m ρ).mem ((c : Dev nD), b)
/-- The same read at the TensorCore's references. -/
abbrev E0 : (c : Dev nD) → (b : Ref sig .tc) → Buf (Elt F) ((c : Thread nD τ).loc b) := fun c b => B0 m ρ c b

/-- After pallas call 0: its arrays at what the pipeline leaves (the inputs as entered, the output's write-backs
    folded), every other buffer as entered. -/
def B1 (c : Dev nD) : Valuation τ sig (Elt F) :=
  Pipeline.withArrays spec0 c (B0 m ρ c) fun w => (dat0 (E0 m ρ) c).arrAt w cfg0.N
theorem B1_arr (c : Dev nD) (w : Fin cfg0.W) :
    B1 m ρ c (Proc.devRef .tc (Pipeline.arrRef spec0 w)) = (dat0 (E0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb

/-- After the first host stretch (the normalised rows flattened; the three weight matrices joined, transposed and
    rounded; the output weights transposed and rounded): what the fused projection is entered with. -/
abbrev B2 : Dev nD → Valuation τ sig (Elt F) := fun c => StableHlo.after hostOps1 (B1 m ρ c)
abbrev E1 : (c : Dev nD) → (b : Ref sig .tc) → Buf (Elt F) ((c : Thread nD τ).loc b) := fun c b => B2 m ρ c b

/-- After pallas call 1: its arrays at what the pipeline leaves (the inputs as entered, the output's write-backs
    folded), every other buffer as entered. -/
def B3 (c : Dev nD) : Valuation τ sig (Elt F) :=
  Pipeline.withArrays spec1 c (B2 m ρ c) fun w => (dat1 (E1 m ρ) c).arrAt w cfg1.N
theorem B3_arr (c : Dev nD) (w : Fin cfg1.W) :
    B3 m ρ c (Proc.devRef .tc (Pipeline.arrRef spec1 w)) = (dat1 (E1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb

/-- After the second host stretch (the projection given back its batch axis): what attention is entered with. -/
abbrev B4 : Dev nD → Valuation τ sig (Elt F) := fun c => StableHlo.after hostOps2 (B3 m ρ c)
abbrev E2 : (c : Dev nD) → (b : Ref sig .tc) → Buf (Elt F) ((c : Thread nD τ).loc b) := fun c b => B4 m ρ c b

/-- After attention: its output array at what the write-backs leave, every other buffer as entered (its four input
    windows only read). -/
def B5 (c : Dev nD) : Valuation τ sig (Elt F) :=
  Function.update (B4 m ρ c) (Proc.devRef .tc main_v9) ((dat2 (E2 m ρ) c).arrAt 4 cfg2.N)
theorem B5_out (c : Dev nD) : B5 m ρ c (Proc.devRef .tc main_v9) = (dat2 (E2 m ρ) c).arrAt 4 cfg2.N := by
  unfold B5; exact Function.update_self ..
theorem B5_of_ne (c : Dev nD) (b : Ref sig .tc) (hb : b ≠ main_v9) :
    B5 m ρ c (Proc.devRef .tc b) = B4 m ρ c (Proc.devRef .tc b) := by
  unfold B5; exact Function.update_of_ne (StableHlo.devRef_ne_of_ne hb) ..

/-- After the third host stretch (attention's output flattened): what the output projection is entered with. -/
abbrev B6 : Dev nD → Valuation τ sig (Elt F) := fun c => StableHlo.after hostOps3 (B5 m ρ c)
abbrev E3 : (c : Dev nD) → (b : Ref sig .tc) → Buf (Elt F) ((c : Thread nD τ).loc b) := fun c b => B6 m ρ c b

/-- After pallas call 3: its arrays at what the pipeline leaves (the inputs as entered, the output's write-backs
    folded), every other buffer as entered. -/
def B7 (c : Dev nD) : Valuation τ sig (Elt F) :=
  Pipeline.withArrays spec3 c (B6 m ρ c) fun w => (dat3 (E3 m ρ) c).arrAt w cfg3.N
theorem B7_arr (c : Dev nD) (w : Fin cfg3.W) :
    B7 m ρ c (Proc.devRef .tc (Pipeline.arrRef spec3 w)) = (dat3 (E3 m ρ) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m ρ c (Proc.devRef .tc b) = B6 m ρ c (Proc.devRef .tc b) := by
  unfold B7; exact Pipeline.withArrays_of_ne spec3 c _ _ b hb

/-- After the last host stretch (the result given back its batch axis): the contents at the return. -/
abbrev B8 : Dev nD → Valuation τ sig (Elt F) := fun c => StableHlo.after hostOps4 (B7 m ρ c)

/-! ## The proof data family and the thread state -/

/-- No pallas call has a prefetched table. -/
abbrev adm : (p : Fin 4) → (pcfgs (F := F) p).Adm := fun p => (cfgs p).toPCfg_adm
/-- Every pipeline's proof data, each at the contents its call is entered with. -/
def pdats : (p : Fin 4) → (c : Dev nD) → Dat τ (Elt F) Unit ℕ (UR sig nD τ) ℕ (Pipeline.pin (pcfgs (F := F)) adm p) c
  | ⟨0, _⟩ => fun c => dat0 (E0 m ρ) c
  | ⟨1, _⟩ => fun c => dat1 (E1 m ρ) c
  | ⟨2, _⟩ => fun c => dat2 (E2 m ρ) c
  | ⟨3, _⟩ => fun c => dat3 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (B8 m ρ c) ∗ ∃ r, prngReg c r)

/-! ## The pallas calls as segments -/

set_option backward.isDefEq.respectTransparency.types false in
/-- Pallas call 0 as a segment: entered with every unscoped buffer at `B0`, left with them at `B1`. Its three
    arrays are distinct buffers, so they are carved out of the unscoped buffers whole and put back whole, the output's at
    what the write-backs left; the generator register rides through the invariant; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ L lv 0 fun _ _ => rfl
  pre c := iprop(StableHlo.held (c : Thread nD τ) (Pipeline.ucRefs τ sig) (B0 m ρ c) ∗ R c)
  post c := iprop(StableHlo.held (c : Thread nD τ) (Pipeline.ucRefs τ sig) (B1 m ρ c) ∗ R c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E0 m ρ c) (fun b => B1 m ρ c b) ((pdats m ρ 0 c).arrAt · cfg0.N) (fun w => (B1_arr m ρ c w).symm)
      (fun b hb => B1_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 1 as a segment: entered with every unscoped buffer at `B2`, left with them at `B3`. Its three
    arrays are distinct buffers, so they are carved out of the unscoped buffers whole and put back whole, the output's at
    what the write-backs left; the generator register rides through the invariant; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E1 m ρ c) (fun b => B3 m ρ c b) ((pdats m ρ 1 c).arrAt · cfg1.N) (fun w => (B3_arr m ρ c w).symm)
      (fun b hb => B3_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Attention as a segment: entered with every unscoped buffer at `B4`, left with them at `B5`. Its five windows sit on
    three buffers: the fused projection, read through the queries', keys' and values' windows, is dealt to the three
    on entry and collected on exit; the bias goes in and comes back whole; the output comes back at what the
    write-backs left. The generator register rides through the invariant; nothing is owed; no semaphore of its own. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (E2 m ρ) c).loose
  hwaits := Pipeline.hwaits_of_owed_zero _ _ _ _ L lv 2 fun _ _ => rfl
  pre c := iprop(StableHlo.held (c : Thread nD τ) (Pipeline.ucRefs τ sig) (B4 m ρ c) ∗ R c)
  post c := iprop(StableHlo.held (c : Thread nD τ) (Pipeline.ucRefs τ sig) (B5 m ρ c) ∗ R c)
  X c := iprop(∃ r, prngReg c r)
  Y c := iprop(∃ r, prngReg c r)
  Z c := Pipeline.unscopedRest (Ix := Unit) (Name := ℕ) (U := UR sig nD τ) (Lvl := ℕ) spec2 c (E2 m ρ c)
  hentry c := by
    rw [Pipeline.ownSems0_none]
    have hsplit := arrays2_of_unscopedBufs (dat2 (E2 m ρ) c) (q2_0 (E2 m ρ) c) (q2_1 (E2 m ρ) c) (q2_2 (E2 m ρ) c) (q2_3 (E2 m ρ) c)
      (E2 m ρ c) (fun w => A_eq2 (E2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m ρ 2 c).arrays ((pdats m ρ 2 c).arrAt · cfg2.N)
          ∗ Pipeline.unscopedRest (Ix := Unit) (Name := ℕ) (U := UR sig nD τ) (Lvl := ℕ) spec2 c (E2 m ρ c))
        ⊢ (unscopedBufs c (fun b => B5 m ρ c b) : sProp 𝕄) := unscopedBufs_of_arrays2 (dat2 (E2 m ρ) c) (q2_0 (E2 m ρ) c) (q2_1 (E2 m ρ) c) (q2_2 (E2 m ρ) c) (q2_3 (E2 m ρ) c)
      (E2 m ρ c) (fun b => B5 m ρ c b) ((dat2 (E2 m ρ) c).arrAt · cfg2.N)
      (((dat2 (E2 m ρ) c).arrAt_in 0 rfl _).trans (A_eq2 (E2 m ρ) c 0))
      (((dat2 (E2 m ρ) c).arrAt_in 1 rfl _).trans (A_eq2 (E2 m ρ) c 1))
      (((dat2 (E2 m ρ) c).arrAt_in 2 rfl _).trans (A_eq2 (E2 m ρ) c 2))
      (((dat2 (E2 m ρ) c).arrAt_in 3 rfl _).trans (A_eq2 (E2 m ρ) c 3))
      (B5_out m ρ c).symm (fun b hb => B5_of_ne m ρ c b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pallas call 3 as a segment: entered with every unscoped buffer at `B6`, left with them at `B7`. Its three
    arrays are distinct buffers, so they are carved out of the unscoped buffers whole and put back whole, the output's at
    what the write-backs left; the generator register rides through the invariant; nothing is owed; the kernel has no
    semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m ρ) c).loose
  hwaits := Pipeline.hwaits_of_owed_zero _ _ _ _ L lv 3 fun _ _ => rfl
  pre c := iprop(StableHlo.held (c : Thread nD τ) (Pipeline.ucRefs τ sig) (B6 m ρ c) ∗ R c)
  post c := iprop(StableHlo.held (c : Thread nD τ) (Pipeline.ucRefs τ sig) (B7 m ρ c) ∗ R c)
  X c := iprop(∃ r, prngReg c r)
  Y c := iprop(∃ r, prngReg c r)
  Z c := Pipeline.unscopedRest (Ix := Unit) (Name := ℕ) (U := UR sig nD τ) (Lvl := ℕ) spec3 c (E3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (E3 m ρ c) (fun b => B7 m ρ c b) ((pdats m ρ 3 c).arrAt · cfg3.N) (fun w => (B7_arr m ρ c w).symm)
      (fun b hb => B7_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The eight items in order. -/
abbrev segs : List (Pipeline.Seg (pcfgs (F := F)) adm (pdats m ρ) () defs₀ 𝒱₀ L lv) :=
  [ .region (reg0 m ρ),
    .host (hseg hostOps1 hostOps1_sub hostOps1_fresh (B1 m ρ)),
    .region (reg1 m ρ),
    .host (hseg hostOps2 hostOps2_sub hostOps2_fresh (B3 m ρ)),
    .region (reg2 m ρ),
    .host (hseg hostOps3 hostOps3_sub hostOps3_fresh (B5 m ρ)),
    .region (reg3 m ρ),
    .host (hseg hostOps4 hostOps4_sub hostOps4_fresh (B7 m ρ)) ]
/-- The program IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and the final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B8 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

end Cert.KernelIdeal.Hand

end
-- ==== Proof.KIFrame.lean ====
/-
  The arguments at the return, and the frame.

  Walking an argument's buffer back through the boundaries: no host stretch writes an argument, and a pallas call
  changes only its output array (an argument it reads through an input window comes back as it went in).  So the
  last valuation holds every argument at its launch contents, and the run's conclusion gives the frame claim.
-/
import proofs.«105932_j25297357373492_2_alg».proof.Proof.KIRun
import proofs.«105932_j25297357373492_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- A host stretch keeps every buffer it does not write. -/
theorem after_keeps (ops : List (HloOp τ sig (Elt F))) (Wr : List (Ref sig .tc))
    (hw : ops.Forall fun op => op.writes ⊆ (Wr.map (Proc.devRef (τ := τ) .tc)).toFinset)
    (W : Valuation τ sig (Elt F)) (r : Ref sig .tc) (h : r ∉ Wr) :
    StableHlo.after ops W (Proc.devRef .tc r) = W (Proc.devRef .tc r) :=
  StableHlo.after_of_writes_sub ops _ hw h

/-- `main_arg0` reaches the return as launched: no host operation writes it and no pallas call changes it. -/
theorem B8_main_arg0 (c : Dev nD) : B8 m ρ c (Proc.devRef .tc main_arg0) = m ((c : Thread nD τ).loc main_arg0) :=
  (after_keeps hostOps4 hostOps4_W hostOps4_writes _ main_arg0 (by decide)).trans <|
  (B7_of_ne m ρ c main_arg0 (by decide)).trans <|
  (after_keeps hostOps3 hostOps3_W hostOps3_writes _ main_arg0 (by decide)).trans <|
  (B5_of_ne m ρ c main_arg0 (by decide)).trans <|
  (after_keeps hostOps2 hostOps2_W hostOps2_writes _ main_arg0 (by decide)).trans <|
  (B3_of_ne m ρ c main_arg0 (by decide)).trans <|
  (after_keeps hostOps1 hostOps1_W hostOps1_writes _ main_arg0 (by decide)).trans <|
  ((B1_arr m ρ c 0).trans (((dat0 (E0 m ρ) c).arrAt_in 0 rfl _).trans (A_eq0 (E0 m ρ) c 0))).trans rfl

/-- `main_arg1` reaches the return as launched: no host operation writes it and no pallas call changes it. -/
theorem B8_main_arg1 (c : Dev nD) : B8 m ρ c (Proc.devRef .tc main_arg1) = m ((c : Thread nD τ).loc main_arg1) :=
  (after_keeps hostOps4 hostOps4_W hostOps4_writes _ main_arg1 (by decide)).trans <|
  (B7_of_ne m ρ c main_arg1 (by decide)).trans <|
  (after_keeps hostOps3 hostOps3_W hostOps3_writes _ main_arg1 (by decide)).trans <|
  (B5_of_ne m ρ c main_arg1 (by decide)).trans <|
  (after_keeps hostOps2 hostOps2_W hostOps2_writes _ main_arg1 (by decide)).trans <|
  (B3_of_ne m ρ c main_arg1 (by decide)).trans <|
  (after_keeps hostOps1 hostOps1_W hostOps1_writes _ main_arg1 (by decide)).trans <|
  (B1_of_ne m ρ c main_arg1 (by decide)).trans rfl

/-- `main_arg2` reaches the return as launched: no host operation writes it and no pallas call changes it. -/
theorem B8_main_arg2 (c : Dev nD) : B8 m ρ c (Proc.devRef .tc main_arg2) = m ((c : Thread nD τ).loc main_arg2) :=
  (after_keeps hostOps4 hostOps4_W hostOps4_writes _ main_arg2 (by decide)).trans <|
  (B7_of_ne m ρ c main_arg2 (by decide)).trans <|
  (after_keeps hostOps3 hostOps3_W hostOps3_writes _ main_arg2 (by decide)).trans <|
  (B5_of_ne m ρ c main_arg2 (by decide)).trans <|
  (after_keeps hostOps2 hostOps2_W hostOps2_writes _ main_arg2 (by decide)).trans <|
  (B3_of_ne m ρ c main_arg2 (by decide)).trans <|
  (after_keeps hostOps1 hostOps1_W hostOps1_writes _ main_arg2 (by decide)).trans <|
  ((B1_arr m ρ c 1).trans (((dat0 (E0 m ρ) c).arrAt_in 1 rfl _).trans (A_eq0 (E0 m ρ) c 1))).trans rfl

/-- `main_arg3` reaches the return as launched: no host operation writes it and no pallas call changes it. -/
theorem B8_main_arg3 (c : Dev nD) : B8 m ρ c (Proc.devRef .tc main_arg3) = m ((c : Thread nD τ).loc main_arg3) :=
  (after_keeps hostOps4 hostOps4_W hostOps4_writes _ main_arg3 (by decide)).trans <|
  (B7_of_ne m ρ c main_arg3 (by decide)).trans <|
  (after_keeps hostOps3 hostOps3_W hostOps3_writes _ main_arg3 (by decide)).trans <|
  (B5_of_ne m ρ c main_arg3 (by decide)).trans <|
  (after_keeps hostOps2 hostOps2_W hostOps2_writes _ main_arg3 (by decide)).trans <|
  (B3_of_ne m ρ c main_arg3 (by decide)).trans <|
  (after_keeps hostOps1 hostOps1_W hostOps1_writes _ main_arg3 (by decide)).trans <|
  (B1_of_ne m ρ c main_arg3 (by decide)).trans rfl

/-- `main_arg4` reaches the return as launched: no host operation writes it and no pallas call changes it. -/
theorem B8_main_arg4 (c : Dev nD) : B8 m ρ c (Proc.devRef .tc main_arg4) = m ((c : Thread nD τ).loc main_arg4) :=
  (after_keeps hostOps4 hostOps4_W hostOps4_writes _ main_arg4 (by decide)).trans <|
  (B7_of_ne m ρ c main_arg4 (by decide)).trans <|
  (after_keeps hostOps3 hostOps3_W hostOps3_writes _ main_arg4 (by decide)).trans <|
  (B5_of_ne m ρ c main_arg4 (by decide)).trans <|
  (after_keeps hostOps2 hostOps2_W hostOps2_writes _ main_arg4 (by decide)).trans <|
  (B3_of_ne m ρ c main_arg4 (by decide)).trans <|
  (after_keeps hostOps1 hostOps1_W hostOps1_writes _ main_arg4 (by decide)).trans <|
  (B1_of_ne m ρ c main_arg4 (by decide)).trans rfl

/-- `main_arg5` reaches the return as launched: no host operation writes it and no pallas call changes it. -/
theorem B8_main_arg5 (c : Dev nD) : B8 m ρ c (Proc.devRef .tc main_arg5) = m ((c : Thread nD τ).loc main_arg5) :=
  (after_keeps hostOps4 hostOps4_W hostOps4_writes _ main_arg5 (by decide)).trans <|
  (B7_of_ne m ρ c main_arg5 (by decide)).trans <|
  (after_keeps hostOps3 hostOps3_W hostOps3_writes _ main_arg5 (by decide)).trans <|
  (B5_of_ne m ρ c main_arg5 (by decide)).trans <|
  (after_keeps hostOps2 hostOps2_W hostOps2_writes _ main_arg5 (by decide)).trans <|
  (B3_of_ne m ρ c main_arg5 (by decide)).trans <|
  (after_keeps hostOps1 hostOps1_W hostOps1_writes _ main_arg5 (by decide)).trans <|
  (B1_of_ne m ρ c main_arg5 (by decide)).trans rfl

/-- THE FRAME: every weakly fair execution of the program terminates, nothing faulting, and every final state has the
    six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B8_main_arg0 m ρ c),
     (h c _ (mem_uc main_arg1 (by decide))).trans (B8_main_arg1 m ρ c),
     (h c _ (mem_uc main_arg2 (by decide))).trans (B8_main_arg2 m ρ c),
     (h c _ (mem_uc main_arg3 (by decide))).trans (B8_main_arg3 m ρ c),
     (h c _ (mem_uc main_arg4 (by decide))).trans (B8_main_arg4 m ρ c),
     (h c _ (mem_uc main_arg5 (by decide))).trans (B8_main_arg5 m ρ c)⟩) (run_all m ρ)

end Cert.KernelIdeal.Hand

end
-- ==== Proof.KIWalk.lean ====
/-
  Buffers through the boundaries.

  What each pallas call is entered with, traced back to where it was made: the rounded, transposed weights are made by
  the first host stretch and nothing after it writes them; the bias is an argument; each call's output array sits at
  the boundary after the call at what the write-backs left.
-/
import proofs.«105932_j25297357373492_2_alg».proof.Proof.KIFrame

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

/-- After the layer norm call its output array holds what the grid's write-backs left. -/
theorem B1_main_v0 : B1 m ρ c (Proc.devRef .tc main_v0) = (dat0 (E0 m ρ) c).arrAt 2 cfg0.N := B1_arr m ρ c 2
/-- After the fused projection call its output array holds what the write-backs left. -/
theorem B3_main_v7 : B3 m ρ c (Proc.devRef .tc main_v7) = (dat1 (E1 m ρ) c).arrAt 2 cfg1.N := B3_arr m ρ c 2
/-- After the output projection call its output array holds what the write-backs left. -/
theorem B7_main_v11 : B7 m ρ c (Proc.devRef .tc main_v11) = (dat3 (E3 m ρ) c).arrAt 2 cfg3.N := B7_arr m ρ c 2

/-- The layer norm call leaves the three weight arguments as launched. -/
theorem B1_main_arg3 : B1 m ρ c (Proc.devRef .tc main_arg3) = m ((c : Thread nD τ).loc main_arg3) := (B1_of_ne m ρ c main_arg3 (by decide)).trans rfl
theorem B1_main_arg4 : B1 m ρ c (Proc.devRef .tc main_arg4) = m ((c : Thread nD τ).loc main_arg4) := (B1_of_ne m ρ c main_arg4 (by decide)).trans rfl
theorem B1_main_arg5 : B1 m ρ c (Proc.devRef .tc main_arg5) = m ((c : Thread nD τ).loc main_arg5) := (B1_of_ne m ρ c main_arg5 (by decide)).trans rfl

/-- The bias reaches attention as launched. -/
theorem B4_main_arg1 : B4 m ρ c (Proc.devRef .tc main_arg1) = m ((c : Thread nD τ).loc main_arg1) :=
  (after_keeps hostOps2 hostOps2_W hostOps2_writes _ main_arg1 (by decide)).trans <|
  (B3_of_ne m ρ c main_arg1 (by decide)).trans <|
  (after_keeps hostOps1 hostOps1_W hostOps1_writes _ main_arg1 (by decide)).trans <|
  (B1_of_ne m ρ c main_arg1 (by decide)).trans rfl

/-- The output weights, transposed and rounded by the first host stretch, reach the output projection untouched. -/
theorem B6_main_v6 : B6 m ρ c (Proc.devRef .tc main_v6) = B2 m ρ c (Proc.devRef .tc main_v6) :=
  (after_keeps hostOps3 hostOps3_W hostOps3_writes _ main_v6 (by decide)).trans <|
  (B5_of_ne m ρ c main_v6 (by decide)).trans <|
  (after_keeps hostOps2 hostOps2_W hostOps2_writes _ main_v6 (by decide)).trans <|
  (B3_of_ne m ρ c main_v6 (by decide))

end Cert.KernelIdeal.Hand

end
-- ==== Proof.KIHost.lean ====
import proofs.«105932_j25297357373492_2_alg».proof.Proof.Gen.KernelIdeal.Launch
import proofs.«105932_j25297357373492_2_alg».proof.Proof.Gen.KernelIdeal.Regions
import Idealize.ShloMosaic.Lib.Pipeline.Value
import Idealize.ShloMosaic.Lib.ValueIdx
import Idealize.ShloMosaic.Lib.StableHlo.Run

/-! # The host operations between the kernel calls, on extended reals, read entry by entry

Between the calls the program only re-lays arrays: it merges or splits the leading two axes `[2, 2048] ↔ [4096]`,
stacks the two weight matrices along their rows and transposes the stack, and transposes the output weights.
(Rounding to bf16 is the identity on extended reals.) Each result is stated as one function of the arrays the
stretch starts from, for any contents `W` of the buffers. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

/-! ## The re-layings as functions of arrays -/

/-- `[2, 2048, 1024]` read as `[4096, 1024]`: row `r` is entry `(r / 2048, r % 2048)`. -/
abbrev merge1024 (a : S2x2048x1024.Idx → EReal) : S4096x1024.Idx → EReal :=
  fun i => a (ix3 (⟨(i 0).val / 2048, by have := idx2_lt0 i; omega⟩ : Fin 2)
    (⟨(i 0).val % 2048, Nat.mod_lt _ (by decide)⟩ : Fin 2048) (⟨(i 1).val, idx2_lt1 i⟩ : Fin 1024))

/-- `[4096, 3072]` read as `[2, 2048, 3072]`: entry `(b, s)` is row `2048·b + s`. -/
abbrev split3072 (a : S4096x3072.Idx → EReal) : S2x2048x3072.Idx → EReal :=
  fun i => a (ix2 (⟨(i 0).val * 2048 + (i 1).val, by
    have h0 : (i 0).val < 2 := (i 0).isLt
    have h1 : (i 1).val < 2048 := (i 1).isLt
    omega⟩ : Fin 4096) (⟨(i 2).val, (i 2).isLt⟩ : Fin 3072))

/-- `[4096, 1024]` read as `[2, 2048, 1024]`. -/
abbrev split1024 (a : S4096x1024.Idx → EReal) : S2x2048x1024.Idx → EReal :=
  fun i => a (ix2 (⟨(i 0).val * 2048 + (i 1).val, by
    have h0 : (i 0).val < 2 := (i 0).isLt
    have h1 : (i 1).val < 2048 := (i 1).isLt
    omega⟩ : Fin 4096) (⟨(i 2).val, (i 2).isLt⟩ : Fin 1024))

/-- The query weights `[1024, 1024]` stacked over the key-value weights `[2048, 1024]`, transposed: column `n` of
    the `[1024, 3072]` result is row `n` of the first matrix when `n < 1024`, row `n − 1024` of the second otherwise. -/
abbrev stackT (a : S1024x1024.Idx → EReal) (b : S2048x1024.Idx → EReal) : S1024x3072.Idx → EReal :=
  fun i => if h : (i 1).val < 1024 then a (ix2 (⟨(i 1).val, h⟩ : Fin 1024) (⟨(i 0).val, idx2_lt0 i⟩ : Fin 1024))
    else b (ix2 (⟨(i 1).val - 1024, by have := idx2_lt1 i; omega⟩ : Fin 2048) (⟨(i 0).val, idx2_lt0 i⟩ : Fin 1024))

/-- A square matrix transposed. -/
abbrev transp1024 (a : S1024x1024.Idx → EReal) : S1024x1024.Idx → EReal :=
  fun i => a (ix2 (⟨(i 1).val, idx2_lt1 i⟩ : Fin 1024) (⟨(i 0).val, idx2_lt0 i⟩ : Fin 1024))

/-! ## Each host operation is its re-laying -/

theorem merge1024_eq (a : S2x2048x1024.Idx → EReal) :
    shapeCast S4096x1024 a shapeCasts_S2x2048x1024_S4096x1024 = merge1024 a := by
  funext i
  refine shapeCast_apply a _ i _ ?_
  rw [Shape.rowMajor_val_two, Shape.rowMajor_val_three]
  have h0 := idx2_lt0 i
  show ((i 0).val / 2048 * 2048 + (i 0).val % 2048) * 1024 + (i 1).val = (i 0).val * 1024 + (i 1).val
  omega

theorem split3072_eq (a : S4096x3072.Idx → EReal) :
    shapeCast S2x2048x3072 a shapeCasts_S4096x3072_S2x2048x3072 = split3072 a := by
  funext i
  refine shapeCast_apply a _ i _ ?_
  rw [Shape.rowMajor_val_two, Shape.rowMajor_val_three]
  rfl

theorem split1024_eq (a : S4096x1024.Idx → EReal) :
    shapeCast S2x2048x1024 a shapeCasts_S4096x1024_S2x2048x1024 = split1024 a := by
  funext i
  refine shapeCast_apply a _ i _ ?_
  rw [Shape.rowMajor_val_two, Shape.rowMajor_val_three]
  rfl

theorem transp1024_eq (a : S1024x1024.Idx → EReal) :
    transpose S1024x1024 [1, 0] a transposes_S1024x1024_S1024x1024_1_0 = transp1024 a := by
  funext i
  refine transpose_apply [1, 0] a _ i _ fun b => ?_
  match b with
  | ⟨0, _⟩ => rfl
  | ⟨1, _⟩ => rfl

theorem stackT_eq (a : S1024x1024.Idx → EReal) (b : S2048x1024.Idx → EReal) :
    transpose S1024x3072 [1, 0] (concatenate S3072x1024 0 [⟨S1024x1024, a⟩, ⟨S2048x1024, b⟩]
        concatenates_S1024x1024_S2048x1024_S3072x1024_d0) transposes_S3072x1024_S1024x3072_1_0 = stackT a b := by
  funext i
  have h0 := idx2_lt0 i
  have h1 := idx2_lt1 i
  refine (transpose_apply [1, 0] _ transposes_S3072x1024_S1024x3072_1_0 i
    (ix2 (⟨(i 1).val, h1⟩ : Fin 3072) (⟨(i 0).val, h0⟩ : Fin 1024)) fun b => ?_).trans ?_
  · match b with
    | ⟨0, _⟩ => rfl
    | ⟨1, _⟩ => rfl
  · show _ = if h : (i 1).val < 1024 then _ else _
    split
    · rename_i h
      refine concatenate_pair_apply_left (t := S3072x1024) 0 a b concatenates_S1024x1024_S2048x1024_S3072x1024_d0 _ rfl _ fun c => ?_
      match c with
      | ⟨0, _⟩ => rfl
      | ⟨1, _⟩ => rfl
    · rename_i h
      refine concatenate_pair_apply_right (t := S3072x1024) 0 a b concatenates_S1024x1024_S2048x1024_S3072x1024_d0 _ rfl rfl _ (fun c hc => ?_) ?_
      · match c with
        | ⟨0, _⟩ => exact absurd rfl hc
        | ⟨1, _⟩ => rfl
      · show (i 1).val - 1024 + 1024 = (i 1).val
        omega

variable (W : Valuation τ sig (Elt Ideal))

/-! ## The stretch before the projection call -/

theorem host1_v1 : StableHlo.after hostOps1 W (Proc.devRef .tc main_v1) = merge1024 (W (Proc.devRef .tc main_v0)) := by
  have e : (StableHlo.after hostOps1 W (Proc.devRef .tc main_v1) : S4096x1024.Idx → EReal)
      = shapeCast S4096x1024 (W (Proc.devRef .tc main_v0) : S2x2048x1024.Idx → EReal) shapeCasts_S2x2048x1024_S4096x1024 := by
    dsimp only [hostOps1]; after_results; rfl
  exact e.trans (merge1024_eq _)

theorem host1_v4 : StableHlo.after hostOps1 W (Proc.devRef .tc main_v4)
    = stackT (W (Proc.devRef .tc main_arg3)) (W (Proc.devRef .tc main_arg4)) := by
  have e : (StableHlo.after hostOps1 W (Proc.devRef .tc main_v4) : S1024x3072.Idx → EReal)
      = transpose S1024x3072 [1, 0] (concatenate S3072x1024 0 [⟨S1024x1024, (W (Proc.devRef .tc main_arg3) : S1024x1024.Idx → EReal)⟩,
          ⟨S2048x1024, (W (Proc.devRef .tc main_arg4) : S2048x1024.Idx → EReal)⟩] concatenates_S1024x1024_S2048x1024_S3072x1024_d0)
          transposes_S3072x1024_S1024x3072_1_0 := by
    dsimp only [hostOps1]; after_results; rfl
  exact e.trans (stackT_eq _ _)

theorem host1_v6 : StableHlo.after hostOps1 W (Proc.devRef .tc main_v6) = transp1024 (W (Proc.devRef .tc main_arg5)) := by
  have e : (StableHlo.after hostOps1 W (Proc.devRef .tc main_v6) : S1024x1024.Idx → EReal)
      = transpose S1024x1024 [1, 0] (W (Proc.devRef .tc main_arg5) : S1024x1024.Idx → EReal) transposes_S1024x1024_S1024x1024_1_0 := by
    dsimp only [hostOps1]; after_results; rfl
  exact e.trans (transp1024_eq _)

/-- The stretch leaves every buffer it does not write as it was. -/
theorem host1_keep (r : Ref sig .tc) (h : r ∉ hostOps1_W) :
    StableHlo.after hostOps1 W (Proc.devRef .tc r) = W (Proc.devRef .tc r) :=
  StableHlo.after_of_writes_sub hostOps1 W hostOps1_writes h

/-! ## The stretches after the projection, attention and output-projection calls -/

theorem host2_v8 : StableHlo.after hostOps2 W (Proc.devRef .tc main_v8) = split3072 (W (Proc.devRef .tc main_v7)) := by
  have e : (StableHlo.after hostOps2 W (Proc.devRef .tc main_v8) : S2x2048x3072.Idx → EReal)
      = shapeCast S2x2048x3072 (W (Proc.devRef .tc main_v7) : S4096x3072.Idx → EReal) shapeCasts_S4096x3072_S2x2048x3072 := by
    dsimp only [hostOps2]; after_results; rfl
  exact e.trans (split3072_eq _)

theorem host2_keep (r : Ref sig .tc) (h : r ∉ hostOps2_W) :
    StableHlo.after hostOps2 W (Proc.devRef .tc r) = W (Proc.devRef .tc r) :=
  StableHlo.after_of_writes_sub hostOps2 W hostOps2_writes h

theorem host3_v10 : StableHlo.after hostOps3 W (Proc.devRef .tc main_v10) = merge1024 (W (Proc.devRef .tc main_v9)) := by
  have e : (StableHlo.after hostOps3 W (Proc.devRef .tc main_v10) : S4096x1024.Idx → EReal)
      = shapeCast S4096x1024 (W (Proc.devRef .tc main_v9) : S2x2048x1024.Idx → EReal) shapeCasts_S2x2048x1024_S4096x1024 := by
    dsimp only [hostOps3]; after_results; rfl
  exact e.trans (merge1024_eq _)

theorem host3_keep (r : Ref sig .tc) (h : r ∉ hostOps3_W) :
    StableHlo.after hostOps3 W (Proc.devRef .tc r) = W (Proc.devRef .tc r) :=
  StableHlo.after_of_writes_sub hostOps3 W hostOps3_writes h

theorem host4_v12 : StableHlo.after hostOps4 W (Proc.devRef .tc main_v12) = split1024 (W (Proc.devRef .tc main_v11)) := by
  have e : (StableHlo.after hostOps4 W (Proc.devRef .tc main_v12) : S2x2048x1024.Idx → EReal)
      = shapeCast S2x2048x1024 (W (Proc.devRef .tc main_v11) : S4096x1024.Idx → EReal) shapeCasts_S4096x1024_S2x2048x1024 := by
    dsimp only [hostOps4]; after_results; rfl
  exact e.trans (split1024_eq _)

theorem host4_keep (r : Ref sig .tc) (h : r ∉ hostOps4_W) :
    StableHlo.after hostOps4 W (Proc.devRef .tc r) = W (Proc.devRef .tc r) :=
  StableHlo.after_of_writes_sub hostOps4 W hostOps4_writes h

end Cert.KernelIdeal.Hand

end
-- ==== Proof.SpecLN.lean ====
import Idealize.ShloMosaic.PureOps.Ideal
import Idealize.ShloMosaic.Lib.ValueIdx

/-! # Layer normalisation along the sequence axis, on extended reals

The activations are an array indexed by (batch, position, feature) of extents 2 x 2048 x 1024, the gains a
vector over the 1024 features. For a fixed batch and feature the 2048 values along the position axis form a
column. The column is centred at its mean, scaled by the reciprocal square root of its variance (floored at
a small constant), and multiplied by the feature's gain:

  out(b, n, d) = ((x(b, n, d) - mean) * rsqrt (max var eps)) * g(d),
  mean = (sum over n of x(b, n, d)) / 2048,   var = (sum over n of (x(b, n, d) - mean)^2) / 2048.

The two constants are kept as the 32-bit float words they are written with; they are never evaluated. -/

noncomputable section

namespace Cert.Spec

open Idealize.ShloMosaic Idealize.ShloMosaic.ValueIdx
open scoped BigOperators

/-- The divisor 2048, the length of the position axis, as its float word. -/
def seqLen : EReal := Ideal.ofBits .f32 0x45000000#32

/-- The floor under the variance, as its float word (about 1e-5). -/
def lnEps : EReal := Ideal.ofBits .f32 0x3727C5AC#32

/-- Mean of a column. -/
def colMean (col : Fin 2048 → EReal) : EReal := Ideal.div (∑ k : Fin 2048, col k) seqLen

/-- Variance of a column: the mean of the squared deviations from the column's mean. -/
def colVar (col : Fin 2048 → EReal) : EReal :=
  Ideal.div (∑ k : Fin 2048, (col k - colMean col) * (col k - colMean col)) seqLen

/-- A column normalised and scaled by a gain, at position `n`. -/
def lnCol (col : Fin 2048 → EReal) (gain : EReal) (n : Fin 2048) : EReal :=
  ((col n - colMean col) * Ideal.rsqrt (max (colVar col) lnEps)) * gain

/-- Layer normalisation at the coordinates (batch `b`, position `n`, feature `d`). -/
def LNat (x : (⟨3, ![2, 2048, 1024]⟩ : Shape).Idx → EReal) (g : (⟨1, ![1024]⟩ : Shape).Idx → EReal)
    (b : Fin 2) (n : Fin 2048) (d : Fin 1024) : EReal :=
  lnCol (fun k => x (ix3 b k d)) (g (ix1 d)) n

/-- Layer normalisation of the whole array. -/
def LN (x : (⟨3, ![2, 2048, 1024]⟩ : Shape).Idx → EReal) (g : (⟨1, ![1024]⟩ : Shape).Idx → EReal) :
    (⟨3, ![2, 2048, 1024]⟩ : Shape).Idx → EReal :=
  fun i => LNat x g (i 0) (i 1) (i 2)

/-- At an index given by its coordinates. -/
theorem LN_ix3 (x : (⟨3, ![2, 2048, 1024]⟩ : Shape).Idx → EReal) (g : (⟨1, ![1024]⟩ : Shape).Idx → EReal)
    (b : Fin 2) (n : Fin 2048) (d : Fin 1024) : LN x g (ix3 b n d) = LNat x g b n d := rfl

end Cert.Spec
-- ==== Proof.KIPay0.lean ====
import proofs.«105932_j25297357373492_2_alg».proof.Proof.Gen.KernelIdeal.Skeleton
import proofs.«105932_j25297357373492_2_alg».proof.Proof.SpecLN
import Idealize.ShloMosaic.Lib.Pipeline.Value
import Idealize.ShloMosaic.Lib.ValueLayout
import Idealize.ShloMosaic.Lib.ValueIdx
import Idealize.ShloMosaic.PureOps.Ideal.Laws

/-! # The layer-norm body's value at an index

The body's value is computed from a 1 x 2048 x 512 block `x` of activations and a block `g` of 512 gains.
With the unit axis dropped, column `q` of the block is the 2048 values `x(0, k, q)`. The value at (0, n, q)
is that column normalised and scaled by `g(q)`, read at position `n`: the column's sum over the rows gives
the mean, the squared deviations summed over the rows give the variance, and the rest is pointwise. -/

noncomputable section

namespace Cert.KernelIdeal.Hand

open Cert.KernelIdeal Cert.KernelIdeal.Gen Cert.Spec
open Idealize.ShloMosaic Idealize.ShloMosaic.ValueIdx
open scoped BigOperators

/-- A sum over the rows of a 2048 x 512 array, at column `q`. The reduction starts from the neutral element,
    so no initial value appears. -/
theorem rowSum_apply (v : FVec Ideal S2048x512 .f32) (q : Fin 512) :
    multiReduction .add [0] S512 v 0x00000000#32 reduces_S2048x512_S512 (.inl rfl) rfl (ix1 q)
      = ∑ k : Fin 2048, v (ix2 k q) := by
  refine (Ideal.multiReduction_add_single v 0x00000000#32 reduces_S2048x512_S512 (.inl rfl) rfl (ix1 q)).trans ?_
  refine Finset.sum_congr rfl fun k _ => congrArg v ?_
  funext a; apply Fin.ext
  match a with | ⟨0, _⟩ => rfl | ⟨1, _⟩ => rfl

/-- The block with its unit axis dropped. -/
def blkX (x : Vec Ideal S1x2048x512 .f32) : FVec Ideal S2048x512 .f32 :=
  shapeCast S2048x512 x shapeCasts_S1x2048x512_S2048x512

/-- The column means, as a one-row array. -/
def blkMean (x : Vec Ideal S1x2048x512 .f32) : FVec Ideal S1x512 .f32 :=
  divf (shapeCast S1x512 (multiReduction .add [0] S512 (blkX x) 0x00000000#32 reduces_S2048x512_S512 (.inl rfl) rfl) shapeCasts_S512_S1x512)
    (broadcast S1x512 (Scalar.ofBits .f32 0x45000000#32))

/-- The deviations from the column means. -/
def blkDev (x : Vec Ideal S1x2048x512 .f32) : FVec Ideal S2048x512 .f32 :=
  subf (blkX x) (broadcastTo S2048x512 (blkMean x) broadcasts_S1x512_S2048x512)

/-- The column variances, as a one-row array. -/
def blkVar (x : Vec Ideal S1x2048x512 .f32) : FVec Ideal S1x512 .f32 :=
  divf (shapeCast S1x512 (multiReduction .add [0] S512 (mulf (blkDev x) (blkDev x)) 0x00000000#32 reduces_S2048x512_S512 (.inl rfl) rfl) shapeCasts_S512_S1x512)
    (broadcast S1x512 (Scalar.ofBits .f32 0x45000000#32))

/-- The reciprocal square roots of the floored variances. -/
def blkInv (x : Vec Ideal S1x2048x512 .f32) : FVec Ideal S1x512 .f32 :=
  rsqrt (maximumf (blkVar x) (broadcast S1x512 (Scalar.ofBits .f32 0x3727C5AC#32)))

/-- The body's value is built from those pieces. -/
theorem pay_eq (x : Vec Ideal S1x2048x512 .f32) (g : Vec Ideal S512 .f32) :
    k0_pay1 (F := Ideal) x g
      = shapeCast S1x2048x512
          (mulf (mulf (blkDev x) (broadcastTo S2048x512 (blkInv x) broadcasts_S1x512_S2048x512))
            (broadcastTo S2048x512 (shapeCast S1x512 g shapeCasts_S512_S1x512) broadcasts_S1x512_S2048x512))
          shapeCasts_S2048x512_S1x2048x512 := rfl

theorem blkX_apply (x : Vec Ideal S1x2048x512 .f32) (k : Fin 2048) (q : Fin 512) :
    blkX x (ix2 k q) = x (ix3 (0 : Fin 1) k q) :=
  shapeCast_1ab_ab_apply x shapeCasts_S1x2048x512_S2048x512 k q

theorem blkMean_apply (x : Vec Ideal S1x2048x512 .f32) (u : Fin 1) (q : Fin 512) :
    blkMean x (ix2 u q) = colMean (fun k => x (ix3 (0 : Fin 1) k q)) := by
  unfold blkMean
  rw [divf_apply, shapeCast_a_1a_apply, rowSum_apply]
  simp only [blkX_apply]
  rfl

theorem blkDev_apply (x : Vec Ideal S1x2048x512 .f32) (k : Fin 2048) (q : Fin 512) :
    blkDev x (ix2 k q) = x (ix3 (0 : Fin 1) k q) - colMean (fun k => x (ix3 (0 : Fin 1) k q)) := by
  unfold blkDev
  rw [subf_apply, broadcastTo_1b_ab_apply, blkMean_apply, blkX_apply]

theorem blkVar_apply (x : Vec Ideal S1x2048x512 .f32) (u : Fin 1) (q : Fin 512) :
    blkVar x (ix2 u q) = colVar (fun k => x (ix3 (0 : Fin 1) k q)) := by
  unfold blkVar
  rw [divf_apply, shapeCast_a_1a_apply, rowSum_apply]
  simp only [mulf_apply, blkDev_apply]
  rfl

theorem blkInv_apply (x : Vec Ideal S1x2048x512 .f32) (u : Fin 1) (q : Fin 512) :
    blkInv x (ix2 u q) = Ideal.rsqrt (max (colVar (fun k => x (ix3 (0 : Fin 1) k q))) lnEps) := by
  unfold blkInv
  show Ideal.rsqrt (max (blkVar x (ix2 u q)) _) = _
  rw [blkVar_apply]
  rfl

/-- The body's value at (`u`, `n`, `q`): column `q` normalised, scaled by the gain `g(q)`, at position `n`. -/
theorem pay_ix3 (x : Vec Ideal S1x2048x512 .f32) (g : Vec Ideal S512 .f32) (u : Fin 1) (n : Fin 2048) (q : Fin 512) :
    k0_pay1 (F := Ideal) x g (ix3 u n q) = lnCol (fun k => x (ix3 (0 : Fin 1) k q)) (g (ix1 q)) n := by
  rw [pay_eq, shapeCast_ab_1ab_apply, mulf_apply, mulf_apply, blkDev_apply, broadcastTo_1b_ab_apply, blkInv_apply,
    broadcastTo_1b_ab_apply, shapeCast_a_1a_apply]
  rfl

end Cert.KernelIdeal.Hand
-- ==== Proof.KIValue0.lean ====
import proofs.«105932_j25297357373492_2_alg».proof.Proof.KIBody0
import proofs.«105932_j25297357373492_2_alg».proof.Proof.KIPay0
import proofs.«105932_j25297357373492_2_alg».proof.Proof.SpecLN
import Idealize.ShloMosaic.Lib.Pipeline.Value
import Idealize.ShloMosaic.Lib.Tactic

/-! # What the layer-norm call leaves in its output array

The call's grid has four points, one per (batch, half of the feature axis). At a point the activation block
is the 2048 x 512 slab of that batch and that half of the features, the gain block is that half of the gains,
and the output block is the same slab of the output array. The body reduces over all 2048 positions of its
block, that is over the whole position axis, so what it writes is the layer normalisation of the whole array
restricted to the slab. The four slabs tile the output array, which therefore ends holding the layer
normalisation of the activations and gains found when the call was entered. -/

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

theorem zero3 : (![0, 0, 0] : Fin 3 → Nat) = fun _ => 0 := funext fun a => by fin_cases a <;> rfl
theorem zero1 : (![0] : Fin 1 → Nat) = fun _ => 0 := funext fun a => by fin_cases a <;> rfl

/-- A block of activations and a block of gains that are the slab (batch `b`, features `o … o + 511`) of
    whole arrays `X`, `G`: the body's value at an element of the block is the layer normalisation of `X`, `G` at
    the corresponding element of the slab. -/
theorem slab_value (X : (⟨3, ![2, 2048, 1024]⟩ : Shape).Idx → EReal) (G : (⟨1, ![1024]⟩ : Shape).Idx → EReal)
    (x : Vec Ideal S1x2048x512 .f32) (g : Vec Ideal S512 .f32) (b : Fin 2) (o : ℕ) (ho : o + 512 ≤ 1024)
    (hx : ∀ (k : Fin 2048) (q : Fin 512), x (ix3 (0 : Fin 1) k q) = X (ix3 b k ⟨o + q.val, by have := q.isLt; omega⟩))
    (hg : ∀ q : Fin 512, g (ix1 q) = G (ix1 ⟨o + q.val, by have := q.isLt; omega⟩))
    (j : (⟨3, ![1, 2048, 512]⟩ : Shape).Idx) (i : (⟨3, ![2, 2048, 1024]⟩ : Shape).Idx)
    (h0 : (i 0).val = b.val) (h1 : (i 1).val = (j 1).val) (h2 : (i 2).val = o + (j 2).val) :
    k0_pay1 (F := Ideal) x g j = LN X G i := by
  obtain ⟨u, n, q, rfl⟩ : ∃ (u : Fin 1) (n : Fin 2048) (q : Fin 512), j = ix3 u n q := ⟨j 0, j 1, j 2, eq_ix3 j⟩
  have hq : o + q.val < 1024 := by have := q.isLt; omega
  obtain ⟨b', n', d', rfl⟩ : ∃ (b' : Fin 2) (n' : Fin 2048) (d' : Fin 1024), i = ix3 b' n' d' := ⟨i 0, i 1, i 2, eq_ix3 i⟩
  obtain rfl : b' = b := Fin.ext h0
  obtain rfl : n' = n := Fin.ext h1
  obtain rfl : d' = ⟨o + q.val, hq⟩ := Fin.ext h2
  rw [pay_ix3, LN_ix3]
  unfold LNat
  rw [hg q, show (fun k => x (ix3 (0 : Fin 1) k q)) = fun k => X (ix3 b' k ⟨o + q.val, by have := q.isLt; omega⟩) from
    funext fun k => hx k q]

/-- The index maps over the grid: the activation block and the output block are the same slab, the gain block
    is the slab's half of the features, and the slab's coordinates are (batch, 0, half). -/
theorem idx_facts0 : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 1) = win0_2.index t (2 : Fin 3)
    ∧ win0_2.index t (0 : Fin 3) ≤ 1 ∧ win0_2.index t (1 : Fin 3) = 0 ∧ win0_2.index t (2 : Fin 3) ≤ 1 :=
  (by decide +kernel : ∀ t : Fin grid0.N, _)

/-- Every slab is some point's output block. -/
theorem idx_onto0 : ∀ (q0 : Fin 2) (q2 : Fin 2), ∃ t : Fin cfg0.N, win0_2.index t = ![q0.val, 0, q2.val] :=
  (by decide +kernel : ∀ (q0 : Fin 2) (q2 : Fin 2), ∃ t : Fin grid0.N, win0_2.index t = ![q0.val, 0, q2.val])

variable (V : (c : Dev nD) → (b : Ref sig .tc) → Buf (Elt Ideal) ((c : Thread nD τ).loc b))

/-- What point `t` writes back is its block of the layer normalisation of the arrays found at entry. -/
theorem flushed0_eq (c : Dev nD) (t : Fin cfg0.N) :
    (dat0 (F := Ideal) V c).flushed 2 t
      = ((cfg0.win 2).blk t).view.read (Elt Ideal) (LN (V c main_arg0) (V c main_arg2)) := by
  show (cfg0.win 2).cut (grid0.coords t) ((dat0 V c).after 2 t) = _
  rw [after0_2]
  unfold out0_2 rX0 rG0
  rw [View.canon_unit_zero zero3]
  simp only [View.ld_unit_zero (S := S1x2048x512) zero3, View.ld_unit_zero (S := S512) zero1]
  obtain ⟨e0, e1, e2, e3, l0, z1, l2⟩ := idx_facts0 t
  funext j
  show k0_pay1 (F := Ideal) (iblk0 V c 0 t) (iblk0 V c 1 t) j
    = LN (V c main_arg0) (V c main_arg2) (((cfg0.win 2).blk t).view.emb j)
  have hj0 : (j 0).val < 1 := (j 0).isLt
  have hj1 : (j 1).val < 2048 := (j 1).isLt
  have hj2 : (j 2).val < 512 := (j 2).isLt
  refine slab_value (V c main_arg0) (V c main_arg2) (iblk0 V c 0 t) (iblk0 V c 1 t)
    ⟨win0_2.index t (0 : Fin 3), by omega⟩ (win0_2.index t (2 : Fin 3) * 512) (by omega) ?_ ?_ j _ ?_ ?_ ?_
  · intro k q
    have hq : q.val < 512 := q.isLt
    unfold iblk0
    rw [View.read_apply]
    show V c main_arg0 (((cfg0.win 0).blk t).view.emb (ix3 (0 : Fin 1) k q)) = V c main_arg0 _
    refine congrArg (V c main_arg0) ?_
    funext a; apply Fin.ext
    match a with
    | ⟨0, _⟩ => show win0_0.index t (0 : Fin 3) * 1 + 1 * 0 = win0_2.index t (0 : Fin 3); omega
    | ⟨1, _⟩ => show win0_0.index t (1 : Fin 3) * 2048 + 1 * k.val = k.val; omega
    | ⟨2, _⟩ => show win0_0.index t (2 : Fin 3) * 512 + 1 * q.val = win0_2.index t (2 : Fin 3) * 512 + q.val; omega
  · intro q
    have hq : q.val < 512 := q.isLt
    unfold iblk0
    rw [View.read_apply]
    show V c main_arg2 (((cfg0.win 1).blk t).view.emb (ix1 q)) = V c main_arg2 _
    refine congrArg (V c main_arg2) ?_
    funext a; apply Fin.ext
    match a with
    | ⟨0, _⟩ => show win0_1.index t (0 : Fin 1) * 512 + 1 * q.val = win0_2.index t (2 : Fin 3) * 512 + q.val; omega
  · show win0_2.index t (0 : Fin 3) * 1 + 1 * (j 0).val = win0_2.index t (0 : Fin 3); omega
  · show win0_2.index t (1 : Fin 3) * 2048 + 1 * (j 1).val = (j 1).val; omega
  · show win0_2.index t (2 : Fin 3) * 512 + 1 * (j 2).val = win0_2.index t (2 : Fin 3) * 512 + (j 2).val; omega

/-- An element of the output array lies in point `t`'s block exactly when each coordinate lies in the block's
    range on its axis. -/
theorem mem_blk0 (t : Fin cfg0.N) (i : S2x2048x1024.Idx) :
    i ∈ ((cfg0.win 2).blk t).view.set ↔ ∀ a : Fin 3, win0_2.index t a * S1x2048x512.size a ≤ (i a).val
      ∧ (i a).val < win0_2.index t a * S1x2048x512.size a + S1x2048x512.size a := by
  show i ∈ ((View.whole main_v0).slice (win0_2.rect t)).set ↔ _
  rw [View.set_slice_whole, Rect.mem_set_unit]
  exact Iff.rfl

/-- The four blocks cover the output array: the element (b, n, d) lies in the slab (b, d / 512). -/
theorem cover0 (i : S2x2048x1024.Idx) :
    ∃ t : Fin cfg0.N, (cfg0.win 2).flush t = true ∧ i ∈ ((cfg0.win 2).blk t).view.set := by
  have hi0 : (i 0).val < 2 := (i 0).isLt
  have hi1 : (i 1).val < 2048 := (i 1).isLt
  have hi2 : (i 2).val < 1024 := (i 2).isLt
  obtain ⟨t, ht⟩ := idx_onto0 ⟨(i 0).val, hi0⟩ ⟨(i 2).val / 512, by omega⟩
  have q0 : win0_2.index t (0 : Fin 3) = (i 0).val := congrFun ht 0
  have q1 : win0_2.index t (1 : Fin 3) = 0 := congrFun ht 1
  have q2 : win0_2.index t (2 : Fin 3) = (i 2).val / 512 := congrFun ht 2
  refine ⟨t, flush0_2 t, ?_⟩
  rw [mem_blk0]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 512 ≤ (i 2).val ∧ (i 2).val < win0_2.index t (2 : Fin 3) * 512 + 512
    omega

/-- After the whole grid the output array holds the layer normalisation of the activations and gains found
    when the call was entered. -/
theorem arrAt0 (c : Dev nD) :
    (dat0 (F := Ideal) V c).arrAt 2 cfg0.N = Cert.Spec.LN (V c main_arg0) (V c main_arg2) :=
  (dat0 (F := Ideal) V c).arrAt_eq_of_cover 2 (LN (V c main_arg0) (V c main_arg2))
    (fun t _ => flushed0_eq V c t) cover0

end Cert.KernelIdeal.Hand
-- ==== Proof.KIValue1.lean ====
import proofs.«105932_j25297357373492_2_alg».proof.Proof.KIBody1
import Idealize.ShloMosaic.Lib.Pipeline.Value
import Idealize.ShloMosaic.Lib.ValueIdx
import Idealize.ShloMosaic.PureOps.Ideal.Laws

/-! # Kernel call 1 on extended reals: the output array is a matrix product

With floats read as extended reals, rounding to bf16 is the identity and the body's product into a zero
accumulator is the plain sum of products over the 1024 contracted positions. Grid point `t` multiplies rows
`512·t … 512·t + 511` of the left array by the whole right array and writes rows `512·t …` of the result; the
eight points' row bands tile the `4096` rows, so after the grid the output array is the product of the two
arrays the call found, entry by entry. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The zero offset of a whole-buffer rectangle. -/
theorem zero_off1 : (![0, 0] : Fin 2 → Nat) = fun _ => 0 := funext fun a => by fin_cases a <;> rfl

/-- A single store through the whole-buffer rectangle leaves exactly its payload: the output window's buffer after
    the body is the payload of the two operand blocks. -/
theorem out1_2_eq {F : FTy → Type} [FloatOps F] (x0 : Vec F S512x1024 .f32) (x1 : Vec F S1024x3072 .bf16) :
    out1_2 x0 x1 = k1_pay1 x0 x1 := by
  unfold out1_2
  rw [View.canon_unit_zero zero_off1]
  simp only [View.ld_unit_zero (S := S512x1024) zero_off1, View.ld_unit_zero (S := S1024x3072) zero_off1]

/-- The left operand's row coordinate is the output's row. -/
theorem lhs1_row (i : S512x3072.Idx) (r : dot_S512x1024_S1024x3072_S512x3072_1_0_0_1_n_n.contr.Idx) : (dot_S512x1024_S1024x3072_S512x3072_1_0_0_1_n_n.lhsIdx i r 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
/-- The right operand's column coordinate is the output's column. -/
theorem rhs1_col (i : S512x3072.Idx) (r : dot_S512x1024_S1024x3072_S512x3072_1_0_0_1_n_n.contr.Idx) : (dot_S512x1024_S1024x3072_S512x3072_1_0_0_1_n_n.rhsIdx i r 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The payload at row `p`, column `q`: the sum over the contracted position `k` of the activation at `(p, k)`
    times the weight at `(k, q)`. -/
theorem pay1_apply (x0 : Vec Ideal S512x1024 .f32) (x1 : Vec Ideal S1024x3072 .bf16) (p : Fin 512) (q : Fin 3072) :
    k1_pay1 (F := Ideal) x0 x1 (ix2 p q) = ∑ k : Fin 1024, (x0 (ix2 p k) : EReal) * (x1 (ix2 k q) : EReal) := by
  unfold k1_pay1
  simp only [matmul, shapeCast_self]
  refine (Ideal.matmul_constant_zero_apply (φ₁ := .bf16) (φ₂ := .bf16) dot_S512x1024_S1024x3072_S512x3072_1_0_0_1_n_n none
    (truncf .bf16 x0 bitsLt_bf16_f32) x1 (ix2 p q)).trans ?_
  rw [← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 p q) ((contrEquiv1 dot_S512x1024_S1024x3072_S512x3072_1_0_0_1_n_n 1024 rfl rfl).symm k) = ix2 p k :=
    funext fun a => Fin.ext (by
      match a with
      | ⟨0, _⟩ => exact lhs1_row _ _
      | ⟨1, _⟩ => exact (dot_S512x1024_S1024x3072_S512x3072_1_0_0_1_n_n.lhsIdx_val_of_single rfl _ _).trans hk)
  have er : dot_S512x1024_S1024x3072_S512x3072_1_0_0_1_n_n.rhsIdx (ix2 p q) ((contrEquiv1 dot_S512x1024_S1024x3072_S512x3072_1_0_0_1_n_n 1024 rfl rfl).symm k) = ix2 k q :=
    funext fun a => Fin.ext (by
      match a with
      | ⟨0, _⟩ => exact (dot_S512x1024_S1024x3072_S512x3072_1_0_0_1_n_n.rhsIdx_val_of_single rfl _ _).trans hk
      | ⟨1, _⟩ => exact rhs1_col _ _)
  rw [el, er]
  rfl

variable (V : (c : Dev nD) → (b : Ref sig .tc) → Buf (Elt Ideal) ((c : Thread nD τ).loc b))

/-- The product of a `4096 × 1024` array with a `1024 × 3072` array, entry by entry, the left factor first. -/
abbrev prod1 (a0 : S4096x1024.Idx → EReal) (a1 : S1024x3072.Idx → EReal) : S4096x3072.Idx → EReal :=
  fun i => ∑ k : Fin 1024, a0 (ix2 (i 0) k) * a1 (ix2 k (i 1))

/-- The windows' block indices over the grid: the activation and product windows step down the rows with the
    grid point, the weight window stays at the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the product of the two arrays the call found. -/
theorem flushed1_eq (c : Dev nD) (t : Fin cfg1.N) :
    (dat1 (F := Ideal) V c).flushed 2 t
      = ((cfg1.win 2).blk t).view.read (Elt Ideal) (prod1 (V c main_v1) (V c main_v4)) := by
  show (cfg1.win 2).cut (grid1.coords t) ((dat1 V c).after 2 t) = _
  rw [after1_2]
  unfold out1_2
  rw [View.canon_unit_zero zero_off1]
  simp only [View.ld_unit_zero (S := S512x1024) zero_off1, View.ld_unit_zero (S := S1024x3072) zero_off1]
  obtain ⟨e00, e01, e10, e11, e20, e21⟩ := idx_facts1 t
  funext j
  obtain ⟨p, q, rfl⟩ : ∃ (p : Fin 512) (q : Fin 3072), j = ix2 p q := ⟨j 0, j 1, eq_ix2 j⟩
  show k1_pay1 (F := Ideal) (iblk1 V c 0 t) (iblk1 V c 1 t) (ix2 p q)
      = prod1 (V c main_v1) (V c main_v4) (((cfg1.win 2).blk t).view.emb (ix2 p q))
  refine (pay1_apply (iblk1 V c 0 t) (iblk1 V c 1 t) p q).trans ?_
  refine Finset.sum_congr rfl fun k _ => ?_
  refine congrArg₂ (· * ·) ?_ ?_
  · show (V c main_v1 : S4096x1024.Idx → EReal) (((cfg1.win 0).blk t).view.emb (ix2 p k)) = _
    refine congrArg (V c main_v1 : S4096x1024.Idx → EReal) (funext fun a => Fin.ext ?_)
    match a with
    | ⟨0, _⟩ =>
      show win1_0.index t (0 : Fin 2) * 512 + 1 * p.val = win1_2.index t (0 : Fin 2) * 512 + 1 * p.val
      omega
    | ⟨1, _⟩ =>
      show win1_0.index t (1 : Fin 2) * 1024 + 1 * k.val = k.val
      omega
  · show (V c main_v4 : S1024x3072.Idx → EReal) (((cfg1.win 1).blk t).view.emb (ix2 k q)) = _
    refine congrArg (V c main_v4 : S1024x3072.Idx → EReal) (funext fun a => Fin.ext ?_)
    match a with
    | ⟨0, _⟩ =>
      show win1_1.index t (0 : Fin 2) * 1024 + 1 * k.val = k.val
      omega
    | ⟨1, _⟩ =>
      show win1_1.index t (1 : Fin 2) * 3072 + 1 * q.val = win1_2.index t (1 : Fin 2) * 3072 + 1 * q.val
      omega

/-- An index of the output array lies in point `t`'s block iff each coordinate lies in the block's range. -/
theorem mem_blk1 (t : Fin cfg1.N) (i : S4096x3072.Idx) :
    i ∈ ((cfg1.win 2).blk t).view.set ↔ ∀ a : Fin 2, win1_2.index t a * S512x3072.size a ≤ (i a).val
      ∧ (i a).val < win1_2.index t a * S512x3072.size a + S512x3072.size a := by
  show i ∈ ((View.whole main_v7).slice (win1_2.rect t)).set ↔ _
  rw [View.set_slice_whole, Rect.mem_set_unit]
  exact Iff.rfl

/-- Every entry of the output array is written by some grid point: row `r` by point `r / 512`. -/
theorem cover1 (i : S4096x3072.Idx) :
    ∃ t : Fin cfg1.N, (cfg1.win 2).flush t = true ∧ i ∈ ((cfg1.win 2).blk t).view.set := by
  have hi0 : (i 0).val < 4096 := (i 0).isLt
  have hi1 : (i 1).val < 3072 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, e20, e21⟩ := idx_facts1 t
  refine ⟨t, flush1_2 t, ?_⟩
  rw [mem_blk1]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 3072 ≤ (i 1).val ∧ (i 1).val < win1_2.index t (1 : Fin 2) * 3072 + 3072
    omega

/-- After the whole grid the output array is the product of the two arrays the call found. -/
theorem arrAt1 (c : Dev nD) :
    (dat1 (F := Ideal) V c).arrAt 2 cfg1.N
      = prod1 (V c main_v1) (V c main_v4) :=
  (dat1 V c).arrAt_eq_of_cover 2 (prod1 (V c main_v1) (V c main_v4)) (fun t _ => flushed1_eq V c t) cover1

end Cert.KernelIdeal.Hand

end
-- ==== Proof.KIStageA.lean ====
/-
  The kernel's intermediate arrays as functions of the six arguments.

  Composing what each pallas call leaves with what each host stretch does: the layer norm's output is LN(x, g); the
  first host stretch flattens its rows and makes the fused weights (wq over wkv, transposed); the projection call
  multiplies; the second host stretch gives the product its batch axis back.  That array — queries in lanes 0…1023,
  keys in 1024…2047, values in 2048…3071 — is what attention is entered with.
-/
import proofs.«105932_j25297357373492_2_alg».proof.Proof.KIWalk
import proofs.«105932_j25297357373492_2_alg».proof.Proof.KIHost
import proofs.«105932_j25297357373492_2_alg».proof.Proof.KIValue0
import proofs.«105932_j25297357373492_2_alg».proof.Proof.KIValue1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

/-- The normalised input, as the first host stretch finds it. -/
theorem normed_eq : B1 m ρ c (Proc.devRef .tc main_v0)
    = Cert.Spec.LN (m ((c : Thread nD τ).loc main_arg0)) (m ((c : Thread nD τ).loc main_arg2)) :=
  (B1_main_v0 m ρ c).trans (arrAt0 (E0 m ρ) c)

/-- The projection's left operand: the normalised rows, flattened. -/
theorem rows_eq : B2 m ρ c (Proc.devRef .tc main_v1)
    = merge1024 (Cert.Spec.LN (m ((c : Thread nD τ).loc main_arg0)) (m ((c : Thread nD τ).loc main_arg2))) :=
  (host1_v1 (B1 m ρ c)).trans (congrArg merge1024 (normed_eq m ρ c))

/-- Its right operand: the query weights over the key/value weights, transposed. -/
theorem weights_eq : B2 m ρ c (Proc.devRef .tc main_v4)
    = stackT (m ((c : Thread nD τ).loc main_arg3)) (m ((c : Thread nD τ).loc main_arg4)) :=
  (host1_v4 (B1 m ρ c)).trans (congrArg₂ stackT (B1_main_arg3 m ρ c) (B1_main_arg4 m ρ c))

/-- The fused projection as attention finds it. -/
theorem fused_eq : B4 m ρ c (Proc.devRef .tc main_v8)
    = split3072 (prod1 (merge1024 (Cert.Spec.LN (m ((c : Thread nD τ).loc main_arg0)) (m ((c : Thread nD τ).loc main_arg2))))
        (stackT (m ((c : Thread nD τ).loc main_arg3)) (m ((c : Thread nD τ).loc main_arg4)))) :=
  (host2_v8 (B3 m ρ c)).trans (congrArg split3072 ((B3_main_v7 m ρ c).trans ((arrAt1 (E1 m ρ) c).trans
    (congrArg₂ prod1 (rows_eq m ρ c) (weights_eq m ρ c)))))

end Cert.KernelIdeal.Hand

end
-- ==== Proof.KIValue3.lean ====
import proofs.«105932_j25297357373492_2_alg».proof.Proof.KIBody3
import Idealize.ShloMosaic.Lib.Pipeline.Value
import Idealize.ShloMosaic.Lib.ValueIdx
import Idealize.ShloMosaic.PureOps.Ideal.Laws

/-! # Kernel call 3 on extended reals: the output array is a matrix product

With floats read as extended reals, rounding to bf16 is the identity and the body's product into a zero
accumulator is the plain sum of products over the 1024 contracted positions. Grid point `t` multiplies rows
`512·t … 512·t + 511` of the left array by the whole right array and writes rows `512·t …` of the result; the
eight points' row bands tile the `4096` rows, so after the grid the output array is the product of the two
arrays the call found, entry by entry. -/

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The zero offset of a whole-buffer rectangle. -/
theorem zero_off3 : (![0, 0] : Fin 2 → Nat) = fun _ => 0 := funext fun a => by fin_cases a <;> rfl

/-- A single store through the whole-buffer rectangle leaves exactly its payload: the output window's buffer after
    the body is the payload of the two operand blocks. -/
theorem out3_2_eq {F : FTy → Type} [FloatOps F] (x0 : Vec F S512x1024 .f32) (x1 : Vec F S1024x1024 .bf16) :
    out3_2 x0 x1 = k3_pay1 x0 x1 := by
  unfold out3_2
  rw [View.canon_unit_zero zero_off3]
  simp only [View.ld_unit_zero (S := S512x1024) zero_off3, View.ld_unit_zero (S := S1024x1024) zero_off3]

/-- The left operand's row coordinate is the output's row. -/
theorem lhs3_row (i : S512x1024.Idx) (r : dot_S512x1024_S1024x1024_S512x1024_1_0_0_1_n_n.contr.Idx) : (dot_S512x1024_S1024x1024_S512x1024_1_0_0_1_n_n.lhsIdx i r 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
/-- The right operand's column coordinate is the output's column. -/
theorem rhs3_col (i : S512x1024.Idx) (r : dot_S512x1024_S1024x1024_S512x1024_1_0_0_1_n_n.contr.Idx) : (dot_S512x1024_S1024x1024_S512x1024_1_0_0_1_n_n.rhsIdx i r 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The payload at row `p`, column `q`: the sum over the contracted position `k` of the activation at `(p, k)`
    times the weight at `(k, q)`. -/
theorem pay3_apply (x0 : Vec Ideal S512x1024 .f32) (x1 : Vec Ideal S1024x1024 .bf16) (p : Fin 512) (q : Fin 1024) :
    k3_pay1 (F := Ideal) x0 x1 (ix2 p q) = ∑ k : Fin 1024, (x0 (ix2 p k) : EReal) * (x1 (ix2 k q) : EReal) := by
  unfold k3_pay1
  simp only [matmul, shapeCast_self]
  refine (Ideal.matmul_constant_zero_apply (φ₁ := .bf16) (φ₂ := .bf16) dot_S512x1024_S1024x1024_S512x1024_1_0_0_1_n_n none
    (truncf .bf16 x0 bitsLt_bf16_f32) x1 (ix2 p q)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k :=
    funext fun a => Fin.ext (by
      match a with
      | ⟨0, _⟩ => exact lhs3_row _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q :=
    funext fun a => Fin.ext (by
      match a with
      | ⟨0, _⟩ => exact (dot_S512x1024_S1024x1024_S512x1024_1_0_0_1_n_n.rhsIdx_val_of_single rfl _ _).trans hk
      | ⟨1, _⟩ => exact rhs3_col _ _)
  rw [el, er]
  rfl

variable (V : (c : Dev nD) → (b : Ref sig .tc) → Buf (Elt Ideal) ((c : Thread nD τ).loc b))

/-- The product of a `4096 × 1024` array with a `1024 × 1024` array, entry by entry, the left factor first. -/
abbrev prod3 (a0 : S4096x1024.Idx → EReal) (a1 : S1024x1024.Idx → EReal) : S4096x1024.Idx → EReal :=
  fun i => ∑ k : Fin 1024, a0 (ix2 (i 0) k) * a1 (ix2 k (i 1))

/-- The windows' block indices over the grid: the activation and product windows step down the rows with the
    grid point, the weight window stays at the whole array. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of the product of the two arrays the call found. -/
theorem flushed3_eq (c : Dev nD) (t : Fin cfg3.N) :
    (dat3 (F := Ideal) V c).flushed 2 t
      = ((cfg3.win 2).blk t).view.read (Elt Ideal) (prod3 (V c main_v10) (V c main_v6)) := by
  show (cfg3.win 2).cut (grid3.coords t) ((dat3 V c).after 2 t) = _
  rw [after3_2]
  unfold out3_2
  rw [View.canon_unit_zero zero_off3]
  simp only [View.ld_unit_zero (S := S512x1024) zero_off3, View.ld_unit_zero (S := S1024x1024) zero_off3]
  obtain ⟨e00, e01, e10, e11, e20, e21⟩ := idx_facts3 t
  funext j
  obtain ⟨p, q, rfl⟩ : ∃ (p : Fin 512) (q : Fin 1024), j = ix2 p q := ⟨j 0, j 1, eq_ix2 j⟩
  show k3_pay1 (F := Ideal) (iblk3 V c 0 t) (iblk3 V c 1 t) (ix2 p q)
      = prod3 (V c main_v10) (V c main_v6) (((cfg3.win 2).blk t).view.emb (ix2 p q))
  refine (pay3_apply (iblk3 V c 0 t) (iblk3 V c 1 t) p q).trans ?_
  refine Finset.sum_congr rfl fun k _ => ?_
  refine congrArg₂ (· * ·) ?_ ?_
  · show (V c main_v10 : S4096x1024.Idx → EReal) (((cfg3.win 0).blk t).view.emb (ix2 p k)) = _
    refine congrArg (V c main_v10 : S4096x1024.Idx → EReal) (funext fun a => Fin.ext ?_)
    match a with
    | ⟨0, _⟩ =>
      show win3_0.index t (0 : Fin 2) * 512 + 1 * p.val = win3_2.index t (0 : Fin 2) * 512 + 1 * p.val
      omega
    | ⟨1, _⟩ =>
      show win3_0.index t (1 : Fin 2) * 1024 + 1 * k.val = k.val
      omega
  · show (V c main_v6 : S1024x1024.Idx → EReal) (((cfg3.win 1).blk t).view.emb (ix2 k q)) = _
    refine congrArg (V c main_v6 : S1024x1024.Idx → EReal) (funext fun a => Fin.ext ?_)
    match a with
    | ⟨0, _⟩ =>
      show win3_1.index t (0 : Fin 2) * 1024 + 1 * k.val = k.val
      omega
    | ⟨1, _⟩ =>
      show win3_1.index t (1 : Fin 2) * 1024 + 1 * q.val = win3_2.index t (1 : Fin 2) * 1024 + 1 * q.val
      omega

/-- An index of the output array lies in point `t`'s block iff each coordinate lies in the block's range. -/
theorem mem_blk3 (t : Fin cfg3.N) (i : S4096x1024.Idx) :
    i ∈ ((cfg3.win 2).blk t).view.set ↔ ∀ a : Fin 2, win3_2.index t a * S512x1024.size a ≤ (i a).val
      ∧ (i a).val < win3_2.index t a * S512x1024.size a + S512x1024.size a := by
  show i ∈ ((View.whole main_v11).slice (win3_2.rect t)).set ↔ _
  rw [View.set_slice_whole, Rect.mem_set_unit]
  exact Iff.rfl

/-- Every entry of the output array is written by some grid point: row `r` by point `r / 512`. -/
theorem cover3 (i : S4096x1024.Idx) :
    ∃ t : Fin cfg3.N, (cfg3.win 2).flush t = true ∧ i ∈ ((cfg3.win 2).blk t).view.set := by
  have hi0 : (i 0).val < 4096 := (i 0).isLt
  have hi1 : (i 1).val < 1024 := (i 1).isLt
  have hN : cfg3.N = 8 := N_3
  obtain ⟨t, ht⟩ : ∃ t : Fin cfg3.N, t.val = (i 0).val / 512 := ⟨⟨(i 0).val / 512, by rw [hN]; omega⟩, rfl⟩
  obtain ⟨-, -, -, -, e20, e21⟩ := idx_facts3 t
  refine ⟨t, flush3_2 t, ?_⟩
  rw [mem_blk3]
  intro a
  match a with
  | ⟨0, _⟩ =>
    show win3_2.index t (0 : Fin 2) * 512 ≤ (i 0).val ∧ (i 0).val < win3_2.index t (0 : Fin 2) * 512 + 512
    omega
  | ⟨1, _⟩ =>
    show win3_2.index t (1 : Fin 2) * 1024 ≤ (i 1).val ∧ (i 1).val < win3_2.index t (1 : Fin 2) * 1024 + 1024
    omega

/-- After the whole grid the output array is the product of the two arrays the call found. -/
theorem arrAt3 (c : Dev nD) :
    (dat3 (F := Ideal) V c).arrAt 2 cfg3.N
      = prod3 (V c main_v10) (V c main_v6) :=
  (dat3 V c).arrAt_eq_of_cover 2 (prod3 (V c main_v10) (V c main_v6)) (fun t _ => flushed3_eq V c t) cover3

end Cert.KernelIdeal.Hand

end
-- ==== Proof.KIValue2A.lean ====
import proofs.«105932_j25297357373492_2_alg».proof.Proof.Gen.KernelIdeal.Skeleton

/-!
# The attention body's arithmetic, head by head

The body treats the two heads of its lane pair alike: each head's 64 lanes are cut out of the query, key and value
blocks, its 256 × 2048 table out of the bias block, and the same chain of operations runs on the four pieces.
`headCore` is that chain on already cut pieces; the body's stored value is the two heads' results side by side.
-/

noncomputable section

namespace Cert.KernelIdeal.Hand

open Cert.KernelIdeal Cert.KernelIdeal.Gen
open Idealize.ShloMosaic Idealize.SL.Sem

variable {F : FTy → Type} [FloatOps F]

/-- One head's scores: the queries scaled by 1/8 and rounded to 16 bits, times the keys rounded to 16 bits, contracted
    over the 64 lanes, plus the head's bias table repeated over the batch. -/
def headScore (qs : FVec F S2x256x64 .f32) (ks : FVec F S2x2048x64 .f32) (bs : FVec F S1x256x2048 .f32) : FVec F S2x256x2048 .f32 :=
  addf
    (matmul dot_S2x256x64_S2x2048x64_S2x256x2048_2_2_1_1_0_0 none
      (truncf .bf16 (mulf qs (broadcast S2x256x64 (Scalar.ofBits .f32 0x3E000000#32))) bitsLt_bf16_f32)
      (truncf .bf16 ks bitsLt_bf16_f32) (constant S2x256x2048 .f32 0x00000000#32))
    (broadcastTo S2x256x2048
      (shapeCast S1x256x2048 (shapeCast S256x2048 bs shapeCasts_S1x256x2048_S256x2048) shapeCasts_S256x2048_S1x256x2048)
      broadcasts_S1x256x2048_S2x256x2048)

/-- The exponentials of the scores less their row maxima (over the 2048 keys). -/
def headExp (s : FVec F S2x256x2048 .f32) : FVec F S2x256x2048 .f32 :=
  exp (subf s
    (broadcastTo S2x256x2048
      (shapeCast S2x256x1 (multiReduction .maximumf [2] S2x256 s 0xFF800000#32 reduces_S2x256x2048_S2x256 (.inl rfl) rfl)
        shapeCasts_S2x256_S2x256x1)
      broadcasts_S2x256x1_S2x256x2048))

/-- Each row divided by its sum. -/
def headWeights (p : FVec F S2x256x2048 .f32) : FVec F S2x256x2048 .f32 :=
  divf p
    (broadcastTo S2x256x2048
      (shapeCast S2x256x1 (multiReduction .add [2] S2x256 p 0x00000000#32 reduces_S2x256x2048_S2x256 (.inl rfl) rfl)
        shapeCasts_S2x256_S2x256x1)
      broadcasts_S2x256x1_S2x256x2048)

/-- One head's attention result: the softmax weights rounded to 16 bits, times the values rounded to 16 bits,
    contracted over the 2048 keys. -/
def headCore (qs : FVec F S2x256x64 .f32) (ks vs : FVec F S2x2048x64 .f32) (bs : FVec F S1x256x2048 .f32) : FVec F S2x256x64 .f32 :=
  matmul dot_S2x256x2048_S2x2048x64_S2x256x64_2_1_1_2_0_0 none
    (truncf .bf16 (headWeights (headExp (headScore qs ks bs))) bitsLt_bf16_f32)
    (truncf .bf16 vs bitsLt_bf16_f32) (constant S2x256x64 .f32 0x00000000#32)

/-- The first head of the pair: lanes 0 … 63 and bias table 0. -/
theorem pay6_eq_headCore (v0 : Vec F S2x256x128 .f32) (v2 : Vec F S2x2048x128 .f32) (v4 : Vec F S2x2048x128 .f32) (v6 : Vec F S1x2x256x2048 .f32) :
    k2_pay6 v0 v2 v4 v6 = headCore
      (extractStridedSlice S2x256x64 ![0, 0, 0] (k2_pay2 v0) slices_S2x256x128_o0_0_0_S2x256x64)
      (extractStridedSlice S2x2048x64 ![0, 0, 0] (k2_pay3 v2) slices_S2x2048x128_o0_0_0_S2x2048x64)
      (extractStridedSlice S2x2048x64 ![0, 0, 0] (k2_pay4 v4) slices_S2x2048x128_o0_0_0_S2x2048x64)
      (extractStridedSlice S1x256x2048 ![0, 0, 0] (k2_pay5 v6) slices_S2x256x2048_o0_0_0_S1x256x2048) := rfl

/-- The stored value: the first head's result on lanes 0 … 63 and the second head's (lanes 64 … 127, bias table 1) on
    lanes 64 … 127. -/
theorem pay1_eq_headCore (v0 : Vec F S2x256x128 .f32) (v2 : Vec F S2x2048x128 .f32) (v4 : Vec F S2x2048x128 .f32) (v6 : Vec F S1x2x256x2048 .f32) :
    k2_pay1 (k2_pay4 v4) (k2_pay5 v6) (k2_pay6 v0 v2 v4 v6) (k2_pay7 v0) (k2_pay8 v2)
      = concatenate S2x256x128 2
          [⟨S2x256x64, k2_pay6 v0 v2 v4 v6⟩,
           ⟨S2x256x64, headCore
              (extractStridedSlice S2x256x64 ![0, 0, 64] (k2_pay2 v0) slices_S2x256x128_o0_0_64_S2x256x64)
              (extractStridedSlice S2x2048x64 ![0, 0, 64] (k2_pay3 v2) slices_S2x2048x128_o0_0_64_S2x2048x64)
              (extractStridedSlice S2x2048x64 ![0, 0, 64] (k2_pay4 v4) slices_S2x2048x128_o0_0_64_S2x2048x64)
              (extractStridedSlice S1x256x2048 ![1, 0, 0] (k2_pay5 v6) slices_S2x256x2048_o1_0_0_S1x256x2048)⟩]
          concatenates_S2x256x64_S2x256x64_S2x256x128_d2 := rfl

end Cert.KernelIdeal.Hand

end
-- ==== Proof.KIValue2B.lean ====
import proofs.«105932_j25297357373492_2_alg».proof.Proof.Gen.KernelIdeal.Skeleton
import Idealize.ShloMosaic.Lib.Pipeline.Value
import Idealize.ShloMosaic.Lib.ValueIdx
import Idealize.ShloMosaic.PureOps.Ideal.Laws

/-!
# The attention body's non-pointwise operations, read at coordinates

Over the extended reals: the two batched contractions (scores: over the 64 lanes of a head; result: over the 2048 keys)
as plain sums, the row maximum and the row sum over the 2048 keys, the bias table repeated over the batch and a
per-row number repeated along its row.
-/

noncomputable section

namespace Cert.KernelIdeal.Hand

open Cert.KernelIdeal Cert.KernelIdeal.Gen
open Idealize.ShloMosaic Idealize.SL.Sem Idealize.ShloMosaic.ValueIdx
open scoped BigOperators

/-! ## Where the two contractions read their operands -/

theorem scoreL0 (i : S2x256x2048.Idx) (q : dot_S2x256x64_S2x2048x64_S2x256x2048_2_2_1_1_0_0.contr.Idx) :
    (dot_S2x256x64_S2x2048x64_S2x256x2048_2_2_1_1_0_0.lhsIdx i q 0).val = (i 0).val := by
  unfold DotDims.lhsIdx
  rw [dif_pos (show (0 : Fin S2x256x64.rank) ∈ dot_S2x256x64_S2x2048x64_S2x256x2048_2_2_1_1_0_0.lhsBatch by decide)]
  rfl
theorem scoreL1 (i : S2x256x2048.Idx) (q : dot_S2x256x64_S2x2048x64_S2x256x2048_2_2_1_1_0_0.contr.Idx) :
    (dot_S2x256x64_S2x2048x64_S2x256x2048_2_2_1_1_0_0.lhsIdx i q 1).val = (i 1).val := by
  unfold DotDims.lhsIdx
  rw [dif_neg (show ¬(1 : Fin S2x256x64.rank) ∈ dot_S2x256x64_S2x2048x64_S2x256x2048_2_2_1_1_0_0.lhsBatch by decide), dif_pos (show (1 : Fin S2x256x64.rank) ∈ dot_S2x256x64_S2x2048x64_S2x256x2048_2_2_1_1_0_0.lhsNonContracting by decide)]
  rfl
theorem scoreL2 (i : S2x256x2048.Idx) (q : dot_S2x256x64_S2x2048x64_S2x256x2048_2_2_1_1_0_0.contr.Idx) :
    (dot_S2x256x64_S2x2048x64_S2x256x2048_2_2_1_1_0_0.lhsIdx i q 2).val = (q ⟨0, by decide⟩).val :=
  dot_S2x256x64_S2x2048x64_S2x256x2048_2_2_1_1_0_0.lhsIdx_val_of_single rfl i q
theorem scoreR0 (i : S2x256x2048.Idx) (q : dot_S2x256x64_S2x2048x64_S2x256x2048_2_2_1_1_0_0.contr.Idx) :
    (dot_S2x256x64_S2x2048x64_S2x256x2048_2_2_1_1_0_0.rhsIdx i q 0).val = (i 0).val := by
  unfold DotDims.rhsIdx
  rw [dif_pos (show (0 : Fin S2x2048x64.rank) ∈ dot_S2x256x64_S2x2048x64_S2x256x2048_2_2_1_1_0_0.rhsBatch by decide)]
  rfl
theorem scoreR1 (i : S2x256x2048.Idx) (q : dot_S2x256x64_S2x2048x64_S2x256x2048_2_2_1_1_0_0.contr.Idx) :
    (dot_S2x256x64_S2x2048x64_S2x256x2048_2_2_1_1_0_0.rhsIdx i q 1).val = (i 2).val := by
  unfold DotDims.rhsIdx
  rw [dif_neg (show ¬(1 : Fin S2x2048x64.rank) ∈ dot_S2x256x64_S2x2048x64_S2x256x2048_2_2_1_1_0_0.rhsBatch by decide), dif_pos (show (1 : Fin S2x2048x64.rank) ∈ dot_S2x256x64_S2x2048x64_S2x256x2048_2_2_1_1_0_0.rhsNonContracting by decide)]
  rfl
theorem scoreR2 (i : S2x256x2048.Idx) (q : dot_S2x256x64_S2x2048x64_S2x256x2048_2_2_1_1_0_0.contr.Idx) :
    (dot_S2x256x64_S2x2048x64_S2x256x2048_2_2_1_1_0_0.rhsIdx i q 2).val = (q ⟨0, by decide⟩).val :=
  dot_S2x256x64_S2x2048x64_S2x256x2048_2_2_1_1_0_0.rhsIdx_val_of_single rfl i q

theorem mixL0 (i : S2x256x64.Idx) (q : dot_S2x256x2048_S2x2048x64_S2x256x64_2_1_1_2_0_0.contr.Idx) :
    (dot_S2x256x2048_S2x2048x64_S2x256x64_2_1_1_2_0_0.lhsIdx i q 0).val = (i 0).val := by
  unfold DotDims.lhsIdx
  rw [dif_pos (show (0 : Fin S2x256x2048.rank) ∈ dot_S2x256x2048_S2x2048x64_S2x256x64_2_1_1_2_0_0.lhsBatch by decide)]
  rfl
theorem mixL1 (i : S2x256x64.Idx) (q : dot_S2x256x2048_S2x2048x64_S2x256x64_2_1_1_2_0_0.contr.Idx) :
    (dot_S2x256x2048_S2x2048x64_S2x256x64_2_1_1_2_0_0.lhsIdx i q 1).val = (i 1).val := by
  unfold DotDims.lhsIdx
  rw [dif_neg (show ¬(1 : Fin S2x256x2048.rank) ∈ dot_S2x256x2048_S2x2048x64_S2x256x64_2_1_1_2_0_0.lhsBatch by decide), dif_pos (show (1 : Fin S2x256x2048.rank) ∈ dot_S2x256x2048_S2x2048x64_S2x256x64_2_1_1_2_0_0.lhsNonContracting by decide)]
  rfl
theorem mixL2 (i : S2x256x64.Idx) (q : dot_S2x256x2048_S2x2048x64_S2x256x64_2_1_1_2_0_0.contr.Idx) :
    (dot_S2x256x2048_S2x2048x64_S2x256x64_2_1_1_2_0_0.lhsIdx i q 2).val = (q ⟨0, by decide⟩).val :=
  dot_S2x256x2048_S2x2048x64_S2x256x64_2_1_1_2_0_0.lhsIdx_val_of_single rfl i q
theorem mixR0 (i : S2x256x64.Idx) (q : dot_S2x256x2048_S2x2048x64_S2x256x64_2_1_1_2_0_0.contr.Idx) :
    (dot_S2x256x2048_S2x2048x64_S2x256x64_2_1_1_2_0_0.rhsIdx i q 0).val = (i 0).val := by
  unfold DotDims.rhsIdx
  rw [dif_pos (show (0 : Fin S2x2048x64.rank) ∈ dot_S2x256x2048_S2x2048x64_S2x256x64_2_1_1_2_0_0.rhsBatch by decide)]
  rfl
theorem mixR1 (i : S2x256x64.Idx) (q : dot_S2x256x2048_S2x2048x64_S2x256x64_2_1_1_2_0_0.contr.Idx) :
    (dot_S2x256x2048_S2x2048x64_S2x256x64_2_1_1_2_0_0.rhsIdx i q 1).val = (q ⟨0, by decide⟩).val :=
  dot_S2x256x2048_S2x2048x64_S2x256x64_2_1_1_2_0_0.rhsIdx_val_of_single rfl i q
theorem mixR2 (i : S2x256x64.Idx) (q : dot_S2x256x2048_S2x2048x64_S2x256x64_2_1_1_2_0_0.contr.Idx) :
    (dot_S2x256x2048_S2x2048x64_S2x256x64_2_1_1_2_0_0.rhsIdx i q 2).val = (i 2).val := by
  unfold DotDims.rhsIdx
  rw [dif_neg (show ¬(2 : Fin S2x2048x64.rank) ∈ dot_S2x256x2048_S2x2048x64_S2x256x64_2_1_1_2_0_0.rhsBatch by decide), dif_pos (show (2 : Fin S2x2048x64.rank) ∈ dot_S2x256x2048_S2x2048x64_S2x256x64_2_1_1_2_0_0.rhsNonContracting by decide)]
  rfl

/-! ## The contractions as sums -/

/-- The score contraction at batch entry `b`, query row `r`, key `j`: the sum over the head's 64 lanes. -/
theorem scoreDot_apply {φ₁ φ₂ : FTy} (L : FVec Ideal S2x256x64 φ₁) (R : FVec Ideal S2x2048x64 φ₂) (b : Fin 2) (r : Fin 256) (j : Fin 2048) :
    matmul dot_S2x256x64_S2x2048x64_S2x256x2048_2_2_1_1_0_0 none L R (constant S2x256x2048 .f32 0x00000000#32) (ix3 b r j)
      = ∑ d : Fin 64, L (ix3 b r d) * R (ix3 b j d) := by
  refine (Ideal.matmul_constant_zero_apply dot_S2x256x64_S2x2048x64_S2x256x2048_2_2_1_1_0_0 none L R (ix3 b r j)).trans ?_
  rw [← Equiv.sum_comp (contrEquiv1 dot_S2x256x64_S2x2048x64_S2x256x2048_2_2_1_1_0_0 64 rfl rfl).symm]
  refine Finset.sum_congr rfl fun k _ => ?_
  have hk := contrEquiv1_symm_val dot_S2x256x64_S2x2048x64_S2x256x2048_2_2_1_1_0_0 64 rfl rfl k
  have el : dot_S2x256x64_S2x2048x64_S2x256x2048_2_2_1_1_0_0.lhsIdx (ix3 b r j) ((contrEquiv1 dot_S2x256x64_S2x2048x64_S2x256x2048_2_2_1_1_0_0 64 rfl rfl).symm k) = ix3 b r k := funext fun a => Fin.ext (by
    match a with
    | ⟨0, _⟩ => exact scoreL0 _ _
    | ⟨1, _⟩ => exact scoreL1 _ _
    | ⟨2, _⟩ => exact (scoreL2 _ _).trans hk)
  have er : dot_S2x256x64_S2x2048x64_S2x256x2048_2_2_1_1_0_0.rhsIdx (ix3 b r j) ((contrEquiv1 dot_S2x256x64_S2x2048x64_S2x256x2048_2_2_1_1_0_0 64 rfl rfl).symm k) = ix3 b j k := funext fun a => Fin.ext (by
    match a with
    | ⟨0, _⟩ => exact scoreR0 _ _
    | ⟨1, _⟩ => exact scoreR1 _ _
    | ⟨2, _⟩ => exact (scoreR2 _ _).trans hk)
  rw [el, er]

/-- The result contraction at batch entry `b`, query row `r`, lane `d`: the sum over the 2048 keys. -/
theorem mixDot_apply {φ₁ φ₂ : FTy} (L : FVec Ideal S2x256x2048 φ₁) (R : FVec Ideal S2x2048x64 φ₂) (b : Fin 2) (r : Fin 256) (d : Fin 64) :
    matmul dot_S2x256x2048_S2x2048x64_S2x256x64_2_1_1_2_0_0 none L R (constant S2x256x64 .f32 0x00000000#32) (ix3 b r d)
      = ∑ j : Fin 2048, L (ix3 b r j) * R (ix3 b j d) := by
  refine (Ideal.matmul_constant_zero_apply dot_S2x256x2048_S2x2048x64_S2x256x64_2_1_1_2_0_0 none L R (ix3 b r d)).trans ?_
  rw [← Equiv.sum_comp (contrEquiv1 dot_S2x256x2048_S2x2048x64_S2x256x64_2_1_1_2_0_0 2048 rfl rfl).symm]
  refine Finset.sum_congr rfl fun k _ => ?_
  have hk := contrEquiv1_symm_val dot_S2x256x2048_S2x2048x64_S2x256x64_2_1_1_2_0_0 2048 rfl rfl k
  have el : dot_S2x256x2048_S2x2048x64_S2x256x64_2_1_1_2_0_0.lhsIdx (ix3 b r d) ((contrEquiv1 dot_S2x256x2048_S2x2048x64_S2x256x64_2_1_1_2_0_0 2048 rfl rfl).symm k) = ix3 b r k := funext fun a => Fin.ext (by
    match a with
    | ⟨0, _⟩ => exact mixL0 _ _
    | ⟨1, _⟩ => exact mixL1 _ _
    | ⟨2, _⟩ => exact (mixL2 _ _).trans hk)
  have er : dot_S2x256x2048_S2x2048x64_S2x256x64_2_1_1_2_0_0.rhsIdx (ix3 b r d) ((contrEquiv1 dot_S2x256x2048_S2x2048x64_S2x256x64_2_1_1_2_0_0 2048 rfl rfl).symm k) = ix3 b k d := funext fun a => Fin.ext (by
    match a with
    | ⟨0, _⟩ => exact mixR0 _ _
    | ⟨1, _⟩ => exact (mixR1 _ _).trans hk
    | ⟨2, _⟩ => exact mixR2 _ _)
  rw [el, er]

/-! ## The reductions over the keys -/

/-- The row maximum: `max` folded over the 2048 keys from the float word of −∞. -/
theorem rowMaxRed_apply (s : FVec Ideal S2x256x2048 .f32) (hφ : FKind.Formats .f32)
    (hacc : (0xFF800000#32 : BitVec 32) = FKind.maximumf.neutral .f32 hφ) (b : Fin 2) (r : Fin 256) :
    multiReduction .maximumf [2] S2x256 s 0xFF800000#32 reduces_S2x256x2048_S2x256 hφ hacc (ix2 b r)
      = (Finset.univ : Finset (Fin 2048)).fold max (Ideal.ofBits .f32 0xFF800000#32) (fun j => s (ix3 b r j)) := by
  refine (Ideal.multiReduction_maximumf_single s 0xFF800000#32 reduces_S2x256x2048_S2x256 hφ hacc (ix2 b r)).trans ?_
  refine Finset.fold_congr fun k _ => ?_
  exact congrArg s (funext fun a => Fin.ext (by match a with | ⟨0, _⟩ => rfl | ⟨1, _⟩ => rfl | ⟨2, _⟩ => rfl))

/-- The row sum over the 2048 keys. -/
theorem rowSumRed_apply (p : FVec Ideal S2x256x2048 .f32) (hφ : FKind.Formats .f32)
    (hacc : (0x00000000#32 : BitVec 32) = FKind.add.neutral .f32 hφ) (b : Fin 2) (r : Fin 256) :
    multiReduction .add [2] S2x256 p 0x00000000#32 reduces_S2x256x2048_S2x256 hφ hacc (ix2 b r)
      = ∑ j : Fin 2048, p (ix3 b r j) := by
  refine (Ideal.multiReduction_add_single p 0x00000000#32 reduces_S2x256x2048_S2x256 hφ hacc (ix2 b r)).trans ?_
  refine Finset.sum_congr rfl fun k _ => ?_
  exact congrArg p (funext fun a => Fin.ext (by match a with | ⟨0, _⟩ => rfl | ⟨1, _⟩ => rfl | ⟨2, _⟩ => rfl))

/-! ## The two repetitions -/

/-- The head's bias table, passed through two reshapes that undo each other and repeated over the batch. -/
theorem biasRep_apply {α : Type} (bs : S1x256x2048.Idx → α) (b : Fin 2) (r : Fin 256) (j : Fin 2048) :
    broadcastTo S2x256x2048
        (shapeCast S1x256x2048 (shapeCast S256x2048 bs shapeCasts_S1x256x2048_S256x2048) shapeCasts_S256x2048_S1x256x2048)
        broadcasts_S1x256x2048_S2x256x2048 (ix3 b r j)
      = bs (ix3 (0 : Fin 1) r j) := by
  rw [shapeCast_shapeCast]
  exact broadcastTo_apply bs broadcasts_S1x256x2048_S2x256x2048 (ix3 b r j) (ix3 (0 : Fin 1) r j) (fun a => match a with
    | ⟨0, _⟩ => by show 0 = if (1 : Nat) = 1 then 0 else b.val; rw [if_pos rfl]
    | ⟨1, _⟩ => by show r.val = if (256 : Nat) = 1 then 0 else r.val; rw [if_neg (by decide)]
    | ⟨2, _⟩ => by show j.val = if (2048 : Nat) = 1 then 0 else j.val; rw [if_neg (by decide)])

/-- A number per (batch entry, row), repeated along the row's 2048 keys. -/
theorem rowRep_apply {α : Type} (m : S2x256.Idx → α) (b : Fin 2) (r : Fin 256) (j : Fin 2048) :
    broadcastTo S2x256x2048 (shapeCast S2x256x1 m shapeCasts_S2x256_S2x256x1) broadcasts_S2x256x1_S2x256x2048 (ix3 b r j)
      = m (ix2 b r) := by
  refine (broadcastTo_apply _ broadcasts_S2x256x1_S2x256x2048 (ix3 b r j) (ix3 b r (0 : Fin 1)) (fun a => match a with
    | ⟨0, _⟩ => by show b.val = if (2 : Nat) = 1 then 0 else b.val; rw [if_neg (by decide)]
    | ⟨1, _⟩ => by show r.val = if (256 : Nat) = 1 then 0 else r.val; rw [if_neg (by decide)]
    | ⟨2, _⟩ => by show 0 = if (1 : Nat) = 1 then 0 else j.val; rw [if_pos rfl])).trans ?_
  exact shapeCast_apply m shapeCasts_S2x256_S2x256x1 (ix3 b r (0 : Fin 1)) (ix2 b r) (by
    rw [Shape.rowMajor_val_two, Shape.rowMajor_val_three]
    show b.val * 256 + r.val = (b.val * 256 + r.val) * 1 + 0
    omega)

end Cert.KernelIdeal.Hand

end
-- ==== Proof.SpecATT.lean ====
import Idealize.ShloMosaic.PureOps.Ideal
import Idealize.ShloMosaic.Lib.ValueIdx

/-!
# Multi-head attention with an additive bias, index by index

The fused projection holds, per batch entry `b` and sequence position `i`, 1024 lanes: 16 heads of width 64, head `h`
on lanes `64 h … 64 h + 63`.  For one head and one query row the attention is a function of the query row (64 numbers),
the key and value matrices of the head (2048 × 64 each) and the bias row (2048 numbers):

* score `s j = (Σ_d (Q d · 1/8) · K j d) + B j`;
* `m = max_j s j` (a fold of `max` from −∞, kept as the float word of −∞);
* `p j = exp (s j − m)`, `w j = p j / Σ_j' p j'`;
* result `o d = Σ_j w j · V j d`.

`ATT` puts the heads' results back on the 1024 lanes.  All arithmetic is the extended reals'.
-/

noncomputable section

open scoped BigOperators

namespace Cert.Spec

open Idealize.ShloMosaic Idealize.ShloMosaic.ValueIdx

/-! ## One query row of one head -/

/-- The scores of a query row `Q` against the keys `K`, plus the bias row `B`: the query is scaled by 1/8 first. -/
def rowScore (Q : Fin 64 → EReal) (K : Fin 2048 → Fin 64 → EReal) (B : Fin 2048 → EReal) (j : Fin 2048) : EReal :=
  (∑ d : Fin 64, (Q d * Ideal.ofBits .f32 0x3E000000#32) * K j d) + B j

/-- The largest score of the row: `max` folded over the 2048 keys from −∞. -/
def rowMax (s : Fin 2048 → EReal) : EReal :=
  (Finset.univ : Finset (Fin 2048)).fold max (Ideal.ofBits .f32 0xFF800000#32) s

/-- The exponentials of the scores, shifted by the row's maximum. -/
def rowExp (s : Fin 2048 → EReal) (j : Fin 2048) : EReal := Ideal.exp (s j - rowMax s)

/-- Their sum. -/
def rowSum (s : Fin 2048 → EReal) : EReal := ∑ j : Fin 2048, rowExp s j

/-- The softmax weights of the row. -/
def rowSoftmax (s : Fin 2048 → EReal) (j : Fin 2048) : EReal := Ideal.div (rowExp s j) (rowSum s)

/-- The attention result of the row: the values averaged with the softmax weights. -/
def attnRow (Q : Fin 64 → EReal) (K V : Fin 2048 → Fin 64 → EReal) (B : Fin 2048 → EReal) (d : Fin 64) : EReal :=
  ∑ j : Fin 2048, rowSoftmax (rowScore Q K B) j * V j d

/-! ## The heads on the lanes -/

/-- A [2, 2048, 1024] array: batch entry, sequence position, lane. -/
abbrev Lanes := (⟨3, ![2, 2048, 1024]⟩ : Shape).Idx → EReal
/-- The [1, 16, 2048, 2048] bias: head, query position, key position. -/
abbrev Bias := (⟨4, ![1, 16, 2048, 2048]⟩ : Shape).Idx → EReal

/-- Component `d` of head `h` sits on lane `64 h + d`. -/
def lane (h : Fin 16) (d : Fin 64) : Fin 1024 := ⟨64 * h.val + d.val, by omega⟩
/-- The head a lane belongs to, -/
def headOf (e : Fin 1024) : Fin 16 := ⟨e.val / 64, by omega⟩
/-- and the component it holds. -/
def compOf (e : Fin 1024) : Fin 64 := ⟨e.val % 64, by omega⟩

theorem headOf_lane (h : Fin 16) (d : Fin 64) : headOf (lane h d) = h :=
  Fin.ext (by show (64 * h.val + d.val) / 64 = h.val; omega)
theorem compOf_lane (h : Fin 16) (d : Fin 64) : compOf (lane h d) = d :=
  Fin.ext (by show (64 * h.val + d.val) % 64 = d.val; omega)
theorem lane_headOf_compOf (e : Fin 1024) : lane (headOf e) (compOf e) = e :=
  Fin.ext (by show 64 * (e.val / 64) + e.val % 64 = e.val; omega)

/-- Head `h`'s row at batch entry `b`, position `i` of a lanes array. -/
def headRow (x : Lanes) (b : Fin 2) (h : Fin 16) (i : Fin 2048) : Fin 64 → EReal := fun d => x (ix3 b i (lane h d))
/-- Head `h`'s 2048 × 64 matrix at batch entry `b`. -/
def headMat (x : Lanes) (b : Fin 2) (h : Fin 16) : Fin 2048 → Fin 64 → EReal := fun j d => x (ix3 b j (lane h d))
/-- Head `h`'s bias row at query position `i`. -/
def biasRow (bias : Bias) (h : Fin 16) (i : Fin 2048) : Fin 2048 → EReal := fun j => bias (ix4 (0 : Fin 1) h i j)

/-- The attention result at batch entry `b`, head `h`, query position `i`, component `d`. -/
def attnAt (q k v : Lanes) (bias : Bias) (b : Fin 2) (h : Fin 16) (i : Fin 2048) (d : Fin 64) : EReal :=
  attnRow (headRow q b h i) (headMat k b h) (headMat v b h) (biasRow bias h i) d

/-- Multi-head attention of queries `q`, keys `k`, values `v` with additive bias, on the lanes layout. -/
def ATT (q k v : Lanes) (bias : Bias) : Lanes :=
  fun x => attnAt q k v bias (x 0) (headOf (x 2)) (x 1) (compOf (x 2))

theorem ATT_apply (q k v : Lanes) (bias : Bias) (b : Fin 2) (i : Fin 2048) (h : Fin 16) (d : Fin 64) :
    ATT q k v bias (ix3 b i (lane h d)) = attnAt q k v bias b h i d := by
  show attnAt q k v bias b (headOf (lane h d)) i (compOf (lane h d)) = _
  rw [headOf_lane, compOf_lane]

end Cert.Spec

end
-- ==== Proof.KIValue2C.lean ====
import proofs.«105932_j25297357373492_2_alg».proof.Proof.KIValue2A
import proofs.«105932_j25297357373492_2_alg».proof.Proof.KIValue2B
import proofs.«105932_j25297357373492_2_alg».proof.Proof.SpecATT

/-!
# One head of the attention body is the row-wise attention of the specification

Over the extended reals, where rounding to 16 bits is the identity: at batch entry `b`, query row `r` and lane `d`
the head's chain of operations is `Spec.attnRow` of the query row, the key and value matrices of batch entry `b`
and the bias row `r`.
-/

noncomputable section

namespace Cert.KernelIdeal.Hand

open Cert.KernelIdeal Cert.KernelIdeal.Gen
open Idealize.ShloMosaic Idealize.SL.Sem Idealize.ShloMosaic.ValueIdx
open scoped BigOperators

/-- The head's score at (b, r, j). -/
theorem headScore_apply (qs : FVec Ideal S2x256x64 .f32) (ks : FVec Ideal S2x2048x64 .f32) (bs : FVec Ideal S1x256x2048 .f32)
    (b : Fin 2) (r : Fin 256) (j : Fin 2048) :
    headScore qs ks bs (ix3 b r j)
      = Cert.Spec.rowScore (fun d => qs (ix3 b r d)) (fun j d => ks (ix3 b j d)) (fun j => bs (ix3 (0 : Fin 1) r j)) j := by
  unfold headScore Cert.Spec.rowScore
  exact congrArg₂ (· + ·) (scoreDot_apply _ _ b r j) (biasRep_apply bs b r j)

/-- The shifted exponential at (b, r, j), in terms of the row of scores. -/
theorem headExp_apply (s : FVec Ideal S2x256x2048 .f32) (b : Fin 2) (r : Fin 256) (j : Fin 2048) :
    headExp s (ix3 b r j) = Cert.Spec.rowExp (fun j => s (ix3 b r j)) j := by
  unfold headExp Cert.Spec.rowExp Cert.Spec.rowMax
  exact congrArg (fun m => Ideal.exp (s (ix3 b r j) - m)) ((rowRep_apply _ b r j).trans (rowMaxRed_apply s _ _ b r))

/-- The normalised weight at (b, r, j). -/
theorem headWeights_apply (p : FVec Ideal S2x256x2048 .f32) (b : Fin 2) (r : Fin 256) (j : Fin 2048) :
    headWeights p (ix3 b r j) = Ideal.div (p (ix3 b r j)) (∑ j' : Fin 2048, p (ix3 b r j')) := by
  unfold headWeights
  exact congrArg (fun l => Ideal.div (p (ix3 b r j)) l) ((rowRep_apply _ b r j).trans (rowSumRed_apply p _ _ b r))

/-- The head's result at (b, r, d) is the specification's row-wise attention. -/
theorem headCore_apply (qs : FVec Ideal S2x256x64 .f32) (ks vs : FVec Ideal S2x2048x64 .f32) (bs : FVec Ideal S1x256x2048 .f32)
    (b : Fin 2) (r : Fin 256) (d : Fin 64) :
    headCore qs ks vs bs (ix3 b r d)
      = Cert.Spec.attnRow (fun d' => qs (ix3 b r d')) (fun j d' => ks (ix3 b j d')) (fun j d' => vs (ix3 b j d'))
          (fun j => bs (ix3 (0 : Fin 1) r j)) d := by
  have hS : (fun j : Fin 2048 => headScore qs ks bs (ix3 b r j))
      = Cert.Spec.rowScore (fun d' => qs (ix3 b r d')) (fun j d' => ks (ix3 b j d')) (fun j => bs (ix3 (0 : Fin 1) r j)) :=
    funext fun j => headScore_apply qs ks bs b r j
  have hE : ∀ j : Fin 2048, headExp (headScore qs ks bs) (ix3 b r j)
      = Cert.Spec.rowExp (Cert.Spec.rowScore (fun d' => qs (ix3 b r d')) (fun j d' => ks (ix3 b j d')) (fun j => bs (ix3 (0 : Fin 1) r j))) j :=
    fun j => (headExp_apply _ b r j).trans (congrArg (fun s => Cert.Spec.rowExp s j) hS)
  unfold headCore Cert.Spec.attnRow
  refine (mixDot_apply _ _ b r d).trans (Finset.sum_congr rfl fun j _ => ?_)
  refine congrArg (· * vs (ix3 b j d)) ?_
  refine (headWeights_apply _ b r j).trans ?_
  unfold Cert.Spec.rowSoftmax Cert.Spec.rowSum
  exact congrArg₂ Ideal.div (hE j) (Finset.sum_congr rfl fun j' _ => hE j')

end Cert.KernelIdeal.Hand

end
-- ==== Proof.KIValue2D.lean ====
import proofs.«105932_j25297357373492_2_alg».proof.Proof.KIBody2
import proofs.«105932_j25297357373492_2_alg».proof.Proof.KIValue2C

/-!
# The output block of the attention body, entry by entry

Lane `64 hh + d` of the 128 lanes of a block belongs to head `hh` of the pair.  At batch entry `b`, row `r` and that
lane the block the body leaves is the row-wise attention of head `hh`'s 64 lanes of the query row, of the key and
value blocks, and of row `r` of bias table `hh`.
-/

set_option maxRecDepth 16384

noncomputable section

namespace Cert.KernelIdeal.Hand

open Cert.KernelIdeal Cert.KernelIdeal.Gen
open Idealize.ShloMosaic Idealize.SL.Sem Idealize.ShloMosaic.ValueIdx
open scoped BigOperators

/-- Lane `64 hh + d` of a 128-lane block: component `d` of head `hh` of the pair. -/
def sub (hh : Fin 2) (d : Fin 64) : Fin 128 := ⟨64 * hh.val + d.val, by omega⟩

theorem sub_val (hh : Fin 2) (d : Fin 64) : (sub hh d).val = 64 * hh.val + d.val := rfl

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section AnyF
variable {F : FTy → Type} [FloatOps F]

/-- The block the body leaves is its stored value, a function of the four loaded blocks. -/
theorem out2_4_eq (x0 : Vec F S2x256x128 .f32) (x1 : Vec F S2x2048x128 .f32) (x2 : Vec F S2x2048x128 .f32) (x3 : Vec F S1x2x256x2048 .f32) :
    out2_4 x0 x1 x2 x3 = k2_pay1 (k2_pay4 x2) (k2_pay5 x3) (k2_pay6 x0 x1 x2 x3) (k2_pay7 x0) (k2_pay8 x1) := by
  unfold out2_4
  rw [View.canon_unit_zero hz3]
  simp only [View.ld_unit_zero (S := S2x256x128) hz3, View.ld_unit_zero (S := S2x2048x128) hz3, View.ld_unit_zero (S := S1x2x256x2048) hz4]

end AnyF

/-! ## The pieces cut out of the loaded blocks -/

section Cuts
variable {α : Type}

theorem pay2_eq (x : S2x256x128.Idx → α) : shapeCast S2x256x128 x shapeCasts_S2x256x128_S2x256x128 = x := shapeCast_self x _
theorem pay3_eq (x : S2x2048x128.Idx → α) : shapeCast S2x2048x128 x shapeCasts_S2x2048x128_S2x2048x128 = x := shapeCast_self x _

/-- Head 0's lanes of a 256-row block. -/
theorem cutQ0_apply (x : S2x256x128.Idx → α) (b : Fin 2) (r : Fin 256) (d : Fin 64) :
    extractStridedSlice S2x256x64 ![0, 0, 0] x slices_S2x256x128_o0_0_0_S2x256x64 (ix3 b r d) = x (ix3 b r (sub 0 d)) :=
  extractStridedSlice_apply _ x _ (ix3 b r d) (ix3 b r (sub 0 d)) (fun a => match a with
    | ⟨0, _⟩ => by show b.val = 0 + b.val; omega
    | ⟨1, _⟩ => by show r.val = 0 + r.val; omega
    | ⟨2, _⟩ => by show 64 * 0 + d.val = 0 + d.val; omega)
/-- Head 1's lanes of a 256-row block. -/
theorem cutQ1_apply (x : S2x256x128.Idx → α) (b : Fin 2) (r : Fin 256) (d : Fin 64) :
    extractStridedSlice S2x256x64 ![0, 0, 64] x slices_S2x256x128_o0_0_64_S2x256x64 (ix3 b r d) = x (ix3 b r (sub 1 d)) :=
  extractStridedSlice_apply _ x _ (ix3 b r d) (ix3 b r (sub 1 d)) (fun a => match a with
    | ⟨0, _⟩ => by show b.val = 0 + b.val; omega
    | ⟨1, _⟩ => by show r.val = 0 + r.val; omega
    | ⟨2, _⟩ => by show 64 * 1 + d.val = 64 + d.val; omega)
/-- Head 0's lanes of a 2048-row block. -/
theorem cutK0_apply (x : S2x2048x128.Idx → α) (b : Fin 2) (j : Fin 2048) (d : Fin 64) :
    extractStridedSlice S2x2048x64 ![0, 0, 0] x slices_S2x2048x128_o0_0_0_S2x2048x64 (ix3 b j d) = x (ix3 b j (sub 0 d)) :=
  extractStridedSlice_apply _ x _ (ix3 b j d) (ix3 b j (sub 0 d)) (fun a => match a with
    | ⟨0, _⟩ => by show b.val = 0 + b.val; omega
    | ⟨1, _⟩ => by show j.val = 0 + j.val; omega
    | ⟨2, _⟩ => by show 64 * 0 + d.val = 0 + d.val; omega)
/-- Head 1's lanes of a 2048-row block. -/
theorem cutK1_apply (x : S2x2048x128.Idx → α) (b : Fin 2) (j : Fin 2048) (d : Fin 64) :
    extractStridedSlice S2x2048x64 ![0, 0, 64] x slices_S2x2048x128_o0_0_64_S2x2048x64 (ix3 b j d) = x (ix3 b j (sub 1 d)) :=
  extractStridedSlice_apply _ x _ (ix3 b j d) (ix3 b j (sub 1 d)) (fun a => match a with
    | ⟨0, _⟩ => by show b.val = 0 + b.val; omega
    | ⟨1, _⟩ => by show j.val = 0 + j.val; omega
    | ⟨2, _⟩ => by show 64 * 1 + d.val = 64 + d.val; omega)

/-- The bias block with its leading unit axis dropped. -/
theorem bias3_apply (x : S1x2x256x2048.Idx → α) (hh : Fin 2) (r : Fin 256) (j : Fin 2048) :
    shapeCast S2x256x2048 x shapeCasts_S1x2x256x2048_S2x256x2048 (ix3 hh r j) = x (ix4 (0 : Fin 1) hh r j) :=
  shapeCast_apply x _ (ix3 hh r j) (ix4 (0 : Fin 1) hh r j) (by
    rw [Shape.rowMajor_val_four, Shape.rowMajor_val_three]
    show ((0 * 2 + hh.val) * 256 + r.val) * 2048 + j.val = (hh.val * 256 + r.val) * 2048 + j.val
    omega)
/-- Bias table 0 of the pair. -/
theorem cutB0_apply (x : S2x256x2048.Idx → α) (r : Fin 256) (j : Fin 2048) :
    extractStridedSlice S1x256x2048 ![0, 0, 0] x slices_S2x256x2048_o0_0_0_S1x256x2048 (ix3 (0 : Fin 1) r j) = x (ix3 (0 : Fin 2) r j) :=
  extractStridedSlice_apply _ x _ (ix3 (0 : Fin 1) r j) (ix3 (0 : Fin 2) r j) (fun a => match a with
    | ⟨0, _⟩ => by show 0 = 0 + 0; omega
    | ⟨1, _⟩ => by show r.val = 0 + r.val; omega
    | ⟨2, _⟩ => by show j.val = 0 + j.val; omega)
/-- Bias table 1 of the pair. -/
theorem cutB1_apply (x : S2x256x2048.Idx → α) (r : Fin 256) (j : Fin 2048) :
    extractStridedSlice S1x256x2048 ![1, 0, 0] x slices_S2x256x2048_o1_0_0_S1x256x2048 (ix3 (0 : Fin 1) r j) = x (ix3 (1 : Fin 2) r j) :=
  extractStridedSlice_apply _ x _ (ix3 (0 : Fin 1) r j) (ix3 (1 : Fin 2) r j) (fun a => match a with
    | ⟨0, _⟩ => by show 1 = 1 + 0; omega
    | ⟨1, _⟩ => by show r.val = 0 + r.val; omega
    | ⟨2, _⟩ => by show j.val = 0 + j.val; omega)

end Cuts

/-- The row-wise attention of equal operands is equal. -/
theorem attnRow_congr {Q Q' : Fin 64 → EReal} {K K' V V' : Fin 2048 → Fin 64 → EReal} {B B' : Fin 2048 → EReal}
    (hQ : ∀ d, Q d = Q' d) (hK : ∀ j d, K j d = K' j d) (hV : ∀ j d, V j d = V' j d) (hB : ∀ j, B j = B' j) (d : Fin 64) :
    Cert.Spec.attnRow Q K V B d = Cert.Spec.attnRow Q' K' V' B' d := by
  obtain rfl : Q = Q' := funext hQ
  obtain rfl : K = K' := funext fun j => funext (hK j)
  obtain rfl : V = V' := funext fun j => funext (hV j)
  obtain rfl : B = B' := funext hB
  rfl

/-! ## The block at an entry -/

/-- Head 0's half of the block. -/
theorem out2_4_apply0 (x0 : Vec Ideal S2x256x128 .f32) (x1 : Vec Ideal S2x2048x128 .f32) (x2 : Vec Ideal S2x2048x128 .f32) (x3 : Vec Ideal S1x2x256x2048 .f32)
    (b : Fin 2) (r : Fin 256) (d : Fin 64) :
    out2_4 (F := Ideal) x0 x1 x2 x3 (ix3 b r (sub 0 d))
      = Cert.Spec.attnRow (fun d' => x0 (ix3 b r (sub 0 d'))) (fun j d' => x1 (ix3 b j (sub 0 d'))) (fun j d' => x2 (ix3 b j (sub 0 d')))
          (fun j => x3 (ix4 (0 : Fin 1) (0 : Fin 2) r j)) d := by
  rw [out2_4_eq, pay1_eq_headCore]
  refine (concatenate_pair_apply_left (t := S2x256x128) (s₁ := S2x256x64) (s₂ := S2x256x64) (2 : Fin 3) _ _ concatenates_S2x256x64_S2x256x64_S2x256x128_d2 (ix3 b r (sub 0 d)) rfl (ix3 b r d)
    (fun a => match a with
      | ⟨0, _⟩ => rfl
      | ⟨1, _⟩ => rfl
      | ⟨2, _⟩ => by show d.val = 64 * 0 + d.val; omega)).trans ?_
  rw [pay6_eq_headCore]
  refine (headCore_apply _ _ _ _ b r d).trans ?_
  refine attnRow_congr (fun d' => ?_) (fun j d' => ?_) (fun j d' => ?_) (fun j => ?_) d
  · exact (cutQ0_apply _ b r d').trans (congrFun (pay2_eq x0) _)
  · exact (cutK0_apply _ b j d').trans (congrFun (pay3_eq x1) _)
  · exact (cutK0_apply _ b j d').trans (congrFun (pay3_eq x2) _)
  · exact (cutB0_apply _ r j).trans (bias3_apply x3 0 r j)

/-- Head 1's half of the block. -/
theorem out2_4_apply1 (x0 : Vec Ideal S2x256x128 .f32) (x1 : Vec Ideal S2x2048x128 .f32) (x2 : Vec Ideal S2x2048x128 .f32) (x3 : Vec Ideal S1x2x256x2048 .f32)
    (b : Fin 2) (r : Fin 256) (d : Fin 64) :
    out2_4 (F := Ideal) x0 x1 x2 x3 (ix3 b r (sub 1 d))
      = Cert.Spec.attnRow (fun d' => x0 (ix3 b r (sub 1 d'))) (fun j d' => x1 (ix3 b j (sub 1 d'))) (fun j d' => x2 (ix3 b j (sub 1 d')))
          (fun j => x3 (ix4 (0 : Fin 1) (1 : Fin 2) r j)) d := by
  rw [out2_4_eq, pay1_eq_headCore]
  refine (concatenate_pair_apply_right (t := S2x256x128) (s₁ := S2x256x64) (s₂ := S2x256x64) (2 : Fin 3) _ _ concatenates_S2x256x64_S2x256x64_S2x256x128_d2 (ix3 b r (sub 1 d)) rfl rfl (ix3 b r d)
    (fun a => match a with
      | ⟨0, _⟩ => fun _ => rfl
      | ⟨1, _⟩ => fun _ => rfl
      | ⟨2, _⟩ => fun h => absurd rfl h)
    (by show d.val + 64 = 64 * 1 + d.val; omega)).trans ?_
  refine (headCore_apply _ _ _ _ b r d).trans ?_
  refine attnRow_congr (fun d' => ?_) (fun j d' => ?_) (fun j d' => ?_) (fun j => ?_) d
  · exact (cutQ1_apply _ b r d').trans (congrFun (pay2_eq x0) _)
  · exact (cutK1_apply _ b j d').trans (congrFun (pay3_eq x1) _)
  · exact (cutK1_apply _ b j d').trans (congrFun (pay3_eq x2) _)
  · exact (cutB1_apply _ r j).trans (bias3_apply x3 1 r j)

/-- Both halves at once. -/
theorem out2_4_apply (x0 : Vec Ideal S2x256x128 .f32) (x1 : Vec Ideal S2x2048x128 .f32) (x2 : Vec Ideal S2x2048x128 .f32) (x3 : Vec Ideal S1x2x256x2048 .f32)
    (b : Fin 2) (r : Fin 256) (hh : Fin 2) (d : Fin 64) :
    out2_4 (F := Ideal) x0 x1 x2 x3 (ix3 b r (sub hh d))
      = Cert.Spec.attnRow (fun d' => x0 (ix3 b r (sub hh d'))) (fun j d' => x1 (ix3 b j (sub hh d'))) (fun j d' => x2 (ix3 b j (sub hh d')))
          (fun j => x3 (ix4 (0 : Fin 1) hh r j)) d := by
  match hh with
  | ⟨0, _⟩ => exact out2_4_apply0 x0 x1 x2 x3 b r d
  | ⟨1, _⟩ => exact out2_4_apply1 x0 x1 x2 x3 b r d

end Cert.KernelIdeal.Hand

end
-- ==== Proof.KIValue2E.lean ====
import proofs.«105932_j25297357373492_2_alg».proof.Proof.KIValue2D
import Idealize.ShloMosaic.Lib.Pipeline.Value

/-!
# From the attention body's blocks to the whole output array

The grid is 8 lane pairs × 8 row tiles; point `t` is pair `t / 8`, tile `t % 8`.  Its query block is rows
`256 (t % 8) …`, lanes `128 (t / 8) …` of the fused projection; its key and value blocks are all 2048 rows of lanes
`1024 + 128 (t / 8) …` and `2048 + 128 (t / 8) …`; its bias block is tables `2 (t / 8)`, `2 (t / 8) + 1`, rows
`256 (t % 8) …`; its output block is rows `256 (t % 8) …`, lanes `128 (t / 8) …` of the output array.  The 64 output
blocks tile the array, and each is the matching block of the attention of the three lane ranges of the projection.
-/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-! ## Coordinates of a block's entries in the arrays -/

/-- Row `r` of row tile `qi`. -/
def rowOf (qi : Fin 8) (r : Fin 256) : Fin 2048 := ⟨256 * qi.val + r.val, by omega⟩
/-- Lane `l` of lane pair `hp`. -/
def laneOf (hp : Fin 8) (l : Fin 128) : Fin 1024 := ⟨128 * hp.val + l.val, by omega⟩
/-- Head `hh` of lane pair `hp`. -/
def headOfPair (hp : Fin 8) (hh : Fin 2) : Fin 16 := ⟨2 * hp.val + hh.val, by omega⟩

theorem laneOf_sub (hp : Fin 8) (hh : Fin 2) (d : Fin 64) : laneOf hp (sub hh d) = Cert.Spec.lane (headOfPair hp hh) d :=
  Fin.ext (by show 128 * hp.val + (64 * hh.val + d.val) = 64 * (2 * hp.val + hh.val) + d.val; omega)

/-- An entry of the output block is the attention at the entry's place in the array, when the four loaded blocks are
    the matching pieces of the queries, keys, values and bias. -/
theorem block_entry (x0 : Vec Ideal S2x256x128 .f32) (x1 : Vec Ideal S2x2048x128 .f32) (x2 : Vec Ideal S2x2048x128 .f32) (x3 : Vec Ideal S1x2x256x2048 .f32)
    (q k v : Cert.Spec.Lanes) (bias : Cert.Spec.Bias) (hp qi : Fin 8)
    (h0 : ∀ (b : Fin 2) (r : Fin 256) (l : Fin 128), x0 (ix3 b r l) = q (ix3 b (rowOf qi r) (laneOf hp l)))
    (h1 : ∀ (b : Fin 2) (j : Fin 2048) (l : Fin 128), x1 (ix3 b j l) = k (ix3 b j (laneOf hp l)))
    (h2 : ∀ (b : Fin 2) (j : Fin 2048) (l : Fin 128), x2 (ix3 b j l) = v (ix3 b j (laneOf hp l)))
    (h3 : ∀ (hh : Fin 2) (r : Fin 256) (j : Fin 2048), x3 (ix4 (0 : Fin 1) hh r j) = bias (ix4 (0 : Fin 1) (headOfPair hp hh) (rowOf qi r) j))
    (b : Fin 2) (r : Fin 256) (l : Fin 128) :
    out2_4 (F := Ideal) x0 x1 x2 x3 (ix3 b r l) = Cert.Spec.ATT q k v bias (ix3 b (rowOf qi r) (laneOf hp l)) := by
  obtain ⟨hh, d, rfl⟩ : ∃ (hh : Fin 2) (d : Fin 64), l = sub hh d :=
    ⟨⟨l.val / 64, by have := l.isLt; omega⟩, ⟨l.val % 64, Nat.mod_lt _ (by decide)⟩,
      Fin.ext (by show l.val = 64 * (l.val / 64) + l.val % 64; omega)⟩
  rw [laneOf_sub, Cert.Spec.ATT_apply, out2_4_apply]
  unfold Cert.Spec.attnAt Cert.Spec.headRow Cert.Spec.headMat Cert.Spec.biasRow
  refine attnRow_congr (fun d' => ?_) (fun j d' => ?_) (fun j d' => ?_) (fun j => ?_) d
  · rw [h0, laneOf_sub]
  · rw [h1, laneOf_sub]
  · rw [h2, laneOf_sub]
  · rw [h3]

/-- The same with the entry and its place given by their coordinates. -/
theorem block_entry' (x0 : Vec Ideal S2x256x128 .f32) (x1 : Vec Ideal S2x2048x128 .f32) (x2 : Vec Ideal S2x2048x128 .f32) (x3 : Vec Ideal S1x2x256x2048 .f32)
    (q k v : Cert.Spec.Lanes) (bias : Cert.Spec.Bias) (hp qi : Fin 8)
    (h0 : ∀ (b : Fin 2) (r : Fin 256) (l : Fin 128), x0 (ix3 b r l) = q (ix3 b (rowOf qi r) (laneOf hp l)))
    (h1 : ∀ (b : Fin 2) (j : Fin 2048) (l : Fin 128), x1 (ix3 b j l) = k (ix3 b j (laneOf hp l)))
    (h2 : ∀ (b : Fin 2) (j : Fin 2048) (l : Fin 128), x2 (ix3 b j l) = v (ix3 b j (laneOf hp l)))
    (h3 : ∀ (hh : Fin 2) (r : Fin 256) (j : Fin 2048), x3 (ix4 (0 : Fin 1) hh r j) = bias (ix4 (0 : Fin 1) (headOfPair hp hh) (rowOf qi r) j))
    (y : S2x256x128.Idx) (i : S2x2048x1024.Idx)
    (e0 : (i 0).val = (y 0).val) (e1 : (i 1).val = 256 * qi.val + (y 1).val) (e2 : (i 2).val = 128 * hp.val + (y 2).val) :
    out2_4 (F := Ideal) x0 x1 x2 x3 y = Cert.Spec.ATT q k v bias i := by
  obtain ⟨b, r, l, rfl⟩ : ∃ (b : Fin 2) (r : Fin 256) (l : Fin 128), y = ix3 b r l := ⟨y 0, y 1, y 2, eq_ix3 y⟩
  have hi : i = ix3 b (rowOf qi r) (laneOf hp l) := funext fun a => Fin.ext (by
    match a with
    | ⟨0, _⟩ => exact e0
    | ⟨1, _⟩ => exact e1
    | ⟨2, _⟩ => exact e2)
  rw [hi]
  exact block_entry x0 x1 x2 x3 q k v bias hp qi h0 h1 h2 h3 b r l

/-! ## The grid's index maps -/

/-- Where each window's block sits at point `t`, counted in blocks: the index maps evaluated at each of the 64 points. -/
theorem idx_facts2 : ∀ t : Fin cfg2.N,
    win2_0.index t (0 : Fin 3) = 0 ∧ win2_0.index t (1 : Fin 3) = t.val % 8 ∧ win2_0.index t (2 : Fin 3) = t.val / 8
    ∧ win2_1.index t (0 : Fin 3) = 0 ∧ win2_1.index t (1 : Fin 3) = 0 ∧ win2_1.index t (2 : Fin 3) = 8 + t.val / 8
    ∧ win2_2.index t (0 : Fin 3) = 0 ∧ win2_2.index t (1 : Fin 3) = 0 ∧ win2_2.index t (2 : Fin 3) = 16 + t.val / 8
    ∧ win2_3.index t (0 : Fin 4) = 0 ∧ win2_3.index t (1 : Fin 4) = t.val / 8 ∧ win2_3.index t (2 : Fin 4) = t.val % 8
      ∧ win2_3.index t (3 : Fin 4) = 0
    ∧ win2_4.index t (0 : Fin 3) = 0 ∧ win2_4.index t (1 : Fin 3) = t.val % 8 ∧ win2_4.index t (2 : Fin 3) = t.val / 8 :=
  (by decide +kernel : ∀ t : Fin grid2.N, _)

variable (V : (c : Dev nD) → (b : Ref sig .tc) → Buf (Elt Ideal) ((c : Thread nD τ).loc b))

/-! ## The three lane ranges of the fused projection -/

/-- Lanes 0 … 1023: the queries. -/
def qOf (c : Dev nD) : Cert.Spec.Lanes :=
  fun i => V c main_v8 (ix3 (i 0 : Fin 2) (i 1 : Fin 2048) (⟨(i 2 : Fin 1024).val, by have h : (i 2).val < 1024 := (i 2).isLt; omega⟩ : Fin 3072))
/-- Lanes 1024 … 2047: the keys. -/
def kOf (c : Dev nD) : Cert.Spec.Lanes :=
  fun i => V c main_v8 (ix3 (i 0 : Fin 2) (i 1 : Fin 2048) (⟨1024 + (i 2 : Fin 1024).val, by have h : (i 2).val < 1024 := (i 2).isLt; omega⟩ : Fin 3072))
/-- Lanes 2048 … 3071: the values. -/
def vOf (c : Dev nD) : Cert.Spec.Lanes :=
  fun i => V c main_v8 (ix3 (i 0 : Fin 2) (i 1 : Fin 2048) (⟨2048 + (i 2 : Fin 1024).val, by have h : (i 2).val < 1024 := (i 2).isLt; omega⟩ : Fin 3072))

/-- The output array the call should leave: the attention of the three lane ranges with the bias argument. -/
def attOf (c : Dev nD) : Cert.Spec.Lanes := Cert.Spec.ATT (qOf V c) (kOf V c) (vOf V c) (V c main_arg1)

/-! ## What a point writes back -/

/-- Point `t` writes back block `t` of `attOf`. -/
theorem flushed2_eq (c : Dev nD) (t : Fin cfg2.N) :
    (dat2 (F := Ideal) V c).flushed 4 t = ((cfg2.win 4).blk t).view.read (Elt Ideal) (attOf V c) := by
  show (cfg2.win 4).cut (grid2.coords t) ((dat2 V c).after 4 t) = _
  rw [after2_4]
  obtain ⟨f00, f01, f02, f10, f11, f12, f20, f21, f22, f30, f31, f32, f33, f40, f41, f42⟩ := idx_facts2 t
  have hN : t.val < 64 := lt_of_lt_of_eq t.isLt N_2
  funext y
  show out2_4 (F := Ideal) (iblk2 V c 0 t) (iblk2 V c 1 t) (iblk2 V c 2 t) (iblk2 V c 3 t) _
    = Cert.Spec.ATT (qOf V c) (kOf V c) (vOf V c) (V c main_arg1) (((cfg2.win 4).blk t).view.emb y)
  refine block_entry' (iblk2 V c 0 t) (iblk2 V c 1 t) (iblk2 V c 2 t) (iblk2 V c 3 t) (qOf V c) (kOf V c) (vOf V c) (V c main_arg1)
    ⟨t.val / 8, by omega⟩ ⟨t.val % 8, by omega⟩ ?h0 ?h1 ?h2 ?h3 _ _ ?e0 ?e1 ?e2
  case h0 =>
    intro b r l
    show V c main_v8 (((cfg2.win 0).blk t).view.emb (ix3 b r l)) = V c main_v8 (ix3 b (rowOf ⟨t.val % 8, by omega⟩ r) ⟨(laneOf ⟨t.val / 8, by omega⟩ l).val, _⟩)
    refine congrArg (V c main_v8) (funext fun a => Fin.ext ?_)
    match a with
    | ⟨0, _⟩ => show win2_0.index t (0 : Fin 3) * 2 + 1 * b.val = b.val; omega
    | ⟨1, _⟩ => show win2_0.index t (1 : Fin 3) * 256 + 1 * r.val = 256 * (t.val % 8) + r.val; omega
    | ⟨2, _⟩ => show win2_0.index t (2 : Fin 3) * 128 + 1 * l.val = 128 * (t.val / 8) + l.val; omega
  case h1 =>
    intro b j l
    show V c main_v8 (((cfg2.win 1).blk t).view.emb (ix3 b j l)) = V c main_v8 (ix3 b j ⟨1024 + (laneOf ⟨t.val / 8, by omega⟩ l).val, _⟩)
    refine congrArg (V c main_v8) (funext fun a => Fin.ext ?_)
    match a with
    | ⟨0, _⟩ => show win2_1.index t (0 : Fin 3) * 2 + 1 * b.val = b.val; omega
    | ⟨1, _⟩ => show win2_1.index t (1 : Fin 3) * 2048 + 1 * j.val = j.val; omega
    | ⟨2, _⟩ => show win2_1.index t (2 : Fin 3) * 128 + 1 * l.val = 1024 + (128 * (t.val / 8) + l.val); omega
  case h2 =>
    intro b j l
    show V c main_v8 (((cfg2.win 2).blk t).view.emb (ix3 b j l)) = V c main_v8 (ix3 b j ⟨2048 + (laneOf ⟨t.val / 8, by omega⟩ l).val, _⟩)
    refine congrArg (V c main_v8) (funext fun a => Fin.ext ?_)
    match a with
    | ⟨0, _⟩ => show win2_2.index t (0 : Fin 3) * 2 + 1 * b.val = b.val; omega
    | ⟨1, _⟩ => show win2_2.index t (1 : Fin 3) * 2048 + 1 * j.val = j.val; omega
    | ⟨2, _⟩ => show win2_2.index t (2 : Fin 3) * 128 + 1 * l.val = 2048 + (128 * (t.val / 8) + l.val); omega
  case h3 =>
    intro hh r j
    show V c main_arg1 (((cfg2.win 3).blk t).view.emb (ix4 (0 : Fin 1) hh r j))
      = V c main_arg1 (ix4 (0 : Fin 1) (headOfPair ⟨t.val / 8, by omega⟩ hh) (rowOf ⟨t.val % 8, by omega⟩ r) j)
    refine congrArg (V c main_arg1) (funext fun a => Fin.ext ?_)
    match a with
    | ⟨0, _⟩ => show win2_3.index t (0 : Fin 4) * 1 + 1 * 0 = 0; omega
    | ⟨1, _⟩ => show win2_3.index t (1 : Fin 4) * 2 + 1 * hh.val = 2 * (t.val / 8) + hh.val; omega
    | ⟨2, _⟩ => show win2_3.index t (2 : Fin 4) * 256 + 1 * r.val = 256 * (t.val % 8) + r.val; omega
    | ⟨3, _⟩ => show win2_3.index t (3 : Fin 4) * 2048 + 1 * j.val = j.val; omega
  case e0 => show win2_4.index t (0 : Fin 3) * 2 + 1 * (y 0).val = (y 0).val; omega
  case e1 => show win2_4.index t (1 : Fin 3) * 256 + 1 * (y 1).val = 256 * (t.val % 8) + (y 1).val; omega
  case e2 => show win2_4.index t (2 : Fin 3) * 128 + 1 * (y 2).val = 128 * (t.val / 8) + (y 2).val; omega

/-! ## The output blocks tile the array -/

/-- Membership in point `t`'s output block, axis by axis. -/
theorem mem_blk2 (t : Fin cfg2.N) (i : S2x2048x1024.Idx) :
    i ∈ ((cfg2.win 4).blk t).view.set ↔ ∀ a : Fin 3, win2_4.index t a * S2x256x128.size a ≤ (i a).val
      ∧ (i a).val < win2_4.index t a * S2x256x128.size a + S2x256x128.size a := by
  show i ∈ ((View.whole main_v9).slice (win2_4.rect t)).set ↔ _
  rw [View.set_slice_whole, Rect.mem_set_unit]
  exact Iff.rfl

/-- Every entry of the output array is in the block of the point of its lane pair and row tile. -/
theorem cover2 (i : S2x2048x1024.Idx) :
    ∃ t : Fin cfg2.N, (cfg2.win 4).flush t = true ∧ i ∈ ((cfg2.win 4).blk t).view.set := by
  have hi0 : (i 0).val < 2 := (i 0).isLt
  have hi1 : (i 1).val < 2048 := (i 1).isLt
  have hi2 : (i 2).val < 1024 := (i 2).isLt
  obtain ⟨t, ht⟩ : ∃ t : Fin cfg2.N, t.val = (i 2).val / 128 * 8 + (i 1).val / 256 :=
    ⟨⟨(i 2).val / 128 * 8 + (i 1).val / 256, lt_of_lt_of_eq (by omega) N_2.symm⟩, rfl⟩
  obtain ⟨-, -, -, -, -, -, -, -, -, -, -, -, -, f40, f41, f42⟩ := idx_facts2 t
  refine ⟨t, flush2_4 t, ?_⟩
  rw [mem_blk2]
  intro a
  match a with
  | ⟨0, _⟩ => show win2_4.index t (0 : Fin 3) * 2 ≤ (i 0).val ∧ (i 0).val < win2_4.index t (0 : Fin 3) * 2 + 2; omega
  | ⟨1, _⟩ => show win2_4.index t (1 : Fin 3) * 256 ≤ (i 1).val ∧ (i 1).val < win2_4.index t (1 : Fin 3) * 256 + 256; omega
  | ⟨2, _⟩ => show win2_4.index t (2 : Fin 3) * 128 ≤ (i 2).val ∧ (i 2).val < win2_4.index t (2 : Fin 3) * 128 + 128; omega

/-! ## The output array after the whole grid -/

/-- After the 64 points the output array holds the attention of the three lane ranges of the fused projection with the
    bias argument, entry by entry. -/
theorem arrAt2 (c : Dev nD) : (dat2 (F := Ideal) V c).arrAt 4 cfg2.N = attOf V c :=
  (dat2 (F := Ideal) V c).arrAt_eq_of_cover 4 (attOf V c) (fun t _ => flushed2_eq V c t) cover2

end Cert.KernelIdeal.Hand

end
-- ==== Proof.RefMM.lean ====
import proofs.«105932_j25297357373492_2_alg».proof.Proof.Gen.ReferenceIdeal.Read

/-! # The reference's three matrix products, entry by entry

On extended reals each of the reference's three contractions is the sum over the 1024 contracted positions of the
left operand's entry times the weight's entry, the weight matrix read `(output column, contracted position)`.
The key and value projections are the two halves of one product's columns. -/

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-- The query projection: normalized activations times the query weights. -/
theorem v21_at (x0 : (⟨S2x2048x1024, .f32⟩ : BufTy).Contents (Elt Ideal)) (x2 : (⟨S1024, .f32⟩ : BufTy).Contents (Elt Ideal)) (x3 : (⟨S1024x1024, .f32⟩ : BufTy).Contents (Elt Ideal)) (i : S2x2048x1024.Idx) :
    val_main_v21 (F := Ideal) x0 x2 x3 i
      = ∑ k : Fin 1024, (val_main_v20 (F := Ideal) x0 x2) (ix3 (i 0) (i 1) k) * x3 (ix2 (i 2) k) := by
  rw [val_main_v21_apply]
  refine Finset.sum_congr rfl fun k _ => ?_
  have el : lidx_main_v21 i k = ix3 (i 0) (i 1) k :=
    funext fun a => Fin.ext (by match a with | ⟨0, _⟩ => rfl | ⟨1, _⟩ => rfl | ⟨2, _⟩ => rfl)
  have er : ridx_main_v21 i k = ix2 (i 2) k :=
    funext fun a => Fin.ext (by match a with | ⟨0, _⟩ => rfl | ⟨1, _⟩ => rfl)
  rw [el, er]
  rfl

/-- The joint key-value projection: normalized activations times the key-value weights. -/
theorem v22_at (x0 : (⟨S2x2048x1024, .f32⟩ : BufTy).Contents (Elt Ideal)) (x2 : (⟨S1024, .f32⟩ : BufTy).Contents (Elt Ideal)) (x4 : (⟨S2048x1024, .f32⟩ : BufTy).Contents (Elt Ideal)) (i : S2x2048x2048.Idx) :
    val_main_v22 (F := Ideal) x0 x2 x4 i
      = ∑ k : Fin 1024, (val_main_v20 (F := Ideal) x0 x2) (ix3 (i 0) (i 1) k) * x4 (ix2 (i 2) k) := by
  rw [val_main_v22_apply]
  refine Finset.sum_congr rfl fun k _ => ?_
  have el : lidx_main_v22 i k = ix3 (i 0) (i 1) k :=
    funext fun a => Fin.ext (by match a with | ⟨0, _⟩ => rfl | ⟨1, _⟩ => rfl | ⟨2, _⟩ => rfl)
  have er : ridx_main_v22 i k = ix2 (i 2) k :=
    funext fun a => Fin.ext (by match a with | ⟨0, _⟩ => rfl | ⟨1, _⟩ => rfl)
  rw [el, er]
  rfl

/-- The keys are the first 1024 columns of the joint projection, -/
theorem v23_at (x0 : (⟨S2x2048x1024, .f32⟩ : BufTy).Contents (Elt Ideal)) (x2 : (⟨S1024, .f32⟩ : BufTy).Contents (Elt Ideal)) (x4 : (⟨S2048x1024, .f32⟩ : BufTy).Contents (Elt Ideal)) (i : S2x2048x1024.Idx) :
    val_main_v23 (F := Ideal) x0 x2 x4 i
      = val_main_v22 (F := Ideal) x0 x2 x4 (ix3 (i 0) (i 1) (⟨(i 2).val, by
          have h2 : (i 2).val < 1024 := (i 2).isLt
          omega⟩ : Fin 2048)) := by
  rw [val_main_v23_apply]
  exact congrArg _ (funext fun a => Fin.ext (by match a with | ⟨0, _⟩ => rfl | ⟨1, _⟩ => rfl | ⟨2, _⟩ => rfl))

/-- the values the last 1024. -/
theorem v24_at (x0 : (⟨S2x2048x1024, .f32⟩ : BufTy).Contents (Elt Ideal)) (x2 : (⟨S1024, .f32⟩ : BufTy).Contents (Elt Ideal)) (x4 : (⟨S2048x1024, .f32⟩ : BufTy).Contents (Elt Ideal)) (i : S2x2048x1024.Idx) :
    val_main_v24 (F := Ideal) x0 x2 x4 i
      = val_main_v22 (F := Ideal) x0 x2 x4 (ix3 (i 0) (i 1) (⟨1024 + (i 2).val, by
          have h2 : (i 2).val < 1024 := (i 2).isLt
          omega⟩ : Fin 2048)) := by
  rw [val_main_v24_apply]
  exact congrArg _ (funext fun a => Fin.ext (by match a with | ⟨0, _⟩ => rfl | ⟨1, _⟩ => rfl | ⟨2, _⟩ => rfl))

/-- The output projection: the attention result times the output weights. -/
theorem v50_at (x0 : (⟨S2x2048x1024, .f32⟩ : BufTy).Contents (Elt Ideal)) (x1 : (⟨S1x16x2048x2048, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal)) (x5 : (⟨S1024x1024, .f32⟩ : BufTy).Contents (Elt Ideal)) (i : S2x2048x1024.Idx) :
    val_main_v50 (F := Ideal) x0 x1 x2 x3 x4 x5 i
      = ∑ k : Fin 1024, (val_main_v49 (F := Ideal) x0 x1 x2 x3 x4) (ix3 (i 0) (i 1) k) * x5 (ix2 (i 2) k) := by
  rw [val_main_v50_apply]
  refine Finset.sum_congr rfl fun k _ => ?_
  have el : lidx_main_v50 i k = ix3 (i 0) (i 1) k :=
    funext fun a => Fin.ext (by match a with | ⟨0, _⟩ => rfl | ⟨1, _⟩ => rfl | ⟨2, _⟩ => rfl)
  have er : ridx_main_v50 i k = ix2 (i 2) k :=
    funext fun a => Fin.ext (by match a with | ⟨0, _⟩ => rfl | ⟨1, _⟩ => rfl)
  rw [el, er]
  rfl

end Cert.ReferenceIdeal.RefValue

end
-- ==== Proof.GlueMM.lean ====
import proofs.«105932_j25297357373492_2_alg».proof.Proof.KIValue1
import proofs.«105932_j25297357373492_2_alg».proof.Proof.KIValue3
import proofs.«105932_j25297357373492_2_alg».proof.Proof.KIHost
import proofs.«105932_j25297357373492_2_alg».proof.Proof.RefMM

/-! # The two projections end to end, entry by entry, and against the reference

Merging the leading axes `[2, 2048] → [4096]`, multiplying, and splitting them again is the batched product. Entry
`(b, s, n)` of the fused projection is the sum over `k` of `xn (b, s, k)` times row `n` of the stacked, transposed
weights at `k`: a query weight for `n < 1024`, a key weight for `1024 ≤ n < 2048`, a value weight beyond — the
key and value weights being the two halves of one `[2048, 1024]` matrix. Entry `(b, s, n)` of the output projection
is the sum over `k` of `o (b, s, k)` times the output weight `(n, k)`. These are the reference's contractions, sum
for sum; only the arrangement of indices is used, no law of arithmetic. -/

set_option maxRecDepth 16384

noncomputable section

open scoped BigOperators

namespace Cert.KernelIdeal.Hand

open Idealize.ShloMosaic Idealize.ShloMosaic.ValueIdx

/-! ## Over arbitrary arrays -/

/-- A merged row `2048·b + s` read back through the merge is entry `(b, s)`. -/
theorem merge1024_row (y : S2x2048x1024.Idx → EReal) (b : Fin 2) (s : Fin 2048) (k : Fin 1024) (r : Fin 4096)
    (hr : r.val = b.val * 2048 + s.val) : merge1024 y (ix2 r k) = y (ix3 b s k) := by
  show y _ = y _
  refine congrArg y (funext fun a => Fin.ext ?_)
  have hb := b.isLt
  have hs := s.isLt
  match a with
  | ⟨0, _⟩ => show r.val / 2048 = b.val; omega
  | ⟨1, _⟩ => show r.val % 2048 = s.val; omega
  | ⟨2, _⟩ => rfl

/-- A column `m < 1024` of the fused projection is a query column. -/
theorem q_lane_at (xn : S2x2048x1024.Idx → EReal) (wq : S1024x1024.Idx → EReal) (wkv : S2048x1024.Idx → EReal)
    (b : Fin 2) (s : Fin 2048) (n : Fin 1024) (m : Fin 3072) (hm : m.val = n.val) :
    split3072 (prod1 (merge1024 xn) (stackT wq wkv)) (ix3 b s m) = ∑ k : Fin 1024, xn (ix3 b s k) * wq (ix2 n k) := by
  have hb := b.isLt
  have hs := s.isLt
  have hn := n.isLt
  show (∑ k : Fin 1024, merge1024 xn (ix2 (⟨b.val * 2048 + s.val, by omega⟩ : Fin 4096) k)
      * stackT wq wkv (ix2 k m)) = _
  refine Finset.sum_congr rfl fun k _ => ?_
  rw [merge1024_row xn b s k _ rfl]
  refine congrArg (xn (ix3 b s k) * ·) ?_
  show (if h : m.val < 1024 then wq _ else wkv _) = _
  rw [dif_pos (show m.val < 1024 by omega)]
  refine congrArg wq (funext fun a => Fin.ext ?_)
  match a with
  | ⟨0, _⟩ => exact hm
  | ⟨1, _⟩ => rfl

/-- A column `m ≥ 1024` of the fused projection is column `m − 1024` of the key-value product. -/
theorem kv_lane_at (xn : S2x2048x1024.Idx → EReal) (wq : S1024x1024.Idx → EReal) (wkv : S2048x1024.Idx → EReal)
    (b : Fin 2) (s : Fin 2048) (n : Fin 2048) (m : Fin 3072) (hm : m.val = 1024 + n.val) :
    split3072 (prod1 (merge1024 xn) (stackT wq wkv)) (ix3 b s m) = ∑ k : Fin 1024, xn (ix3 b s k) * wkv (ix2 n k) := by
  have hb := b.isLt
  have hs := s.isLt
  have hn := n.isLt
  show (∑ k : Fin 1024, merge1024 xn (ix2 (⟨b.val * 2048 + s.val, by omega⟩ : Fin 4096) k)
      * stackT wq wkv (ix2 k m)) = _
  refine Finset.sum_congr rfl fun k _ => ?_
  rw [merge1024_row xn b s k _ rfl]
  refine congrArg (xn (ix3 b s k) * ·) ?_
  show (if h : m.val < 1024 then wq _ else wkv _) = _
  rw [dif_neg (show ¬ m.val < 1024 by omega)]
  refine congrArg wkv (funext fun a => Fin.ext ?_)
  match a with
  | ⟨0, _⟩ => show m.val - 1024 = n.val; omega
  | ⟨1, _⟩ => rfl

/-- The output projection: merge, multiply by the transposed weights, split. -/
theorem out_glue (o : S2x2048x1024.Idx → EReal) (w : S1024x1024.Idx → EReal) :
    split1024 (prod3 (merge1024 o) (transp1024 w))
      = fun i => ∑ k : Fin 1024, o (ix3 (i 0) (i 1) k) * w (ix2 (i 2) k) := by
  funext i
  have h0 : (i 0).val < 2 := (i 0).isLt
  have h1 : (i 1).val < 2048 := (i 1).isLt
  show (∑ k : Fin 1024, merge1024 o (ix2 (⟨(i 0).val * 2048 + (i 1).val, by omega⟩ : Fin 4096) k)
      * transp1024 w (ix2 k (⟨(i 2).val, (i 2).isLt⟩ : Fin 1024))) = _
  refine Finset.sum_congr rfl fun k _ => ?_
  rw [merge1024_row o (i 0) (i 1) k _ rfl]
  rfl

section Lanes
variable (xn : S2x2048x1024.Idx → EReal) (wq : S1024x1024.Idx → EReal) (wkv : S2048x1024.Idx → EReal)
  (i : S2x2048x1024.Idx)

/-- The query lanes: columns `0 … 1023` of the fused projection. -/
theorem q_lane : split3072 (prod1 (merge1024 xn) (stackT wq wkv)) (ix3 (i 0) (i 1) (⟨(i 2).val, by have h2 : (i 2).val < 1024 := (i 2).isLt; omega⟩ : Fin 3072))
    = ∑ k : Fin 1024, xn (ix3 (i 0) (i 1) k) * wq (ix2 (i 2) k) :=
  q_lane_at xn wq wkv (i 0) (i 1) (i 2) _ rfl

/-- The key lanes: columns `1024 … 2047`, against the first 1024 rows of the key-value weights. -/
theorem k_lane : split3072 (prod1 (merge1024 xn) (stackT wq wkv)) (ix3 (i 0) (i 1) (⟨1024 + (i 2).val, by have h2 : (i 2).val < 1024 := (i 2).isLt; omega⟩ : Fin 3072))
    = ∑ k : Fin 1024, xn (ix3 (i 0) (i 1) k) * wkv (ix2 (⟨(i 2).val, by have h2 : (i 2).val < 1024 := (i 2).isLt; omega⟩ : Fin 2048) k) :=
  kv_lane_at xn wq wkv (i 0) (i 1) _ _ rfl

/-- The value lanes: columns `2048 … 3071`, against the last 1024 rows of the key-value weights. -/
theorem v_lane : split3072 (prod1 (merge1024 xn) (stackT wq wkv)) (ix3 (i 0) (i 1) (⟨2048 + (i 2).val, by have h2 : (i 2).val < 1024 := (i 2).isLt; omega⟩ : Fin 3072))
    = ∑ k : Fin 1024, xn (ix3 (i 0) (i 1) k) * wkv (ix2 (⟨1024 + (i 2).val, by have h2 : (i 2).val < 1024 := (i 2).isLt; omega⟩ : Fin 2048) k) :=
  kv_lane_at xn wq wkv (i 0) (i 1) _ _ (by show 2048 + (i 2).val = 1024 + (1024 + (i 2).val); omega)

end Lanes

/-! ## Against the reference's stages -/

/-- The query lanes of the fused projection of the normalized activations are the reference's query projection. -/
theorem q_glue (x0 : (⟨S2x2048x1024, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal)) :
    (fun i : S2x2048x1024.Idx => split3072 (prod1 (merge1024 (Cert.ReferenceIdeal.Read.val_main_v20 (F := Ideal) x0 x2)) (stackT x3 x4))
        (ix3 (i 0) (i 1) (⟨(i 2).val, by have h2 : (i 2).val < 1024 := (i 2).isLt; omega⟩ : Fin 3072)))
      = Cert.ReferenceIdeal.Read.val_main_v21 (F := Ideal) x0 x2 x3 := by
  funext i
  rw [Cert.ReferenceIdeal.RefValue.v21_at]
  exact q_lane (Cert.ReferenceIdeal.Read.val_main_v20 (F := Ideal) x0 x2) x3 x4 i

/-- The key lanes are the reference's keys. -/
theorem k_glue (x0 : (⟨S2x2048x1024, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal)) :
    (fun i : S2x2048x1024.Idx => split3072 (prod1 (merge1024 (Cert.ReferenceIdeal.Read.val_main_v20 (F := Ideal) x0 x2)) (stackT x3 x4))
        (ix3 (i 0) (i 1) (⟨1024 + (i 2).val, by have h2 : (i 2).val < 1024 := (i 2).isLt; omega⟩ : Fin 3072)))
      = Cert.ReferenceIdeal.Read.val_main_v23 (F := Ideal) x0 x2 x4 := by
  funext i
  rw [Cert.ReferenceIdeal.RefValue.v23_at, Cert.ReferenceIdeal.RefValue.v22_at]
  exact k_lane (Cert.ReferenceIdeal.Read.val_main_v20 (F := Ideal) x0 x2) x3 x4 i

/-- The value lanes are the reference's values. -/
theorem v_glue (x0 : (⟨S2x2048x1024, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal)) :
    (fun i : S2x2048x1024.Idx => split3072 (prod1 (merge1024 (Cert.ReferenceIdeal.Read.val_main_v20 (F := Ideal) x0 x2)) (stackT x3 x4))
        (ix3 (i 0) (i 1) (⟨2048 + (i 2).val, by have h2 : (i 2).val < 1024 := (i 2).isLt; omega⟩ : Fin 3072)))
      = Cert.ReferenceIdeal.Read.val_main_v24 (F := Ideal) x0 x2 x4 := by
  funext i
  rw [Cert.ReferenceIdeal.RefValue.v24_at, Cert.ReferenceIdeal.RefValue.v22_at]
  exact v_lane (Cert.ReferenceIdeal.Read.val_main_v20 (F := Ideal) x0 x2) x3 x4 i

/-- The reference's output projection is the batched product of its attention result with the output weights. -/
theorem out_ref (x0 : (⟨S2x2048x1024, .f32⟩ : BufTy).Contents (Elt Ideal)) (x1 : (⟨S1x16x2048x2048, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal)) (x5 : (⟨S1024x1024, .f32⟩ : BufTy).Contents (Elt Ideal)) :
    (fun i : S2x2048x1024.Idx => ∑ k : Fin 1024, (Cert.ReferenceIdeal.Read.val_main_v49 (F := Ideal) x0 x1 x2 x3 x4) (ix3 (i 0) (i 1) k) * x5 (ix2 (i 2) k))
      = Cert.ReferenceIdeal.Read.val_main_v50 (F := Ideal) x0 x1 x2 x3 x4 x5 := by
  funext i
  exact (Cert.ReferenceIdeal.RefValue.v50_at x0 x1 x2 x3 x4 x5 i).symm

end Cert.KernelIdeal.Hand

end
-- ==== Proof.RefLN.lean ====
import proofs.«105932_j25297357373492_2_alg».proof.Proof.Gen.ReferenceIdeal.Read
import proofs.«105932_j25297357373492_2_alg».proof.Proof.SpecLN

/-! # The reference's layer normalisation is the specification's

The reference computes, in order: the column sums over the position axis, the means, the deviations from the
mean, their squares, the sums of those, the variances, the floored variances, their reciprocal square roots,
the deviations times those, and that times the gains. Each stage is read at an index given by its
coordinates; a broadcast reads its operand at the index with the broadcast axis set to 0. -/

noncomputable section

namespace Cert.ReferenceIdeal.RefValue

open Cert.ReferenceIdeal Cert.ReferenceIdeal.Read Cert.Spec
open Idealize.ShloMosaic Idealize.ShloMosaic.ValueIdx
open scoped BigOperators

variable (x0 : (⟨S2x2048x1024, .f32⟩ : BufTy).Contents (Elt Ideal))

/-- The column sum at (batch `b`, feature `d`): the initial value is the zero word, so it drops out. -/
theorem colSum_eq (b : Fin 2) (d : Fin 1024) :
    val_main_v0 (F := Ideal) x0 (ix2 b d) = ∑ k : Fin 2048, x0 (ix3 b k d) := by
  rw [val_main_v0_apply, val_main_cst_apply, Ideal.ofBits_def, Ideal.ofBits_zero_f32, zero_add]
  refine Finset.sum_congr rfl fun k _ => congrArg x0 ?_
  funext a; apply Fin.ext
  match a with | ⟨0, _⟩ => rfl | ⟨1, _⟩ => rfl | ⟨2, _⟩ => rfl

/-- The mean, kept with a unit position axis. -/
theorem mean_eq (b : Fin 2) (d : Fin 1024) :
    val_main_v3 (F := Ideal) x0 (ix3 b (0 : Fin 1) d) = colMean (fun k => x0 (ix3 b k d)) := by
  have e : idx_main_v1 (ix3 b (0 : Fin 1) d) = ix2 b d := by
    funext a; apply Fin.ext
    match a with | ⟨0, _⟩ => rfl | ⟨1, _⟩ => rfl
  rw [val_main_v3_apply, val_main_v1_apply, val_main_v2_apply, val_main_cst_0_apply, e, colSum_eq]
  rfl

/-- The deviation from the mean (the operand of the squares). -/
theorem dev_eq (b : Fin 2) (n : Fin 2048) (d : Fin 1024) :
    val_main_v5 (F := Ideal) x0 (ix3 b n d) = x0 (ix3 b n d) - colMean (fun k => x0 (ix3 b k d)) := by
  have e : idx_main_v4 (ix3 b n d) = ix3 b (0 : Fin 1) d := by
    funext a; apply Fin.ext
    match a with | ⟨0, _⟩ => rfl | ⟨1, _⟩ => rfl | ⟨2, _⟩ => rfl
  rw [val_main_v5_apply, val_main_v4_apply, e, mean_eq]
  rfl

/-- The deviation from the mean again (the operand of the final scaling): the same value. -/
theorem dev_eq' (b : Fin 2) (n : Fin 2048) (d : Fin 1024) :
    val_main_v12 (F := Ideal) x0 (ix3 b n d) = x0 (ix3 b n d) - colMean (fun k => x0 (ix3 b k d)) := by
  have e : idx_main_v11 (ix3 b n d) = ix3 b (0 : Fin 1) d := by
    funext a; apply Fin.ext
    match a with | ⟨0, _⟩ => rfl | ⟨1, _⟩ => rfl | ⟨2, _⟩ => rfl
  rw [val_main_v12_apply, val_main_v11_apply, e, mean_eq]
  rfl

/-- The variance, kept with a unit position axis. -/
theorem var_eq (b : Fin 2) (d : Fin 1024) :
    val_main_v10 (F := Ideal) x0 (ix3 b (0 : Fin 1) d) = colVar (fun k => x0 (ix3 b k d)) := by
  have e : idx_main_v8 (ix3 b (0 : Fin 1) d) = ix2 b d := by
    funext a; apply Fin.ext
    match a with | ⟨0, _⟩ => rfl | ⟨1, _⟩ => rfl
  have sq : ∀ k : Fin 2048, val_main_v6 (F := Ideal) x0 (idx_main_v7 (ix2 b d) k)
      = (x0 (ix3 b k d) - colMean (fun k => x0 (ix3 b k d))) * (x0 (ix3 b k d) - colMean (fun k => x0 (ix3 b k d))) := fun k => by
    have ek : idx_main_v7 (ix2 b d) k = ix3 b k d := by
      funext a; apply Fin.ext
      match a with | ⟨0, _⟩ => rfl | ⟨1, _⟩ => rfl | ⟨2, _⟩ => rfl
    rw [ek, val_main_v6_apply, dev_eq]
    rfl
  rw [val_main_v10_apply, val_main_v8_apply, val_main_v9_apply, val_main_cst_2_apply, e, val_main_v7_apply,
    val_main_cst_1_apply, Ideal.ofBits_def, Ideal.ofBits_zero_f32, zero_add, Finset.sum_congr rfl fun k _ => sq k]
  rfl

/-- The reference's normalised activations are the specification's. -/
theorem ln_eq (x0 : (⟨S2x2048x1024, .f32⟩ : BufTy).Contents (Elt Ideal)) (x2 : (⟨S1024, .f32⟩ : BufTy).Contents (Elt Ideal)) :
    Cert.ReferenceIdeal.Read.val_main_v20 x0 x2 = Cert.Spec.LN x0 x2 := by
  funext i
  obtain ⟨b, n, d, rfl⟩ : ∃ (b : Fin 2) (n : Fin 2048) (d : Fin 1024), i = ix3 b n d := ⟨i 0, i 1, i 2, eq_ix3 i⟩
  have e16 : idx_main_v16 (ix3 b n d) = ix3 b (0 : Fin 1) d := by
    funext a; apply Fin.ext
    match a with | ⟨0, _⟩ => rfl | ⟨1, _⟩ => rfl | ⟨2, _⟩ => rfl
  have e18 : idx_main_v18 (idx_main_v19 (ix3 b n d)) = ix1 d := by
    funext a; apply Fin.ext
    match a with | ⟨0, _⟩ => rfl
  rw [LN_ix3, val_main_v20_apply, val_main_v17_apply, dev_eq', val_main_v16_apply, e16, val_main_v15_apply,
    val_main_v14_apply, var_eq, val_main_v13_apply, val_main_cst_3_apply, val_main_v19_apply, val_main_v18_apply, e18]
  rfl

end Cert.ReferenceIdeal.RefValue
-- ==== Proof.RefATT.lean ====
import proofs.«105932_j25297357373492_2_alg».proof.Proof.Gen.ReferenceIdeal.Read
import proofs.«105932_j25297357373492_2_alg».proof.Proof.SpecATT

/-! # The reference's attention is the specification's

The reference splits the 1024 lanes of the projected queries, keys and values into 16 heads of width 64
(lane 64 h + d is component d of head h), brings the head axis in front of the position axis, scales the
queries by 1/8, contracts queries and keys over the component, adds the bias, takes the row maximum from
minus infinity, exponentiates the shifted scores, divides by their row sum, contracts with the values over the
key position, and puts the heads back on the lanes. Each stage is read at an index given by its coordinates.
The three projections enter only as arrays: nothing about how they were computed is used. -/

noncomputable section

namespace Cert.ReferenceIdeal.RefValue

open Cert.ReferenceIdeal Cert.ReferenceIdeal.Gen Cert.ReferenceIdeal.Read Cert.Spec
open Idealize.ShloMosaic Idealize.ShloMosaic.ValueIdx
open scoped BigOperators

variable (x0 : (⟨S2x2048x1024, .f32⟩ : BufTy).Contents (Elt Ideal)) (x1 : (⟨S1x16x2048x2048, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal))

/-! ## Splitting the lanes into heads, and back -/

/-- Position (b, i, h, d) of the head-split array is lane 64 h + d of position (b, i). -/
theorem split_idx (b : Fin 2) (h : Fin 16) (i : Fin 2048) (d : Fin 64) :
    idx_main_v25 (idx_main_v26 (ix4 b h i d)) = ix3 b i (lane h d) := by
  have hb := b.isLt; have hh := h.isLt; have hi := i.isLt; have hd := d.isLt
  funext a; apply Fin.ext
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => show (((b.val * 2048 + i.val) * 16 + h.val) * 64 + d.val) % 1024 = 64 * h.val + d.val; omega

/-- Lane 64 h + d of position (b, i) comes from position (b, h, i, d) of the per-head array. -/
theorem merge_idx (b : Fin 2) (h : Fin 16) (i : Fin 2048) (d : Fin 64) :
    idx_main_v48 (idx_main_v49 (ix3 b i (lane h d))) = ix4 b h i d := by
  have hb := b.isLt; have hh := h.isLt; have hi := i.isLt; have hd := d.isLt
  funext a; apply Fin.ext
  match a with
  | ⟨0, _⟩ => show ((b.val * 2048 + i.val) * 1024 + (64 * h.val + d.val)) / 2097152 = b.val; omega
  | ⟨1, _⟩ => show ((b.val * 2048 + i.val) * 1024 + (64 * h.val + d.val)) / 64 % 16 = h.val; omega
  | ⟨2, _⟩ => show ((b.val * 2048 + i.val) * 1024 + (64 * h.val + d.val)) / 1024 % 2048 = i.val; omega
  | ⟨3, _⟩ => show ((b.val * 2048 + i.val) * 1024 + (64 * h.val + d.val)) % 64 = d.val; omega

/-- The scaled queries per head. -/
theorem q_apply (b : Fin 2) (h : Fin 16) (i : Fin 2048) (d : Fin 64) :
    val_main_v28 (F := Ideal) x0 x2 x3 (ix4 b h i d)
      = (val_main_v21 (F := Ideal) x0 x2 x3) (ix3 b i (lane h d)) * Ideal.ofBits .f32 0x3E000000#32 := by
  rw [val_main_v28_apply, val_main_v26_apply, val_main_v25_apply, split_idx, val_main_v27_apply, val_main_cst_4_apply]
  rfl

/-- The keys per head. -/
theorem k_apply (b : Fin 2) (h : Fin 16) (j : Fin 2048) (d : Fin 64) :
    val_main_v30 (F := Ideal) x0 x2 x4 (ix4 b h j d) = (val_main_v23 (F := Ideal) x0 x2 x4) (ix3 b j (lane h d)) := by
  rw [val_main_v30_apply, val_main_v29_apply]
  exact congrArg _ (split_idx b h j d)

/-- The values per head. -/
theorem v_apply (b : Fin 2) (h : Fin 16) (j : Fin 2048) (d : Fin 64) :
    val_main_v32 (F := Ideal) x0 x2 x4 (ix4 b h j d) = (val_main_v24 (F := Ideal) x0 x2 x4) (ix3 b j (lane h d)) := by
  rw [val_main_v32_apply, val_main_v31_apply]
  exact congrArg _ (split_idx b h j d)

/-! ## One row of one head -/

/-- The score row of batch entry `b`, head `h`, query position `i`. -/
def scoreRow (b : Fin 2) (h : Fin 16) (i : Fin 2048) : Fin 2048 → EReal :=
  rowScore (headRow (val_main_v21 (F := Ideal) x0 x2 x3) b h i) (headMat (val_main_v23 (F := Ideal) x0 x2 x4) b h) (biasRow x1 h i)

/-- The biased scores. -/
theorem score_apply (b : Fin 2) (h : Fin 16) (i j : Fin 2048) :
    val_main_v35 (F := Ideal) x0 x1 x2 x3 x4 (ix4 b h i j) = scoreRow x0 x1 x2 x3 x4 b h i j := by
  have el : ∀ k : Fin 64, lidx_main_v33 (ix4 b h i j) k = ix4 b h i k := fun k => by
    funext a; apply Fin.ext
    match a with | ⟨0, _⟩ => rfl | ⟨1, _⟩ => rfl | ⟨2, _⟩ => rfl | ⟨3, _⟩ => rfl
  have er : ∀ k : Fin 64, ridx_main_v33 (ix4 b h i j) k = ix4 b h j k := fun k => by
    funext a; apply Fin.ext
    match a with | ⟨0, _⟩ => rfl | ⟨1, _⟩ => rfl | ⟨2, _⟩ => rfl | ⟨3, _⟩ => rfl
  have eb : idx_main_v34 (ix4 b h i j) = ix4 (0 : Fin 1) h i j := by
    funext a; apply Fin.ext
    match a with | ⟨0, _⟩ => rfl | ⟨1, _⟩ => rfl | ⟨2, _⟩ => rfl | ⟨3, _⟩ => rfl
  rw [val_main_v35_apply, val_main_v33_apply, val_main_v34_apply, eb,
    Finset.sum_congr rfl fun k _ => by rw [el k, er k, q_apply, k_apply]]
  rfl

/-- The host's maximum over the last axis of a rank-4 array, from the word of minus infinity: the fold of
    `max` over the 2048 entries of the row. -/
theorem rowMax_reduce (y : FVec Ideal S2x16x2048x2048 .f32) (b : Fin 2) (h : Fin 16) (i : Fin 2048) :
    Host.reduce FloatOps.maximumf y (val_main_cst_5 (F := Ideal)) reducesTo_S2x16x2048x2048_S2x16x2048_d3 h_S_ (ix3 b h i)
      = (Finset.univ : Finset (Fin 2048)).fold max (Ideal.ofBits .f32 0xFF800000#32) (fun j => y (ix4 b h i j)) := by
  have hr : S2x16x2048x2048.Reduces [3] S2x16x2048 := by decide
  refine (Host.reduce_eq_fold_single FloatOps.maximumf y (val_main_cst_5 (F := Ideal)) reducesTo_S2x16x2048x2048_S2x16x2048_d3 hr h_S_ (ix3 b h i)).trans ?_
  have hf : (y ∘ hr.lift (ix3 b h i)) = fun j : Fin 2048 => y (ix4 b h i j) :=
    funext fun j => congrArg y (by
      funext a; apply Fin.ext
      match a with | ⟨0, _⟩ => rfl | ⟨1, _⟩ => rfl | ⟨2, _⟩ => rfl | ⟨3, _⟩ => rfl)
  exact congrArg (fun f => Finset.fold max (Ideal.ofBits .f32 0xFF800000#32) f (Finset.univ : Finset (Fin 2048))) hf

/-- The row maximum; the second maximum against minus infinity changes nothing, the fold being at least its
    starting value. -/
theorem max_apply (b : Fin 2) (h : Fin 16) (i : Fin 2048) :
    val_main_v38 (F := Ideal) x0 x1 x2 x3 x4 (ix3 b h i) = rowMax (scoreRow x0 x1 x2 x3 x4 b h i) := by
  rw [val_main_v38_apply, val_main_v37_apply, val_main_cst_6_apply]
  unfold val_main_v36
  rw [rowMax_reduce]
  simp only [score_apply]
  show max (Ideal.ofBits .f32 0xFF800000#32) (rowMax (scoreRow x0 x1 x2 x3 x4 b h i)) = _
  exact max_eq_right ((Finset.le_fold_max _).mpr (Or.inl le_rfl))

/-- The shifted exponentials. -/
theorem exp_apply (b : Fin 2) (h : Fin 16) (i j : Fin 2048) :
    val_main_v42 (F := Ideal) x0 x1 x2 x3 x4 (ix4 b h i j) = rowExp (scoreRow x0 x1 x2 x3 x4 b h i) j := by
  have e : idx_main_v39 (idx_main_v40 (ix4 b h i j)) = ix3 b h i := by
    funext a; apply Fin.ext
    match a with | ⟨0, _⟩ => rfl | ⟨1, _⟩ => rfl | ⟨2, _⟩ => rfl
  rw [val_main_v42_apply, val_main_v41_apply, score_apply, val_main_v40_apply, val_main_v39_apply, e, max_apply]
  rfl

/-- Their row sum: the initial value is the zero word, so it drops out. -/
theorem sum_apply (b : Fin 2) (h : Fin 16) (i : Fin 2048) :
    val_main_v43 (F := Ideal) x0 x1 x2 x3 x4 (ix3 b h i) = rowSum (scoreRow x0 x1 x2 x3 x4 b h i) := by
  have e : ∀ k : Fin 2048, idx_main_v43 (ix3 b h i) k = ix4 b h i k := fun k => by
    funext a; apply Fin.ext
    match a with | ⟨0, _⟩ => rfl | ⟨1, _⟩ => rfl | ⟨2, _⟩ => rfl | ⟨3, _⟩ => rfl
  rw [val_main_v43_apply, val_main_cst_7_apply, Ideal.ofBits_def, Ideal.ofBits_zero_f32, zero_add,
    Finset.sum_congr rfl fun k _ => by rw [e k, exp_apply]]
  rfl

/-- The softmax weights. -/
theorem soft_apply (b : Fin 2) (h : Fin 16) (i j : Fin 2048) :
    val_main_v46 (F := Ideal) x0 x1 x2 x3 x4 (ix4 b h i j) = rowSoftmax (scoreRow x0 x1 x2 x3 x4 b h i) j := by
  have e : idx_main_v44 (idx_main_v45 (ix4 b h i j)) = ix3 b h i := by
    funext a; apply Fin.ext
    match a with | ⟨0, _⟩ => rfl | ⟨1, _⟩ => rfl | ⟨2, _⟩ => rfl
  rw [val_main_v46_apply, exp_apply, val_main_v45_apply, val_main_v44_apply, e, sum_apply]
  rfl

/-- The weighted values per head. -/
theorem out_apply (b : Fin 2) (h : Fin 16) (i : Fin 2048) (d : Fin 64) :
    val_main_v47 (F := Ideal) x0 x1 x2 x3 x4 (ix4 b h i d)
      = attnAt (val_main_v21 (F := Ideal) x0 x2 x3) (val_main_v23 (F := Ideal) x0 x2 x4) (val_main_v24 (F := Ideal) x0 x2 x4) x1 b h i d := by
  have el : ∀ k : Fin 2048, lidx_main_v47 (ix4 b h i d) k = ix4 b h i k := fun k => by
    funext a; apply Fin.ext
    match a with | ⟨0, _⟩ => rfl | ⟨1, _⟩ => rfl | ⟨2, _⟩ => rfl | ⟨3, _⟩ => rfl
  have er : ∀ k : Fin 2048, ridx_main_v47 (ix4 b h i d) k = ix4 b h k d := fun k => by
    funext a; apply Fin.ext
    match a with | ⟨0, _⟩ => rfl | ⟨1, _⟩ => rfl | ⟨2, _⟩ => rfl | ⟨3, _⟩ => rfl
  rw [val_main_v47_apply, Finset.sum_congr rfl fun k _ => by rw [el k, er k, soft_apply, v_apply]]
  rfl

/-- The reference's attention output is the specification's, of the three projections and the bias. -/
theorem att_eq (x0 : (⟨S2x2048x1024, .f32⟩ : BufTy).Contents (Elt Ideal)) (x1 : (⟨S1x16x2048x2048, .f32⟩ : BufTy).Contents (Elt Ideal)) (x2 : (⟨S1024, .f32⟩ : BufTy).Contents (Elt Ideal)) (x3 : (⟨S1024x1024, .f32⟩ : BufTy).Contents (Elt Ideal)) (x4 : (⟨S2048x1024, .f32⟩ : BufTy).Contents (Elt Ideal)) :
    Cert.ReferenceIdeal.Read.val_main_v49 x0 x1 x2 x3 x4
      = Cert.Spec.ATT (Cert.ReferenceIdeal.Read.val_main_v21 x0 x2 x3) (Cert.ReferenceIdeal.Read.val_main_v23 x0 x2 x4)
          (Cert.ReferenceIdeal.Read.val_main_v24 x0 x2 x4) x1 := by
  funext x
  obtain ⟨b, i, e, rfl⟩ : ∃ (b : Fin 2) (i : Fin 2048) (e : Fin 1024), x = ix3 b i e := ⟨x 0, x 1, x 2, eq_ix3 x⟩
  obtain ⟨h, d, rfl⟩ : ∃ (h : Fin 16) (d : Fin 64), e = lane h d := ⟨headOf e, compOf e, (lane_headOf_compOf e).symm⟩
  rw [ATT_apply, val_main_v49_apply, val_main_v48_apply, merge_idx, out_apply]

end Cert.ReferenceIdeal.RefValue
-- ==== Proof.Value.lean ====
/-
  The kernel's result array is the reference's.

  After the last host stretch the result array is: the output projection's product, given its batch axis back, of
  (attention's output, flattened) with (the output weights, transposed).  Attention's output is the softmax-attention
  function of the three lane ranges of the fused projection and the bias; those three lane ranges are, entry by
  entry, the reference's separate query, key and value projections of the same normalised input; and the flattened
  product with the transposed weights is, entry by entry, the reference's last contraction.  Every sum runs over the
  same index set with its factors in the same order on both sides: nothing is rearranged but the layout.
-/
import proofs.«105932_j25297357373492_2_alg».proof.Proof.KIStageA
import proofs.«105932_j25297357373492_2_alg».proof.Proof.KIValue3
import proofs.«105932_j25297357373492_2_alg».proof.Proof.KIValue2E
import proofs.«105932_j25297357373492_2_alg».proof.Proof.GlueMM
import proofs.«105932_j25297357373492_2_alg».proof.Proof.RefLN
import proofs.«105932_j25297357373492_2_alg».proof.Proof.RefATT

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.ReferenceIdeal.Read Cert.ReferenceIdeal.RefValue

variable (m : (ℓ : Loc nD τ sig) → Buf (Elt Ideal) ℓ) (ρ : Dev nD → PrngReg) (c : Dev nD)

/-- The output weights as the output projection finds them: transposed. -/
theorem wout_eq : B6 m ρ c (Proc.devRef .tc main_v6) = transp1024 (m ((c : Thread nD τ).loc main_arg5)) :=
  (B6_main_v6 m ρ c).trans ((host1_v6 (B1 m ρ c)).trans (congrArg transp1024 (B1_main_arg5 m ρ c)))

/-- Attention's output is the reference's: the attention function of the reference's own query, key and value
    projections and the bias. -/
theorem attn_eq : B5 m ρ c (Proc.devRef .tc main_v9)
    = val_main_v49 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (B5_out m ρ c).trans ((arrAt2 (E2 m ρ) c).trans ?_)
  unfold attOf qOf kOf vOf
  rw [show E2 m ρ c main_v8 = _ from fused_eq m ρ c, show E2 m ρ c main_arg1 = _ from B4_main_arg1 m ρ c,
    ← ln_eq, q_glue, k_glue, v_glue, ← att_eq]

/-- THE RESULT: the last boundary has the result array at the reference's composed term of the six arguments. -/
theorem result_eq : B8 m ρ c (Proc.devRef .tc main_v12) = val_main_v50 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  have hrows : B6 m ρ c (Proc.devRef .tc main_v10) = merge1024 (val_main_v49 (F := Ideal) (m ((c : Thread nD τ).loc main_arg0))
      (m ((c : Thread nD τ).loc main_arg1)) (m ((c : Thread nD τ).loc main_arg2)) (m ((c : Thread nD τ).loc main_arg3))
      (m ((c : Thread nD τ).loc main_arg4))) :=
    (host3_v10 (B5 m ρ c)).trans (congrArg merge1024 (attn_eq m ρ c))
  refine (host4_v12 (B7 m ρ c)).trans ((congrArg split1024 ((B7_main_v11 m ρ c).trans ((arrAt3 (E3 m ρ) c).trans
    (congrArg₂ prod3 hrows (wout_eq m ρ c))))).trans ?_)
  rw [out_glue]
  exact out_ref _ _ _ _ _ _

end Cert.KernelIdeal.Hand

end
-- ==== Proof.lean ====
/-
  Pre-norm self-attention with an additive relative-position bias: layer norm over the sequence axis, the fused
  query/key/value projection, softmax attention per head, the output projection — as four pallas calls among host
  reshapes, against the plain jnp reference.

  The three frames: both printed kernel programs run as eight segments (Proof/KRun.lean, Proof/KIRun.lean — the same
  text at the two float instances), each argument's buffer walked back to its launch contents (Proof/KFrame.lean,
  Proof/KIFrame.lean); the reference is a straight host program whose run is read back whole.  The idealization
  rewrote nothing, so `preserves` asks nothing.  The value: at the extended reals the kernel's result array and the
  reference's are one function of the six arguments, index by index (Proof/Value.lean): the two programs compute the
  same formulas in the same association, and only the layout (flattened rows, heads packed two to a 128-lane tile,
  the three projections fused into one matrix product) and the arrangement of the sums differ.
-/
import proofs.«105932_j25297357373492_2_alg».proof.Defs
import proofs.«105932_j25297357373492_2_alg».proof.Proof.Gen.Kernel
import proofs.«105932_j25297357373492_2_alg».proof.Proof.Gen.KernelIdeal
import proofs.«105932_j25297357373492_2_alg».proof.Proof.Gen.ReferenceIdeal
import proofs.«105932_j25297357373492_2_alg».proof.Proof.Gen.Pre_finite_inputs
import proofs.«105932_j25297357373492_2_alg».proof.Proof.Gen.ReferenceIdeal.Run
import proofs.«105932_j25297357373492_2_alg».proof.Proof.Gen.ReferenceIdeal.Read
import proofs.«105932_j25297357373492_2_alg».proof.Proof.KFrame
import proofs.«105932_j25297357373492_2_alg».proof.Proof.KIFrame
import proofs.«105932_j25297357373492_2_alg».proof.Proof.Value
import Idealize.ShloMosaic.Adequacy
import Idealize.ShloMosaic.Init

noncomputable section

namespace Cert.Proof

open Idealize.ShloMosaic Idealize.ShloMosaic.TcCoe Idealize.SL.Sem

/-- The word-level kernel program runs, nothing faulting, its arguments unchanged. -/
theorem frame_k : Cert.frame_Kernel (hKernel := Cert.Kernel.Gen.facts) (hPre_finite_inputs := Cert.Pre_finite_inputs.Gen.facts) :=
  fun m ρ _ => Cert.Kernel.Hand.frame m ρ

/-- So does its reading at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run read back, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end holding, on every core, the reference's composed term of the six arguments: the kernel's last
    boundary has the result array at it (`Cert.KernelIdeal.Hand.result_eq`), the reference's run states it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v12 (by decide))).trans (Cert.KernelIdeal.Hand.result_eq m ρ c),
      (h c _ (Cert.KernelIdeal.Hand.mem_uc Cert.KernelIdeal.main_arg0 (by decide))).trans (Cert.KernelIdeal.Hand.B8_main_arg0 m ρ c),
      (h c _ (Cert.KernelIdeal.Hand.mem_uc Cert.KernelIdeal.main_arg1 (by decide))).trans (Cert.KernelIdeal.Hand.B8_main_arg1 m ρ c),
      (h c _ (Cert.KernelIdeal.Hand.mem_uc Cert.KernelIdeal.main_arg2 (by decide))).trans (Cert.KernelIdeal.Hand.B8_main_arg2 m ρ c),
      (h c _ (Cert.KernelIdeal.Hand.mem_uc Cert.KernelIdeal.main_arg3 (by decide))).trans (Cert.KernelIdeal.Hand.B8_main_arg3 m ρ c),
      (h c _ (Cert.KernelIdeal.Hand.mem_uc Cert.KernelIdeal.main_arg4 (by decide))).trans (Cert.KernelIdeal.Hand.B8_main_arg4 m ρ c),
      (h c _ (Cert.KernelIdeal.Hand.mem_uc Cert.KernelIdeal.main_arg5 (by decide))).trans (Cert.KernelIdeal.Hand.B8_main_arg5 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v50_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
